-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S400000 : Shape := ⟨1, ![400000]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S256x40 .f32) (main_arg14 : FVec F S40 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x40 .f32 := Host.absf main_arg13
  let main_cst_20 : FVec F S_ .f32 := constant S_ .f32 0x7F800000#32
  let main_v55 : FVec F S256x40 .f32 := broadcastInDim S256x40 ![] bcast_S_S256x40 main_cst_20
  let main_v56 : IVec S256x40 1 := cmpf .olt main_v54 main_v55
  let main_c_21 : IVec S_ 1 := constantI S_ 1 1#1
  let main_v57 : IVec S_ 1 := (fun x v => Host.reduce IntOp.andi x v reducesTo_S256x40_S_d0_1 h_S_) main_v56 main_c_21
  let main_v58 : IVec S_ 1 := andi main_v53 main_v57
  let main_v59 : FVec F S40 .f32 := Host.absf main_arg14
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S256x256 .f32) (main_arg12 : FVec F S256 .f32) (main_arg13 : FVec F S256x40 .f32) (main_arg14 : FVec F S40 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_arg13 : FVec F S256x40 .f32) (main_arg14 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x512 .f32) (main_arg1 : IVec S400000 32) (main_arg2 : IVec S400000 32) (main_arg3 : FVec F S512x256 .f32) (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_arg13 : FVec F S256x40 .f32) (main_arg14 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S50000x512 : Shape := ⟨2, ![50000, 512]⟩
abbrev S400000 : Shape := ⟨1, ![400000]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S50000x256 : Shape := ⟨2, ![50000, 256]⟩
abbrev S2000x512 : Shape := ⟨2, ![2000, 512]⟩
abbrev S2000x256 : Shape := ⟨2, ![2000, 256]⟩
abbrev S1x256 : Shape := ⟨2, ![1, 256]⟩
abbrev S_ : Shape := ⟨0, ![]⟩
abbrev S400000x1 : Shape := ⟨2, ![400000, 1]⟩
abbrev S400000x256 : Shape := ⟨2, ![400000, 256]⟩
abbrev S80000x256 : Shape := ⟨2, ![80000, 256]⟩
abbrev S50000x40 : Shape := ⟨2, ![50000, 40]⟩
abbrev S2000x40 : Shape := ⟨2, ![2000, 40]⟩
abbrev S1x40 : Shape := ⟨2, ![1, 40]⟩

abbrev nBuf : Space → Nat
  | .hbm => 112
  | .vmem => 60
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x40, .f32⟩
  | .hbm, ⟨14, _⟩ => ⟨S40, .f32⟩
  | .hbm, ⟨15, _⟩ => ⟨S512x256, .bf16⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .bf16⟩
  | .hbm, ⟨21, _⟩ => ⟨S256x256, .bf16⟩
  | .hbm, ⟨22, _⟩ => ⟨S256x256, .bf16⟩
  | .hbm, ⟨23, _⟩ => ⟨S256x40, .bf16⟩
  | .hbm, ⟨24, _⟩ => ⟨S50000x256, .f32⟩
  | .hbm, ⟨25, _⟩ => ⟨S50000x256, .bf16⟩
  | .hbm, ⟨26, _⟩ => ⟨S50000x256, .bf16⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000x256, .bf16⟩
  | .hbm, ⟨36, _⟩ => ⟨S400000x256, .f32⟩
  | .hbm, ⟨37, _⟩ => ⟨S_, .f32⟩
  | .hbm, ⟨38, _⟩ => ⟨S80000x256, .f32⟩
  | .hbm, ⟨39, _⟩ => ⟨S400000x1, .i32⟩
  | .hbm, ⟨40, _⟩ => ⟨S80000x256, .f32⟩
  | .hbm, ⟨41, _⟩ => ⟨S80000x256, .bf16⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000x256, .bf16⟩
  | .hbm, ⟨51, _⟩ => ⟨S400000x256, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x256, .bf16⟩
  | .hbm, ⟨61, _⟩ => ⟨S400000x256, .f32⟩
  | .hbm, ⟨62, _⟩ => ⟨S400000x256, .f32⟩
  | .hbm, ⟨63, _⟩ => ⟨S_, .f32⟩
  | .hbm, ⟨64, _⟩ => ⟨S50000x256, .f32⟩
  | .hbm, ⟨65, _⟩ => ⟨S400000x1, .i32⟩
  | .hbm, ⟨66, _⟩ => ⟨S50000x256, .f32⟩
  | .hbm, ⟨67, _⟩ => ⟨S50000x256, .f32⟩
  | .hbm, ⟨68, _⟩ => ⟨S50000x256, .bf16⟩
  | .hbm, ⟨69, _⟩ => ⟨S50000x256, .bf16⟩
  | .hbm, ⟨70, _⟩ => ⟨S_, .i32⟩
  | .hbm, ⟨71, _⟩ => ⟨S400000, .i32⟩
  | .hbm, ⟨72, _⟩ => ⟨S400000, .i1⟩
  | .hbm, ⟨73, _⟩ => ⟨S_, .i32⟩
  | .hbm, ⟨74, _⟩ => ⟨S400000, .i32⟩
  | .hbm, ⟨75, _⟩ => ⟨S400000, .i32⟩
  | .hbm, ⟨76, _⟩ => ⟨S400000, .i32⟩
  | .hbm, ⟨77, _⟩ => ⟨S400000x1, .i32⟩
  | .hbm, ⟨78, _⟩ => ⟨S400000x256, .bf16⟩
  | .hbm, ⟨79, _⟩ => ⟨S400000x256, .f32⟩
  | .hbm, ⟨80, _⟩ => ⟨S_, .f32⟩
  | .hbm, ⟨81, _⟩ => ⟨S80000x256, .f32⟩
  | .hbm, ⟨82, _⟩ => ⟨S400000x1, .i32⟩
  | .hbm, ⟨83, _⟩ => ⟨S80000x256, .f32⟩
  | .hbm, ⟨84, _⟩ => ⟨S80000x256, .bf16⟩
  | .hbm, ⟨85, _⟩ => ⟨S_, .i32⟩
  | .hbm, ⟨86, _⟩ => ⟨S400000, .i32⟩
  | .hbm, ⟨87, _⟩ => ⟨S400000, .i1⟩
  | .hbm, ⟨88, _⟩ => ⟨S_, .i32⟩
  | .hbm, ⟨89, _⟩ => ⟨S400000, .i32⟩
  | .hbm, ⟨90, _⟩ => ⟨S400000, .i32⟩
  | .hbm, ⟨91, _⟩ => ⟨S400000, .i32⟩
  | .hbm, ⟨92, _⟩ => ⟨S400000x1, .i32⟩
  | .hbm, ⟨93, _⟩ => ⟨S400000x256, .bf16⟩
  | .hbm, ⟨94, _⟩ => ⟨S400000x256, .f32⟩
  | .hbm, ⟨95, _⟩ => ⟨S_, .i32⟩
  | .hbm, ⟨96, _⟩ => ⟨S400000, .i32⟩
  | .hbm, ⟨97, _⟩ => ⟨S400000, .i1⟩
  | .hbm, ⟨98, _⟩ => ⟨S_, .i32⟩
  | .hbm, ⟨99, _⟩ => ⟨S400000, .i32⟩
  | .hbm, ⟨100, _⟩ => ⟨S400000, .i32⟩
  | .hbm, ⟨101, _⟩ => ⟨S400000, .i32⟩
  | .hbm, ⟨102, _⟩ => ⟨S400000x1, .i32⟩
  | .hbm, ⟨103, _⟩ => ⟨S400000x256, .bf16⟩
  | .hbm, ⟨104, _⟩ => ⟨S400000x256, .f32⟩
  | .hbm, ⟨105, _⟩ => ⟨S400000x256, .f32⟩
  | .hbm, ⟨106, _⟩ => ⟨S_, .f32⟩
  | .hbm, ⟨107, _⟩ => ⟨S50000x256, .f32⟩
  | .hbm, ⟨108, _⟩ => ⟨S400000x1, .i32⟩
  | .hbm, ⟨109, _⟩ => ⟨S50000x256, .f32⟩
  | .hbm, ⟨110, _⟩ => ⟨S50000x256, .f32⟩
  | .hbm, ⟨111, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S2000x256, .bf16⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S256, .f32⟩
  | .local _ .vmem, ⟨19, _⟩ => ⟨S2000x256, .bf16⟩
  | .local _ .vmem, ⟨20, _⟩ => ⟨S2000x256, .bf16⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S256x256, .bf16⟩
  | .local _ .vmem, ⟨26, _⟩ => ⟨S256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .bf16⟩
  | .local _ .vmem, ⟨32, _⟩ => ⟨S256, .f32⟩
  | .local _ .vmem, ⟨33, _⟩ => ⟨S256x256, .bf16⟩
  | .local _ .vmem, ⟨34, _⟩ => ⟨S2000x256, .bf16⟩
  | .local _ .vmem, ⟨35, _⟩ => ⟨S2000x256, .bf16⟩
  | .local _ .vmem, ⟨36, _⟩ => ⟨S2000x256, .bf16⟩
  | .local _ .vmem, ⟨37, _⟩ => ⟨S2000x256, .bf16⟩
  | .local _ .vmem, ⟨38, _⟩ => ⟨S2000x256, .f32⟩
  | .local _ .vmem, ⟨39, _⟩ => ⟨S2000x256, .f32⟩
  | .local _ .vmem, ⟨40, _⟩ => ⟨S256x256, .bf16⟩
  | .local _ .vmem, ⟨41, _⟩ => ⟨S256, .f32⟩
  | .local _ .vmem, ⟨42, _⟩ => ⟨S2000x256, .bf16⟩
  | .local _ .vmem, ⟨43, _⟩ => ⟨S2000x256, .bf16⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x256, .bf16⟩
  | .local _ .vmem, ⟨49, _⟩ => ⟨S256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S256x256, .bf16⟩
  | .local _ .vmem, ⟨55, _⟩ => ⟨S256, .f32⟩
  | .local _ .vmem, ⟨56, _⟩ => ⟨S256x40, .bf16⟩
  | .local _ .vmem, ⟨57, _⟩ => ⟨S40, .f32⟩
  | .local _ .vmem, ⟨58, _⟩ => ⟨S2000x40, .f32⟩
  | .local _ .vmem, ⟨59, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_c_6 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_9 : Ref sig .tc := ⟨.hbm, 85, rfl⟩
abbrev main_v57 : Ref sig .tc := ⟨.hbm, 86, rfl⟩
abbrev main_v58 : Ref sig .tc := ⟨.hbm, 87, rfl⟩
abbrev main_c_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem4_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x40 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S40 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x40 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bitsLt_bf16_f32 : FTy.bits .bf16 < FTy.bits .f32
  slices_S512x256_S256x256_0_0 : S512x256.Slices ![0, 0] S256x256
  slices_S512x256_S256x256_256_0 : S512x256.Slices ![256, 0] S256x256
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S2000x256_S2000x256_0_0 : (Rect.unit (s := S2000x256) ![0, 0] S2000x256.size inb_S2000x256_S2000x256_0_0).PackedRows (EltTy.packing .bf16)
  bcast_S_S400000 : S_.BroadcastsInDim S400000 (![] : Fin 0 → Fin S400000.rank)
  bcast_S400000_S400000x1_0 : S400000.BroadcastsInDim S400000x1 (![0] : Fin 1 → Fin S400000x1.rank)
  bcast_S_S80000x256 : S_.BroadcastsInDim S80000x256 (![] : Fin 0 → Fin S80000x256.rank)
  bcast_S_S50000x256 : S_.BroadcastsInDim S50000x256 (![] : Fin 0 → Fin S50000x256.rank)
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  gather_S50000x256_S400000x1_S400000x256_1_0_n_n_0_1_1256_wf : GatherDims.WF S50000x256 S400000x1 S400000x256 [1] [0] [] [0] [] 1 ![1, 256]
  scatter_S80000x256_S400000x1_S400000x256_1_0_0_1_wf : ScatterDims.WF S80000x256 S400000x1 S400000x256 [1] [0] [0] 1
  gather_S80000x256_S400000x1_S400000x256_1_0_n_n_0_1_1256_wf : GatherDims.WF S80000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .bf16 = 32 ∨ (Rect.block (s := S50000x256) S2000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S80000x256.size a
  hwx2_0 : ∀ i : grid2.Coords, EltTy.bits .f32 = 32 ∨ (Rect.block (s := S80000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S80000x256.size a
  hwx2_3 : ∀ i : grid2.Coords, EltTy.bits .bf16 = 32 ∨ (Rect.block (s := S80000x256) S2000x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .bf16 = 32 ∨ (Rect.block (s := S50000x256) S2000x256.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .bf16 = 32 ∨ (Rect.block (s := S50000x256) S2000x256.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S80000x256.size a
  hwx5_0 : ∀ i : grid5.Coords, EltTy.bits .f32 = 32 ∨ (Rect.block (s := S80000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S80000x256.size a
  hwx5_3 : ∀ i : grid5.Coords, EltTy.bits .bf16 = 32 ∨ (Rect.block (s := S80000x256) S2000x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .bf16 = 32 ∨ (Rect.block (s := S256x256) S256x256.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256.size a ≤ S256.size a
  hwx6_3 : ∀ i : grid6.Coords, EltTy.bits .f32 = 32 ∨ (Rect.block (s := S256) S256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S50000x256.size a
  hwx6_4 : ∀ i : grid6.Coords, EltTy.bits .f32 = 32 ∨ (Rect.block (s := S50000x256) S2000x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .bf16 = 32 ∨ (Rect.block (s := S256x256) S256x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256.size a ≤ S256.size a
  hwx7_2 : ∀ i : grid7.Coords, EltTy.bits .f32 = 32 ∨ (Rect.block (s := S256) S256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x40.size a ≤ S256x40.size a
  hwx7_3 : ∀ i : grid7.Coords, EltTy.bits .bf16 = 32 ∨ (Rect.block (s := S256x40) S256x40.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S40.size a ≤ S40.size a
  hwx7_4 : ∀ i : grid7.Coords, EltTy.bits .f32 = 32 ∨ (Rect.block (s := S40) S40.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x40.size a ≤ S50000x40.size a
  hwx7_5 : ∀ i : grid7.Coords, EltTy.bits .f32 = 32 ∨ (Rect.block (s := S50000x40) S2000x40.size (cc7_transform_5 i) (hinb7_5 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S80000x256_S400000x1_S400000x256_1_0_0_1 : ScatterDims S80000x256 S400000x1 S400000x256 where
  updateWindowDims := [1]
  insertedWindowDims := [0]
  scatterDimsToOperandDims := [0]
  indexVectorDim := 1
  wf := scatter_S80000x256_S400000x1_S400000x256_1_0_0_1_wf
def gather_S80000x256_S400000x1_S400000x256_1_0_n_n_0_1_1256 : GatherDims S80000x256 S400000x1 S400000x256 where
  offsetDims := [1]
  collapsedSliceDims := [0]
  operandBatchingDims := []
  startIndicesBatchingDims := []
  startIndexMap := [0]
  indexVectorDim := 1
  sliceSizes := ![1, 256]
  wf := gather_S80000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v43) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v3) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v44_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v44_1) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v55) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v76) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v6) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S2000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v77) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v8) S256x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg14) S40.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v78) S2000x40.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x512 : Shape := ⟨2, ![50000, 512]⟩
abbrev S400000 : Shape := ⟨1, ![400000]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S50000x256 : Shape := ⟨2, ![50000, 256]⟩
abbrev S1x256 : Shape := ⟨2, ![1, 256]⟩
abbrev S_ : Shape := ⟨0, ![]⟩
abbrev S400000x1 : Shape := ⟨2, ![400000, 1]⟩
abbrev S400000x256 : Shape := ⟨2, ![400000, 256]⟩
abbrev S80000x256 : Shape := ⟨2, ![80000, 256]⟩
abbrev S400000x512 : Shape := ⟨2, ![400000, 512]⟩
abbrev S50000x40 : Shape := ⟨2, ![50000, 40]⟩
abbrev S1x40 : Shape := ⟨2, ![1, 40]⟩

abbrev nBuf : Space → Nat
  | .hbm => 149
  | .vmem => 0
  | .smem => 0
  | _ => 0

abbrev hbmTy0_0 (i : Nat) : BufTy := match i % 128 with
  | 0 => ⟨S50000x512, .f32⟩
  | 1 => ⟨S400000, .i32⟩
  | 2 => ⟨S400000, .i32⟩
  | 3 => ⟨S512x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x40, .f32⟩
  | 14 => ⟨S40, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x256, .f32⟩
  | 35 => ⟨S_, .f32⟩
  | 36 => ⟨S80000x256, .f32⟩
  | 37 => ⟨S400000x1, .i32⟩
  | 38 => ⟨S80000x256, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x256, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x256, .f32⟩
  | 57 => ⟨S400000x512, .f32⟩
  | 58 => ⟨S400000x256, .f32⟩
  | 59 => ⟨S1x256, .f32⟩
  | 60 => ⟨S400000x256, .f32⟩
  | 61 => ⟨S400000x256, .f32⟩
  | 62 => ⟨S_, .f32⟩
  | 63 => ⟨S50000x256, .f32⟩
  | 64 => ⟨S400000x1, .i32⟩
  | 65 => ⟨S50000x256, .f32⟩
  | 66 => ⟨S_, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .i32⟩
  | 85 => ⟨S400000, .i32⟩
  | 86 => ⟨S400000, .i1⟩
  | 87 => ⟨S_, .i32⟩
  | 88 => ⟨S400000, .i32⟩
  | 89 => ⟨S400000, .i32⟩
  | 90 => ⟨S400000, .i32⟩
  | 91 => ⟨S400000x1, .i32⟩
  | 92 => ⟨S400000x256, .f32⟩
  | 93 => ⟨S_, .f32⟩
  | 94 => ⟨S80000x256, .f32⟩
  | 95 => ⟨S400000x1, .i32⟩
  | 96 => ⟨S80000x256, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x256, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x256, .f32⟩
  | 115 => ⟨S400000x512, .f32⟩
  | 116 => ⟨S400000x256, .f32⟩
  | 117 => ⟨S1x256, .f32⟩
  | 118 => ⟨S400000x256, .f32⟩
  | 119 => ⟨S400000x256, .f32⟩
  | 120 => ⟨S_, .f32⟩
  | 121 => ⟨S50000x256, .f32⟩
  | 122 => ⟨S400000x1, .i32⟩
  | 123 => ⟨S50000x256, .f32⟩
  | 124 => ⟨S_, .f32⟩
  | 125 => ⟨S50000x256, .f32⟩
  | 126 => ⟨S50000x256, .f32⟩
  | 127 => ⟨S_, .f32⟩
  | _ => ⟨S50000x512, .f32⟩

abbrev hbmTy0_1 (i : Nat) : BufTy := match i % 128 with
  | 0 => ⟨S50000x256, .f32⟩
  | 1 => ⟨S50000x256, .f32⟩
  | 2 => ⟨S50000x256, .f32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S50000x40, .f32⟩
  | 18 => ⟨S1x40, .f32⟩
  | 19 => ⟨S50000x40, .f32⟩
  | 20 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_cst : Ref sig .tc := ⟨.hbm, 77, rfl⟩
abbrev main_call1_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_8 : Ref sig .tc := ⟨.hbm, 84, rfl⟩
abbrev main_v55 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_13 : Ref sig .tc := ⟨.hbm, 106, rfl⟩
abbrev main_v72 : Ref sig .tc := ⟨.hbm, 107, rfl⟩
abbrev main_v73 : Ref sig .tc := ⟨.hbm, 108, rfl⟩
abbrev main_c_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call2_cst : Ref sig .tc := ⟨.hbm, 135, rfl⟩
abbrev main_call2_v0 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call3_cst : Ref sig .tc := ⟨.hbm, 142, rfl⟩
abbrev main_call3_v0 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S80000x256 : S_.BroadcastsInDim S80000x256 (![] : Fin 0 → Fin S80000x256.rank)
  concatenates_S400000x256_S400000x256_S400000x512_d1 : Shape.Concatenates [S400000x256, S400000x256] S400000x512 1
  bcast_S1x256_S400000x256_0_1 : S1x256.BroadcastsInDim S400000x256 (![0, 1] : Fin 2 → Fin S400000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S80000x256_S400000x1_S400000x256_1_0_0_1_wf : ScatterDims.WF S80000x256 S400000x1 S400000x256 [1] [0] [0] 1
  gather_S80000x256_S400000x1_S400000x256_1_0_n_n_0_1_1256_wf : GatherDims.WF S80000x256 S400000x1 S400000x256 [1] [0] [] [0] [] 1 ![1, 256]
  dot_S400000x512_S512x256_S400000x256_1_0_0_1_n_n_wf : DotDims.WF S400000x512 S512x256 S400000x256 [1] [0] [0] [1] [] []
  scatter_S50000x256_S400000x1_S400000x256_1_0_0_1_wf : ScatterDims.WF S50000x256 S400000x1 S400000x256 [1] [0] [0] 1
  dot_S50000x256_S256x40_S50000x40_1_0_0_1_n_n_wf : DotDims.WF S50000x256 S256x40 S50000x40 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S80000x256_S400000x1_S400000x256_1_0_0_1 : ScatterDims S80000x256 S400000x1 S400000x256 where
  updateWindowDims := [1]
  insertedWindowDims := [0]
  scatterDimsToOperandDims := [0]
  indexVectorDim := 1
  wf := scatter_S80000x256_S400000x1_S400000x256_1_0_0_1_wf
def gather_S80000x256_S400000x1_S400000x256_1_0_n_n_0_1_1256 : GatherDims S80000x256 S400000x1 S400000x256 where
  offsetDims := [1]
  collapsedSliceDims := [0]
  operandBatchingDims := []
  startIndicesBatchingDims := []
  startIndexMap := [0]
  indexVectorDim := 1
  sliceSizes := ![1, 256]
  wf := gather_S80000x256_S400000x1_S400000x256_1_0_n_n_0_1_1256_wf
def dot_S400000x512_S512x256_S400000x256_1_0_0_1_n_n : DotDims S400000x512 S512x256 S400000x256 where
  lhsContracting := [1]
  rhsContracting := [0]
  lhsNonContracting := [0]
  rhsNonContracting := [1]
  lhsBatch := []
  rhsBatch := []
  wf := dot_S400000x512_S512x256_S400000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel program's run with its result named.

  @main is thirteen segments: five stretches of host operations and eight pipelined regions. The contents of
  every buffer at every segment boundary are a fold from the launch memory (`Gen.W0` … `Gen.W13`): a host
  stretch applies its operations, a region leaves its output arrays at what its write-backs compose to and every
  other buffer as it was. Every weakly fair execution terminates without a fault, and the final state holds, at
  each unscoped buffer, the last boundary's contents; so the result array ends at `Gen.W13 m ρ c main_v78`, and
  each argument array, which no segment writes, ends as launched.
-/
import proofs.«173693_j49658411876807_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last
    boundary's contents of its buffer and the fifteen argument arrays end as launched. The launch over the
    thirteen segments, the last thread state read against the final state, the result at its buffer and each
    argument walked back through the fold. -/
theorem run : θ_run defs (onTc (τ := τ) (main (F := F))) ⟨m, fun _ => 0, ρ⟩ (fun r => ∀ c : Dev nD,
      r.2.mem ((c.tc : Thread nD τ).loc main_v78) = W13 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v78 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.RunValue

end
-- ==== Proof.Trace1.lean ====
/-
  The host arithmetic between the dense stages of the kernel program, read at the extended reals.

  Between its dense stages the program moves rows on the host. An incidence list names, for each of the 400000
  incidences, a vertex (out of 50000) or a hyperedge (out of 80000); a negative entry counts from the end, so the
  list is first normalised by adding the row count to the negative entries, and then used as a column of row
  numbers. A GATHER copies, for every incidence, the named row of a matrix of 256 columns; a SCATTER-ADD starts
  from the zero matrix and adds every incidence row onto the row its incidence names. This module names those four
  movements once, for any operands, and then reads each stretch of host operations of the program at the one
  buffer a dense stage takes from it: the weights narrowed to sixteen bits before the first stage (the second
  weight matrix of a layer in its upper and lower halves of 256 rows), the hyperedge sums of a layer's first
  half, and the vertex sums of its second half. Each reading is for ANY contents of the buffers at the start of
  the stretch, and is the stretch's printed operations composed.
-/
import proofs.«173693_j49658411876807_2_alg».proof.Proof.Gen.KernelIdeal.Launch
import Idealize.ShloMosaic.Lib.StableHlo.Run
import Idealize.ShloMosaic.PureOps.Ideal

noncomputable section

namespace Cert.KernelIdeal.Trace

open Idealize.ShloMosaic Idealize.ShloMosaic.TcCoe
open Cert.KernelIdeal Cert.KernelIdeal.Gen

/-! ## The four row movements -/

/-- The vertex of each incidence as a column of row numbers: an entry below zero counts from the end, so the
    vertex count 50000 is added to it. -/
def colV (x1 : IVec S400000 32) : IVec S400000x1 32 :=
  broadcastInDim S400000x1 ![0] bcast_S400000_S400000x1_0
    (select (cmpi .slt x1 (broadcastInDim S400000 ![] bcast_S_S400000 (constantI S_ 32 0#32)))
      (addi x1 (broadcastInDim S400000 ![] bcast_S_S400000 (constantI S_ 32 50000#32))) x1)

/-- The hyperedge of each incidence as a column of row numbers: an entry below zero counts from the end, so the
    hyperedge count 80000 is added to it. -/
def colE (x2 : IVec S400000 32) : IVec S400000x1 32 :=
  broadcastInDim S400000x1 ![0] bcast_S400000_S400000x1_0
    (select (cmpi .slt x2 (broadcastInDim S400000 ![] bcast_S_S400000 (constantI S_ 32 0#32)))
      (addi x2 (broadcastInDim S400000 ![] bcast_S_S400000 (constantI S_ 32 80000#32))) x2)

/-- For every incidence, the row of its vertex: a matrix over the vertices copied out to the incidences. -/
def gatV (x : FVec Ideal S50000x256 .bf16) (x1 : IVec S400000 32) : FVec Ideal S400000x256 .bf16 :=
  Host.gather gather_S50000x256_S400000x1_S400000x256_1_0_n_n_0_1_1256 x (colV x1)

/-- For every incidence, the row of its hyperedge: a matrix over the hyperedges copied out to the incidences. -/
def gatE (x : FVec Ideal S80000x256 .bf16) (x2 : IVec S400000 32) : FVec Ideal S400000x256 .bf16 :=
  Host.gather gather_S80000x256_S400000x1_S400000x256_1_0_n_n_0_1_1256 x (colE x2)

/-- The incidence rows added up per hyperedge, starting from the zero matrix. -/
def sumE (x2 : IVec S400000 32) (u : FVec Ideal S400000x256 .f32) : FVec Ideal S80000x256 .f32 :=
  Host.scatterAdd scatter_S80000x256_S400000x1_S400000x256_1_0_0_1
    (broadcastInDim S80000x256 ![] bcast_S_S80000x256 (constant (F := Ideal) S_ .f32 0x00000000#32))
    (broadcastInDim S400000x1 ![0] bcast_S400000_S400000x1_0 x2) u

/-- The incidence rows added up per vertex, starting from the zero matrix. -/
def sumV (x1 : IVec S400000 32) (u : FVec Ideal S400000x256 .f32) : FVec Ideal S50000x256 .f32 :=
  Host.scatterAdd scatter_S50000x256_S400000x1_S400000x256_1_0_0_1
    (broadcastInDim S50000x256 ![] bcast_S_S50000x256 (constant (F := Ideal) S_ .f32 0x00000000#32))
    (broadcastInDim S400000x1 ![0] bcast_S400000_S400000x1_0 x1) u

variable (V : Valuation τ sig (Elt Ideal))

/-! ## The first stretch: the weights narrowed to sixteen bits

At the extended reals the narrowing is the identity, but it is kept as printed: the dense stages' own readings
undo it. -/

/-- The input projection's weight (512 rows), narrowed. -/
theorem host0_v0 : StableHlo.after hostOps0 V (Proc.devRef .tc main_v0)
    = (truncf .bf16 (V (Proc.devRef .tc main_arg3) : FVec Ideal S512x256 .f32) bitsLt_bf16_f32 : FVec Ideal S512x256 .bf16) := by
  after_results

/-- A layer's first weight, narrowed. -/
theorem host0_v1 : StableHlo.after hostOps0 V (Proc.devRef .tc main_v1)
    = (truncf .bf16 (V (Proc.devRef .tc main_arg5) : FVec Ideal S256x256 .f32) bitsLt_bf16_f32 : FVec Ideal S256x256 .bf16) := by
  after_results

/-- The upper 256 rows of a layer's second weight (the rows that meet the vertex features), narrowed. -/
theorem host0_v3 : StableHlo.after hostOps0 V (Proc.devRef .tc main_v3)
    = (truncf .bf16 (extractStridedSlice S256x256 ![0, 0] (V (Proc.devRef .tc main_arg7) : FVec Ideal S512x256 .f32)
        slices_S512x256_S256x256_0_0) bitsLt_bf16_f32 : FVec Ideal S256x256 .bf16) := by
  after_results

/-- The lower 256 rows of a layer's second weight (the rows that meet the hyperedge sums), narrowed. -/
theorem host0_v5 : StableHlo.after hostOps0 V (Proc.devRef .tc main_v5)
    = (truncf .bf16 (extractStridedSlice S256x256 ![256, 0] (V (Proc.devRef .tc main_arg7) : FVec Ideal S512x256 .f32)
        slices_S512x256_S256x256_256_0) bitsLt_bf16_f32 : FVec Ideal S256x256 .bf16) := by
  after_results

/-- A layer's third weight, narrowed. -/
theorem host0_v6 : StableHlo.after hostOps0 V (Proc.devRef .tc main_v6)
    = (truncf .bf16 (V (Proc.devRef .tc main_arg9) : FVec Ideal S256x256 .f32) bitsLt_bf16_f32 : FVec Ideal S256x256 .bf16) := by
  after_results

/-- The classifier's first weight, narrowed. -/
theorem host0_v7 : StableHlo.after hostOps0 V (Proc.devRef .tc main_v7)
    = (truncf .bf16 (V (Proc.devRef .tc main_arg11) : FVec Ideal S256x256 .f32) bitsLt_bf16_f32 : FVec Ideal S256x256 .bf16) := by
  after_results

/-- The classifier's second weight (40 columns), narrowed. -/
theorem host0_v8 : StableHlo.after hostOps0 V (Proc.devRef .tc main_v8)
    = (truncf .bf16 (V (Proc.devRef .tc main_arg13) : FVec Ideal S256x40 .f32) bitsLt_bf16_f32 : FVec Ideal S256x40 .bf16) := by
  after_results

/-! ## The stretches inside a layer

The first half of a layer leaves the vertex messages; the host copies them to the incidences and adds them up per
hyperedge. The second half's dense stage leaves the hyperedge messages; the host copies the vertex part and the
hyperedge part to the incidences, adds the two, and adds the result up per vertex. Layer 2 repeats layer 1's
operations on its own buffers. -/

/-- Layer 1, the hyperedge sums: the vertex messages copied to the incidences and added up per hyperedge. -/
theorem host2_v21 : StableHlo.after hostOps2 V (Proc.devRef .tc main_v21)
    = sumE (V (Proc.devRef .tc main_arg2))
        (extf .f32 (gatV (V (Proc.devRef .tc main_v10_0)) (V (Proc.devRef .tc main_arg1))) bitsLt_bf16_f32) := by
  after_results_simp
  rfl

/-- Layer 1, the vertex sums: the vertex part and the hyperedge part of the incidence messages, each copied to the
    incidences, added, and added up per vertex. -/
theorem host3_v42 : StableHlo.after hostOps3 V (Proc.devRef .tc main_v42)
    = sumV (V (Proc.devRef .tc main_arg1))
        (addf (extf .f32 (gatV (V (Proc.devRef .tc main_v10_1)) (V (Proc.devRef .tc main_arg1))) bitsLt_bf16_f32)
          (extf .f32 (gatE (V (Proc.devRef .tc main_v22)) (V (Proc.devRef .tc main_arg2))) bitsLt_bf16_f32)) := by
  after_results_simp
  rfl

/-- Layer 2, the hyperedge sums. -/
theorem host5_v55 : StableHlo.after hostOps5 V (Proc.devRef .tc main_v55)
    = sumE (V (Proc.devRef .tc main_arg2))
        (extf .f32 (gatV (V (Proc.devRef .tc main_v44_0)) (V (Proc.devRef .tc main_arg1))) bitsLt_bf16_f32) := by
  after_results_simp
  rfl

/-- Layer 2, the vertex sums. -/
theorem host6_v76 : StableHlo.after hostOps6 V (Proc.devRef .tc main_v76)
    = sumV (V (Proc.devRef .tc main_arg1))
        (addf (extf .f32 (gatV (V (Proc.devRef .tc main_v44_1)) (V (Proc.devRef .tc main_arg1))) bitsLt_bf16_f32)
          (extf .f32 (gatE (V (Proc.devRef .tc main_v56)) (V (Proc.devRef .tc main_arg2))) bitsLt_bf16_f32)) := by
  after_results_simp
  rfl

/-! ## What a stretch leaves alone

Each stretch writes its own temporaries and results and nothing else: a buffer outside the stretch's list of written
buffers holds after the stretch what it held before. -/

/-- A one-buffer set of written buffers lies in the set made from a list holding the buffer. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- The buffers the first stretch writes: the two halves of a layer's second weight and the seven narrowed weights. -/
abbrev wr0 : List (Ref sig .tc) :=
  [main_v0, main_v1, main_v2, main_v3, main_v4, main_v5, main_v6, main_v7, main_v8]

/-- A buffer outside `wr0` is unchanged by the stretch. -/
theorem skip0 (r : Ref sig .tc) (hr : r ∉ wr0) :
    StableHlo.after hostOps0 V (Proc.devRef .tc r) = V (Proc.devRef .tc r) :=
  StableHlo.after_of_writes_sub (W := wr0) hostOps0 V (by
    simp only [hostOps0, List.Forall, StableHlo.nullary_writes, StableHlo.unary_writes, StableHlo.binary_writes,
      StableHlo.ternary_writes]
    repeat' apply And.intro
    all_goals exact single_sub (by decide)) hr

/-- The buffers layer 1's first host stretch writes: the normalised vertex column, the gathered vertex messages and the hyperedge sums. -/
abbrev wr2 : List (Ref sig .tc) :=
  [main_c, main_v11, main_v12, main_c_0, main_v13, main_v14, main_v15, main_v16, main_v17, main_v18, main_cst, main_v19, main_v20, main_v21]

/-- A buffer outside `wr2` is unchanged by the stretch. -/
theorem skip2 (r : Ref sig .tc) (hr : r ∉ wr2) :
    StableHlo.after hostOps2 V (Proc.devRef .tc r) = V (Proc.devRef .tc r) :=
  StableHlo.after_of_writes_sub (W := wr2) hostOps2 V (by
    simp only [hostOps2, List.Forall, StableHlo.nullary_writes, StableHlo.unary_writes, StableHlo.binary_writes,
      StableHlo.ternary_writes]
    repeat' apply And.intro
    all_goals exact single_sub (by decide)) hr

/-- The buffers layer 1's second host stretch writes: the two normalised columns, the two gathered parts, their sum and the vertex sums. -/
abbrev wr3 : List (Ref sig .tc) :=
  [main_c_1, main_v23, main_v24, main_c_2, main_v25, main_v26, main_v27, main_v28, main_v29, main_v30, main_c_3, main_v31, main_v32, main_c_4, main_v33, main_v34, main_v35, main_v36, main_v37, main_v38, main_v39, main_cst_5, main_v40, main_v41, main_v42]

/-- A buffer outside `wr3` is unchanged by the stretch. -/
theorem skip3 (r : Ref sig .tc) (hr : r ∉ wr3) :
    StableHlo.after hostOps3 V (Proc.devRef .tc r) = V (Proc.devRef .tc r) :=
  StableHlo.after_of_writes_sub (W := wr3) hostOps3 V (by
    simp only [hostOps3, List.Forall, StableHlo.nullary_writes, StableHlo.unary_writes, StableHlo.binary_writes,
      StableHlo.ternary_writes]
    repeat' apply And.intro
    all_goals exact single_sub (by decide)) hr

/-- The buffers layer 2's first host stretch writes. -/
abbrev wr5 : List (Ref sig .tc) :=
  [main_c_6, main_v45, main_v46, main_c_7, main_v47, main_v48, main_v49, main_v50, main_v51, main_v52, main_cst_8, main_v53, main_v54, main_v55]

/-- A buffer outside `wr5` is unchanged by the stretch. -/
theorem skip5 (r : Ref sig .tc) (hr : r ∉ wr5) :
    StableHlo.after hostOps5 V (Proc.devRef .tc r) = V (Proc.devRef .tc r) :=
  StableHlo.after_of_writes_sub (W := wr5) hostOps5 V (by
    simp only [hostOps5, List.Forall, StableHlo.nullary_writes, StableHlo.unary_writes, StableHlo.binary_writes,
      StableHlo.ternary_writes]
    repeat' apply And.intro
    all_goals exact single_sub (by decide)) hr

/-- The buffers layer 2's second host stretch writes. -/
abbrev wr6 : List (Ref sig .tc) :=
  [main_c_9, main_v57, main_v58, main_c_10, main_v59, main_v60, main_v61, main_v62, main_v63, main_v64, main_c_11, main_v65, main_v66, main_c_12, main_v67, main_v68, main_v69, main_v70, main_v71, main_v72, main_v73, main_cst_13, main_v74, main_v75, main_v76]

/-- A buffer outside `wr6` is unchanged by the stretch. -/
theorem skip6 (r : Ref sig .tc) (hr : r ∉ wr6) :
    StableHlo.after hostOps6 V (Proc.devRef .tc r) = V (Proc.devRef .tc r) :=
  StableHlo.after_of_writes_sub (W := wr6) hostOps6 V (by
    simp only [hostOps6, List.Forall, StableHlo.nullary_writes, StableHlo.unary_writes, StableHlo.binary_writes,
      StableHlo.ternary_writes]
    repeat' apply And.intro
    all_goals exact single_sub (by decide)) hr

end Cert.KernelIdeal.Trace

end
-- ==== Proof.Trace2.lean ====
/-
  The buffers of the kernel program, followed through its thirteen segments.

  The program alternates stretches of host operations with dense stages (regions), each stage one pipelined
  product over blocks of 2000 rows: the input projection, then per layer a stage that forms the vertex messages and
  the vertex part of the incidence messages, a stage that forms the hyperedge part, and a stage that mixes the vertex
  sums with the projected input features; then the classifier. The imported frame module describes core c's
  buffers at every segment boundary as a fold from the launch memory: a stretch applies its operations, a region
  replaces its arrays by what its write-backs leave and keeps the rest.

  This module reads that fold at every array a stage takes as an input, at the stage's entry: it is a launched
  argument (the features, a bias), or a weight the first stretch narrowed, or an earlier stage's output (possibly
  many segments earlier: the projected input features are read again at the end of both layers), or the result of
  a stretch's row movements applied to earlier outputs and the two incidence lists. The readings are by following
  the buffer back one segment at a time to the segment that wrote it; each step is a fact about names only (the
  segment does not write this buffer).
-/
import proofs.«173693_j49658411876807_2_alg».proof.Proof.Gen.KernelIdeal.Frame
import proofs.«173693_j49658411876807_2_alg».proof.Proof.Trace1

noncomputable section

namespace Cert.KernelIdeal.Trace

open Idealize.ShloMosaic Idealize.ShloMosaic.TcCoe
open Cert.KernelIdeal Cert.KernelIdeal.Gen

variable (m : (ℓ : Loc nD τ sig) → Buf (Elt Ideal) ℓ) (ρ : Dev nD → PrngReg)

/-! ## One segment at a time

The program is thirteen segments: a stretch of host operations or a dense stage (a region), in turn. A stretch leaves
every buffer outside its written list as it was (the skip lemmas of the previous module); a region leaves every buffer but its output
arrays as it was. Boundary j is the state after segment j. -/

/-- The first stretch leaves a buffer outside its written list as it was. -/
theorem K1 (c : Dev nD) (b : Ref sig .tc) (hb : b ∉ wr0) :
    W1 m ρ c (Proc.devRef .tc b) = W0 m ρ c (Proc.devRef .tc b) := skip0 (W0 m ρ c) b hb

/-- Region 0 rewrites only its output arrays: any other buffer, an input window's array included, leaves the region
    as it entered. -/
theorem K2 (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    exact (W2_arr m ρ c w).trans (((dat0 (V1 m ρ) c).arrAt_in w hin _).trans (A_eq0 (V1 m ρ) c w))
  · exact W2_of_ne m ρ c b fun w e => h ⟨w, e⟩

/-- Region 1 rewrites only its output arrays: any other buffer, an input window's array included, leaves the region
    as it entered. -/
theorem K3 (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    exact (W3_arr m ρ c w).trans (((dat1 (V2 m ρ) c).arrAt_in w hin _).trans (A_eq1 (V2 m ρ) c w))
  · exact W3_of_ne m ρ c b fun w e => h ⟨w, e⟩

/-- Layer 1's first host stretch leaves a buffer outside its written list as it was. -/
theorem K4 (c : Dev nD) (b : Ref sig .tc) (hb : b ∉ wr2) :
    W4 m ρ c (Proc.devRef .tc b) = W3 m ρ c (Proc.devRef .tc b) := skip2 (W3 m ρ c) b hb

/-- Region 2 rewrites only its output arrays: any other buffer, an input window's array included, leaves the region
    as it entered. -/
theorem K5 (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    exact (W5_arr m ρ c w).trans (((dat2 (V4 m ρ) c).arrAt_in w hin _).trans (A_eq2 (V4 m ρ) c w))
  · exact W5_of_ne m ρ c b fun w e => h ⟨w, e⟩

/-- Layer 1's second host stretch leaves a buffer outside its written list as it was. -/
theorem K6 (c : Dev nD) (b : Ref sig .tc) (hb : b ∉ wr3) :
    W6 m ρ c (Proc.devRef .tc b) = W5 m ρ c (Proc.devRef .tc b) := skip3 (W5 m ρ c) b hb

/-- Region 3 rewrites only its output arrays: any other buffer, an input window's array included, leaves the region
    as it entered. -/
theorem K7 (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    exact (W7_arr m ρ c w).trans (((dat3 (V6 m ρ) c).arrAt_in w hin _).trans (A_eq3 (V6 m ρ) c w))
  · exact W7_of_ne m ρ c b fun w e => h ⟨w, e⟩

/-- Region 4 rewrites only its output arrays: any other buffer, an input window's array included, leaves the region
    as it entered. -/
theorem K8 (c : Dev nD) (b : Ref sig .tc) (hb : ∀ w, (cfg4.win w).isOut = true → Pipeline.arrRef spec4 w ≠ b) :
    W8 m ρ c (Proc.devRef .tc b) = W7 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    exact (W8_arr m ρ c w).trans (((dat4 (V7 m ρ) c).arrAt_in w hin _).trans (A_eq4 (V7 m ρ) c w))
  · exact W8_of_ne m ρ c b fun w e => h ⟨w, e⟩

/-- Layer 2's first host stretch leaves a buffer outside its written list as it was. -/
theorem K9 (c : Dev nD) (b : Ref sig .tc) (hb : b ∉ wr5) :
    W9 m ρ c (Proc.devRef .tc b) = W8 m ρ c (Proc.devRef .tc b) := skip5 (W8 m ρ c) b hb

/-- Region 5 rewrites only its output arrays: any other buffer, an input window's array included, leaves the region
    as it entered. -/
theorem K10 (c : Dev nD) (b : Ref sig .tc) (hb : ∀ w, (cfg5.win w).isOut = true → Pipeline.arrRef spec5 w ≠ b) :
    W10 m ρ c (Proc.devRef .tc b) = W9 m ρ c (Proc.devRef .tc b) := by
  by_cases h : ∃ w, Pipeline.arrRef spec5 w = b
  · obtain ⟨w, rfl⟩ := h
    have hin : (cfg5.win w).isOut = false := by
      cases hw : (cfg5.win w).isOut
      · rfl
      · exact absurd rfl (hb w hw)
    exact (W10_arr m ρ c w).trans (((dat5 (V9 m ρ) c).arrAt_in w hin _).trans (A_eq5 (V9 m ρ) c w))
  · exact W10_of_ne m ρ c b fun w e => h ⟨w, e⟩

/-- Layer 2's second host stretch leaves a buffer outside its written list as it was. -/
theorem K11 (c : Dev nD) (b : Ref sig .tc) (hb : b ∉ wr6) :
    W11 m ρ c (Proc.devRef .tc b) = W10 m ρ c (Proc.devRef .tc b) := skip6 (W10 m ρ c) b hb

/-- Region 6 rewrites only its output arrays: any other buffer, an input window's array included, leaves the region
    as it entered. -/
theorem K12 (c : Dev nD) (b : Ref sig .tc) (hb : ∀ w, (cfg6.win w).isOut = true → Pipeline.arrRef spec6 w ≠ b) :
    W12 m ρ c (Proc.devRef .tc b) = W11 m ρ c (Proc.devRef .tc b) := by
  by_cases h : ∃ w, Pipeline.arrRef spec6 w = b
  · obtain ⟨w, rfl⟩ := h
    have hin : (cfg6.win w).isOut = false := by
      cases hw : (cfg6.win w).isOut
      · rfl
      · exact absurd rfl (hb w hw)
    exact (W12_arr m ρ c w).trans (((dat6 (V11 m ρ) c).arrAt_in w hin _).trans (A_eq6 (V11 m ρ) c w))
  · exact W12_of_ne m ρ c b fun w e => h ⟨w, e⟩

/-- Region 7 rewrites only its output arrays: any other buffer, an input window's array included, leaves the region
    as it entered. -/
theorem K13 (c : Dev nD) (b : Ref sig .tc) (hb : ∀ w, (cfg7.win w).isOut = true → Pipeline.arrRef spec7 w ≠ b) :
    W13 m ρ c (Proc.devRef .tc b) = W12 m ρ c (Proc.devRef .tc b) := by
  by_cases h : ∃ w, Pipeline.arrRef spec7 w = b
  · obtain ⟨w, rfl⟩ := h
    have hin : (cfg7.win w).isOut = false := by
      cases hw : (cfg7.win w).isOut
      · rfl
      · exact absurd rfl (hb w hw)
    exact (W13_arr m ρ c w).trans (((dat7 (V12 m ρ) c).arrAt_in w hin _).trans (A_eq7 (V12 m ρ) c w))
  · exact W13_of_ne m ρ c b fun w e => h ⟨w, e⟩

/-! ## The arrays the readings are stated in

The program's arguments as launched, and each dense stage's output as its write-backs leave it. -/

/-- Argument 0 on core `c` as launched: the vertex input features. -/
abbrev a0 (c : Dev nD) : FVec Ideal S50000x512 .f32 := m ((c : Thread nD τ).loc main_arg0)

/-- Argument 1 on core `c` as launched: the vertex of each incidence. -/
abbrev a1 (c : Dev nD) : IVec S400000 32 := m ((c : Thread nD τ).loc main_arg1)

/-- Argument 2 on core `c` as launched: the hyperedge of each incidence. -/
abbrev a2 (c : Dev nD) : IVec S400000 32 := m ((c : Thread nD τ).loc main_arg2)

/-- Argument 3 on core `c` as launched: the input projection's weight. -/
abbrev a3 (c : Dev nD) : FVec Ideal S512x256 .f32 := m ((c : Thread nD τ).loc main_arg3)

/-- Argument 4 on core `c` as launched: the input projection's bias. -/
abbrev a4 (c : Dev nD) : FVec Ideal S256 .f32 := m ((c : Thread nD τ).loc main_arg4)

/-- Argument 5 on core `c` as launched: a layer's first weight. -/
abbrev a5 (c : Dev nD) : FVec Ideal S256x256 .f32 := m ((c : Thread nD τ).loc main_arg5)

/-- Argument 6 on core `c` as launched: a layer's first bias. -/
abbrev a6 (c : Dev nD) : FVec Ideal S256 .f32 := m ((c : Thread nD τ).loc main_arg6)

/-- Argument 7 on core `c` as launched: a layer's second weight, 512 rows. -/
abbrev a7 (c : Dev nD) : FVec Ideal S512x256 .f32 := m ((c : Thread nD τ).loc main_arg7)

/-- Argument 8 on core `c` as launched: a layer's second bias. -/
abbrev a8 (c : Dev nD) : FVec Ideal S256 .f32 := m ((c : Thread nD τ).loc main_arg8)

/-- Argument 9 on core `c` as launched: a layer's third weight. -/
abbrev a9 (c : Dev nD) : FVec Ideal S256x256 .f32 := m ((c : Thread nD τ).loc main_arg9)

/-- Argument 10 on core `c` as launched: a layer's third bias. -/
abbrev a10 (c : Dev nD) : FVec Ideal S256 .f32 := m ((c : Thread nD τ).loc main_arg10)

/-- Argument 11 on core `c` as launched: the classifier's first weight. -/
abbrev a11 (c : Dev nD) : FVec Ideal S256x256 .f32 := m ((c : Thread nD τ).loc main_arg11)

/-- Argument 12 on core `c` as launched: the classifier's first bias. -/
abbrev a12 (c : Dev nD) : FVec Ideal S256 .f32 := m ((c : Thread nD τ).loc main_arg12)

/-- Argument 13 on core `c` as launched: the classifier's second weight. -/
abbrev a13 (c : Dev nD) : FVec Ideal S256x40 .f32 := m ((c : Thread nD τ).loc main_arg13)

/-- Argument 14 on core `c` as launched: the classifier's second bias. -/
abbrev a14 (c : Dev nD) : FVec Ideal S40 .f32 := m ((c : Thread nD τ).loc main_arg14)

/-- Region 0's output on core `c`: the projected vertex features. -/
abbrev o0 (c : Dev nD) : FVec Ideal S50000x256 .bf16 := (dat0 (V1 m ρ) c).arrAt 3 cfg0.N

/-- Region 1's output on core `c`: layer 1's vertex messages. -/
abbrev o1a (c : Dev nD) : FVec Ideal S50000x256 .bf16 := (dat1 (V2 m ρ) c).arrAt 4 cfg1.N

/-- Region 1's output on core `c`: layer 1's vertex part of the incidence messages. -/
abbrev o1b (c : Dev nD) : FVec Ideal S50000x256 .bf16 := (dat1 (V2 m ρ) c).arrAt 5 cfg1.N

/-- Region 2's output on core `c`: layer 1's hyperedge part of the incidence messages. -/
abbrev o2 (c : Dev nD) : FVec Ideal S80000x256 .bf16 := (dat2 (V4 m ρ) c).arrAt 3 cfg2.N

/-- Region 3's output on core `c`: layer 1's vertex features. -/
abbrev o3 (c : Dev nD) : FVec Ideal S50000x256 .bf16 := (dat3 (V6 m ρ) c).arrAt 4 cfg3.N

/-- Region 4's output on core `c`: layer 2's vertex messages. -/
abbrev o4a (c : Dev nD) : FVec Ideal S50000x256 .bf16 := (dat4 (V7 m ρ) c).arrAt 4 cfg4.N

/-- Region 4's output on core `c`: layer 2's vertex part of the incidence messages. -/
abbrev o4b (c : Dev nD) : FVec Ideal S50000x256 .bf16 := (dat4 (V7 m ρ) c).arrAt 5 cfg4.N

/-- Region 5's output on core `c`: layer 2's hyperedge part of the incidence messages. -/
abbrev o5 (c : Dev nD) : FVec Ideal S80000x256 .bf16 := (dat5 (V9 m ρ) c).arrAt 3 cfg5.N

/-- Region 6's output on core `c`: layer 2's vertex features. -/
abbrev o6 (c : Dev nD) : FVec Ideal S50000x256 .bf16 := (dat6 (V11 m ρ) c).arrAt 4 cfg6.N

/-- Region 7's output on core `c`: the class scores, the program's result. -/
abbrev o7 (c : Dev nD) : FVec Ideal S50000x40 .f32 := (dat7 (V12 m ρ) c).arrAt 5 cfg7.N

/-! ## The arguments, read at the boundaries where they are used

No segment writes an argument's buffer, so it holds its launch contents at every boundary. -/

theorem arg0_at1 (c : Dev nD) : W1 m ρ c (Proc.devRef .tc main_arg0) = a0 m c :=
  K1 m ρ c main_arg0 (by decide)

theorem arg4_at1 (c : Dev nD) : W1 m ρ c (Proc.devRef .tc main_arg4) = a4 m c :=
  K1 m ρ c main_arg4 (by decide)

theorem arg6_at2 (c : Dev nD) : W2 m ρ c (Proc.devRef .tc main_arg6) = a6 m c :=
  (K2 m ρ c main_arg6 (by decide)).trans (K1 m ρ c main_arg6 (by decide))

theorem arg6_at7 (c : Dev nD) : W7 m ρ c (Proc.devRef .tc main_arg6) = a6 m c :=
  (K7 m ρ c main_arg6 (by decide)).trans ((K6 m ρ c main_arg6 (by decide)).trans ((K5 m ρ c main_arg6 (by decide)).trans ((K4 m ρ c main_arg6 (by decide)).trans ((K3 m ρ c main_arg6 (by decide)).trans (arg6_at2 m ρ c)))))

theorem arg8_at4 (c : Dev nD) : W4 m ρ c (Proc.devRef .tc main_arg8) = a8 m c :=
  (K4 m ρ c main_arg8 (by decide)).trans ((K3 m ρ c main_arg8 (by decide)).trans ((K2 m ρ c main_arg8 (by decide)).trans (K1 m ρ c main_arg8 (by decide))))

theorem arg8_at9 (c : Dev nD) : W9 m ρ c (Proc.devRef .tc main_arg8) = a8 m c :=
  (K9 m ρ c main_arg8 (by decide)).trans ((K8 m ρ c main_arg8 (by decide)).trans ((K7 m ρ c main_arg8 (by decide)).trans ((K6 m ρ c main_arg8 (by decide)).trans ((K5 m ρ c main_arg8 (by decide)).trans (arg8_at4 m ρ c)))))

theorem arg10_at6 (c : Dev nD) : W6 m ρ c (Proc.devRef .tc main_arg10) = a10 m c :=
  (K6 m ρ c main_arg10 (by decide)).trans ((K5 m ρ c main_arg10 (by decide)).trans ((K4 m ρ c main_arg10 (by decide)).trans ((K3 m ρ c main_arg10 (by decide)).trans ((K2 m ρ c main_arg10 (by decide)).trans (K1 m ρ c main_arg10 (by decide))))))

theorem arg10_at11 (c : Dev nD) : W11 m ρ c (Proc.devRef .tc main_arg10) = a10 m c :=
  (K11 m ρ c main_arg10 (by decide)).trans ((K10 m ρ c main_arg10 (by decide)).trans ((K9 m ρ c main_arg10 (by decide)).trans ((K8 m ρ c main_arg10 (by decide)).trans ((K7 m ρ c main_arg10 (by decide)).trans (arg10_at6 m ρ c)))))

theorem arg12_at12 (c : Dev nD) : W12 m ρ c (Proc.devRef .tc main_arg12) = a12 m c :=
  (K12 m ρ c main_arg12 (by decide)).trans ((K11 m ρ c main_arg12 (by decide)).trans ((K10 m ρ c main_arg12 (by decide)).trans ((K9 m ρ c main_arg12 (by decide)).trans ((K8 m ρ c main_arg12 (by decide)).trans ((K7 m ρ c main_arg12 (by decide)).trans ((K6 m ρ c main_arg12 (by decide)).trans ((K5 m ρ c main_arg12 (by decide)).trans ((K4 m ρ c main_arg12 (by decide)).trans ((K3 m ρ c main_arg12 (by decide)).trans ((K2 m ρ c main_arg12 (by decide)).trans (K1 m ρ c main_arg12 (by decide))))))))))))

theorem arg14_at12 (c : Dev nD) : W12 m ρ c (Proc.devRef .tc main_arg14) = a14 m c :=
  (K12 m ρ c main_arg14 (by decide)).trans ((K11 m ρ c main_arg14 (by decide)).trans ((K10 m ρ c main_arg14 (by decide)).trans ((K9 m ρ c main_arg14 (by decide)).trans ((K8 m ρ c main_arg14 (by decide)).trans ((K7 m ρ c main_arg14 (by decide)).trans ((K6 m ρ c main_arg14 (by decide)).trans ((K5 m ρ c main_arg14 (by decide)).trans ((K4 m ρ c main_arg14 (by decide)).trans ((K3 m ρ c main_arg14 (by decide)).trans ((K2 m ρ c main_arg14 (by decide)).trans (K1 m ρ c main_arg14 (by decide))))))))))))

theorem arg1_at3 (c : Dev nD) : W3 m ρ c (Proc.devRef .tc main_arg1) = a1 m c :=
  (K3 m ρ c main_arg1 (by decide)).trans ((K2 m ρ c main_arg1 (by decide)).trans (K1 m ρ c main_arg1 (by decide)))

theorem arg1_at5 (c : Dev nD) : W5 m ρ c (Proc.devRef .tc main_arg1) = a1 m c :=
  (K5 m ρ c main_arg1 (by decide)).trans ((K4 m ρ c main_arg1 (by decide)).trans (arg1_at3 m ρ c))

theorem arg1_at8 (c : Dev nD) : W8 m ρ c (Proc.devRef .tc main_arg1) = a1 m c :=
  (K8 m ρ c main_arg1 (by decide)).trans ((K7 m ρ c main_arg1 (by decide)).trans ((K6 m ρ c main_arg1 (by decide)).trans (arg1_at5 m ρ c)))

theorem arg1_at10 (c : Dev nD) : W10 m ρ c (Proc.devRef .tc main_arg1) = a1 m c :=
  (K10 m ρ c main_arg1 (by decide)).trans ((K9 m ρ c main_arg1 (by decide)).trans (arg1_at8 m ρ c))

theorem arg2_at3 (c : Dev nD) : W3 m ρ c (Proc.devRef .tc main_arg2) = a2 m c :=
  (K3 m ρ c main_arg2 (by decide)).trans ((K2 m ρ c main_arg2 (by decide)).trans (K1 m ρ c main_arg2 (by decide)))

theorem arg2_at5 (c : Dev nD) : W5 m ρ c (Proc.devRef .tc main_arg2) = a2 m c :=
  (K5 m ρ c main_arg2 (by decide)).trans ((K4 m ρ c main_arg2 (by decide)).trans (arg2_at3 m ρ c))

theorem arg2_at8 (c : Dev nD) : W8 m ρ c (Proc.devRef .tc main_arg2) = a2 m c :=
  (K8 m ρ c main_arg2 (by decide)).trans ((K7 m ρ c main_arg2 (by decide)).trans ((K6 m ρ c main_arg2 (by decide)).trans (arg2_at5 m ρ c)))

theorem arg2_at10 (c : Dev nD) : W10 m ρ c (Proc.devRef .tc main_arg2) = a2 m c :=
  (K10 m ρ c main_arg2 (by decide)).trans ((K9 m ρ c main_arg2 (by decide)).trans (arg2_at8 m ρ c))

/-! ## The narrowed weights, read at the boundaries where they are used

The first stretch writes each once; no later segment writes it. -/

theorem v0_at1 (c : Dev nD) : W1 m ρ c (Proc.devRef .tc main_v0)
    = (truncf .bf16 (a3 m c) bitsLt_bf16_f32 : FVec Ideal S512x256 .bf16) :=
  host0_v0 (W0 m ρ c)

theorem v1_at2 (c : Dev nD) : W2 m ρ c (Proc.devRef .tc main_v1)
    = (truncf .bf16 (a5 m c) bitsLt_bf16_f32 : FVec Ideal S256x256 .bf16) :=
  (K2 m ρ c main_v1 (by decide)).trans (host0_v1 (W0 m ρ c))

theorem v1_at7 (c : Dev nD) : W7 m ρ c (Proc.devRef .tc main_v1)
    = (truncf .bf16 (a5 m c) bitsLt_bf16_f32 : FVec Ideal S256x256 .bf16) :=
  (K7 m ρ c main_v1 (by decide)).trans ((K6 m ρ c main_v1 (by decide)).trans ((K5 m ρ c main_v1 (by decide)).trans ((K4 m ρ c main_v1 (by decide)).trans ((K3 m ρ c main_v1 (by decide)).trans (v1_at2 m ρ c)))))

theorem v3_at2 (c : Dev nD) : W2 m ρ c (Proc.devRef .tc main_v3)
    = (truncf .bf16 (extractStridedSlice S256x256 ![0, 0] (a7 m c) slices_S512x256_S256x256_0_0) bitsLt_bf16_f32 : FVec Ideal S256x256 .bf16) :=
  (K2 m ρ c main_v3 (by decide)).trans (host0_v3 (W0 m ρ c))

theorem v3_at7 (c : Dev nD) : W7 m ρ c (Proc.devRef .tc main_v3)
    = (truncf .bf16 (extractStridedSlice S256x256 ![0, 0] (a7 m c) slices_S512x256_S256x256_0_0) bitsLt_bf16_f32 : FVec Ideal S256x256 .bf16) :=
  (K7 m ρ c main_v3 (by decide)).trans ((K6 m ρ c main_v3 (by decide)).trans ((K5 m ρ c main_v3 (by decide)).trans ((K4 m ρ c main_v3 (by decide)).trans ((K3 m ρ c main_v3 (by decide)).trans (v3_at2 m ρ c)))))

theorem v5_at4 (c : Dev nD) : W4 m ρ c (Proc.devRef .tc main_v5)
    = (truncf .bf16 (extractStridedSlice S256x256 ![256, 0] (a7 m c) slices_S512x256_S256x256_256_0) bitsLt_bf16_f32 : FVec Ideal S256x256 .bf16) :=
  (K4 m ρ c main_v5 (by decide)).trans ((K3 m ρ c main_v5 (by decide)).trans ((K2 m ρ c main_v5 (by decide)).trans (host0_v5 (W0 m ρ c))))

theorem v5_at9 (c : Dev nD) : W9 m ρ c (Proc.devRef .tc main_v5)
    = (truncf .bf16 (extractStridedSlice S256x256 ![256, 0] (a7 m c) slices_S512x256_S256x256_256_0) bitsLt_bf16_f32 : FVec Ideal S256x256 .bf16) :=
  (K9 m ρ c main_v5 (by decide)).trans ((K8 m ρ c main_v5 (by decide)).trans ((K7 m ρ c main_v5 (by decide)).trans ((K6 m ρ c main_v5 (by decide)).trans ((K5 m ρ c main_v5 (by decide)).trans (v5_at4 m ρ c)))))

theorem v6_at6 (c : Dev nD) : W6 m ρ c (Proc.devRef .tc main_v6)
    = (truncf .bf16 (a9 m c) bitsLt_bf16_f32 : FVec Ideal S256x256 .bf16) :=
  (K6 m ρ c main_v6 (by decide)).trans ((K5 m ρ c main_v6 (by decide)).trans ((K4 m ρ c main_v6 (by decide)).trans ((K3 m ρ c main_v6 (by decide)).trans ((K2 m ρ c main_v6 (by decide)).trans (host0_v6 (W0 m ρ c))))))

theorem v6_at11 (c : Dev nD) : W11 m ρ c (Proc.devRef .tc main_v6)
    = (truncf .bf16 (a9 m c) bitsLt_bf16_f32 : FVec Ideal S256x256 .bf16) :=
  (K11 m ρ c main_v6 (by decide)).trans ((K10 m ρ c main_v6 (by decide)).trans ((K9 m ρ c main_v6 (by decide)).trans ((K8 m ρ c main_v6 (by decide)).trans ((K7 m ρ c main_v6 (by decide)).trans (v6_at6 m ρ c)))))

theorem v7_at12 (c : Dev nD) : W12 m ρ c (Proc.devRef .tc main_v7)
    = (truncf .bf16 (a11 m c) bitsLt_bf16_f32 : FVec Ideal S256x256 .bf16) :=
  (K12 m ρ c main_v7 (by decide)).trans ((K11 m ρ c main_v7 (by decide)).trans ((K10 m ρ c main_v7 (by decide)).trans ((K9 m ρ c main_v7 (by decide)).trans ((K8 m ρ c main_v7 (by decide)).trans ((K7 m ρ c main_v7 (by decide)).trans ((K6 m ρ c main_v7 (by decide)).trans ((K5 m ρ c main_v7 (by decide)).trans ((K4 m ρ c main_v7 (by decide)).trans ((K3 m ρ c main_v7 (by decide)).trans ((K2 m ρ c main_v7 (by decide)).trans (host0_v7 (W0 m ρ c))))))))))))

theorem v8_at12 (c : Dev nD) : W12 m ρ c (Proc.devRef .tc main_v8)
    = (truncf .bf16 (a13 m c) bitsLt_bf16_f32 : FVec Ideal S256x40 .bf16) :=
  (K12 m ρ c main_v8 (by decide)).trans ((K11 m ρ c main_v8 (by decide)).trans ((K10 m ρ c main_v8 (by decide)).trans ((K9 m ρ c main_v8 (by decide)).trans ((K8 m ρ c main_v8 (by decide)).trans ((K7 m ρ c main_v8 (by decide)).trans ((K6 m ρ c main_v8 (by decide)).trans ((K5 m ρ c main_v8 (by decide)).trans ((K4 m ρ c main_v8 (by decide)).trans ((K3 m ρ c main_v8 (by decide)).trans ((K2 m ρ c main_v8 (by decide)).trans (host0_v8 (W0 m ρ c))))))))))))

/-! ## The dense stages' outputs, read at the boundaries where they are used

A region's output array holds, at the region's exit, what the write-backs leave; no later segment writes it. -/

theorem o0_at2 (c : Dev nD) : W2 m ρ c (Proc.devRef .tc main_v9) = o0 m ρ c :=
  W2_arr m ρ c 3

theorem o0_at6 (c : Dev nD) : W6 m ρ c (Proc.devRef .tc main_v9) = o0 m ρ c :=
  (K6 m ρ c main_v9 (by decide)).trans ((K5 m ρ c main_v9 (by decide)).trans ((K4 m ρ c main_v9 (by decide)).trans ((K3 m ρ c main_v9 (by decide)).trans (o0_at2 m ρ c))))

theorem o0_at11 (c : Dev nD) : W11 m ρ c (Proc.devRef .tc main_v9) = o0 m ρ c :=
  (K11 m ρ c main_v9 (by decide)).trans ((K10 m ρ c main_v9 (by decide)).trans ((K9 m ρ c main_v9 (by decide)).trans ((K8 m ρ c main_v9 (by decide)).trans ((K7 m ρ c main_v9 (by decide)).trans (o0_at6 m ρ c)))))

theorem o1a_at3 (c : Dev nD) : W3 m ρ c (Proc.devRef .tc main_v10_0) = o1a m ρ c :=
  W3_arr m ρ c 4

theorem o1b_at5 (c : Dev nD) : W5 m ρ c (Proc.devRef .tc main_v10_1) = o1b m ρ c :=
  (K5 m ρ c main_v10_1 (by decide)).trans ((K4 m ρ c main_v10_1 (by decide)).trans (W3_arr m ρ c 5))

theorem o2_at5 (c : Dev nD) : W5 m ρ c (Proc.devRef .tc main_v22) = o2 m ρ c :=
  W5_arr m ρ c 3

theorem o3_at7 (c : Dev nD) : W7 m ρ c (Proc.devRef .tc main_v43) = o3 m ρ c :=
  W7_arr m ρ c 4

theorem o4a_at8 (c : Dev nD) : W8 m ρ c (Proc.devRef .tc main_v44_0) = o4a m ρ c :=
  W8_arr m ρ c 4

theorem o4b_at10 (c : Dev nD) : W10 m ρ c (Proc.devRef .tc main_v44_1) = o4b m ρ c :=
  (K10 m ρ c main_v44_1 (by decide)).trans ((K9 m ρ c main_v44_1 (by decide)).trans (W8_arr m ρ c 5))

theorem o5_at10 (c : Dev nD) : W10 m ρ c (Proc.devRef .tc main_v56) = o5 m ρ c :=
  W10_arr m ρ c 3

theorem o6_at12 (c : Dev nD) : W12 m ρ c (Proc.devRef .tc main_v77) = o6 m ρ c :=
  W12_arr m ρ c 4

theorem o7_at13 (c : Dev nD) : W13 m ρ c (Proc.devRef .tc main_v78) = o7 m ρ c :=
  W13_arr m ρ c 5

/-! ## What each dense stage reads

For every region and every input window of it: the window's array at the region's entry, in terms of the launched
arguments, the earlier regions' outputs and the four row movements. -/

/-- The input projection reads the vertex input features as launched. -/
theorem in0_0 (c : Dev nD) : V1 m ρ c (Pipeline.arrRef spec0 0) = a0 m c :=
  arg0_at1 m ρ c

/-- The input projection's weight: the launched weight, narrowed. -/
theorem in0_1 (c : Dev nD) : V1 m ρ c (Pipeline.arrRef spec0 1) = (truncf .bf16 (a3 m c) bitsLt_bf16_f32 : FVec Ideal S512x256 .bf16) :=
  v0_at1 m ρ c

/-- The input projection's bias as launched. -/
theorem in0_2 (c : Dev nD) : V1 m ρ c (Pipeline.arrRef spec0 2) = a4 m c :=
  arg4_at1 m ρ c

/-- Layer 1's first dense stage reads the projected vertex features. -/
theorem in1_0 (c : Dev nD) : V2 m ρ c (Pipeline.arrRef spec1 0) = o0 m ρ c :=
  o0_at2 m ρ c

/-- Its first weight: a layer's first weight, narrowed. -/
theorem in1_1 (c : Dev nD) : V2 m ρ c (Pipeline.arrRef spec1 1) = (truncf .bf16 (a5 m c) bitsLt_bf16_f32 : FVec Ideal S256x256 .bf16) :=
  v1_at2 m ρ c

/-- Its bias: a layer's first bias as launched. -/
theorem in1_2 (c : Dev nD) : V2 m ρ c (Pipeline.arrRef spec1 2) = a6 m c :=
  arg6_at2 m ρ c

/-- Its second weight: the upper 256 rows of a layer's second weight, narrowed. -/
theorem in1_3 (c : Dev nD) : V2 m ρ c (Pipeline.arrRef spec1 3) = (truncf .bf16 (extractStridedSlice S256x256 ![0, 0] (a7 m c) slices_S512x256_S256x256_0_0) bitsLt_bf16_f32 : FVec Ideal S256x256 .bf16) :=
  v3_at2 m ρ c

/-- Layer 1's hyperedge stage reads the hyperedge sums: the vertex messages copied to the incidences and added up per hyperedge. -/
theorem in2_0 (c : Dev nD) : V4 m ρ c (Pipeline.arrRef spec2 0) = sumE (a2 m c) (extf .f32 (gatV (o1a m ρ c) (a1 m c)) bitsLt_bf16_f32) := by
  refine (host2_v21 (W3 m ρ c)).trans ?_
  rw [arg2_at3 m ρ c, o1a_at3 m ρ c, arg1_at3 m ρ c]

/-- Its weight: the lower 256 rows of a layer's second weight, narrowed. -/
theorem in2_1 (c : Dev nD) : V4 m ρ c (Pipeline.arrRef spec2 1) = (truncf .bf16 (extractStridedSlice S256x256 ![256, 0] (a7 m c) slices_S512x256_S256x256_256_0) bitsLt_bf16_f32 : FVec Ideal S256x256 .bf16) :=
  v5_at4 m ρ c

/-- Its bias: a layer's second bias as launched. -/
theorem in2_2 (c : Dev nD) : V4 m ρ c (Pipeline.arrRef spec2 2) = a8 m c :=
  arg8_at4 m ρ c

/-- Layer 1's last dense stage reads the vertex sums: the vertex part and the hyperedge part of the incidence messages, each copied to the incidences, added, and added up per vertex. -/
theorem in3_0 (c : Dev nD) : V6 m ρ c (Pipeline.arrRef spec3 0) = sumV (a1 m c) (addf (extf .f32 (gatV (o1b m ρ c) (a1 m c)) bitsLt_bf16_f32) (extf .f32 (gatE (o2 m ρ c) (a2 m c)) bitsLt_bf16_f32)) := by
  refine (host3_v42 (W5 m ρ c)).trans ?_
  rw [arg1_at5 m ρ c, o1b_at5 m ρ c, o2_at5 m ρ c, arg2_at5 m ρ c]

/-- It mixes them with the projected vertex features, still as the input projection left them. -/
theorem in3_1 (c : Dev nD) : V6 m ρ c (Pipeline.arrRef spec3 1) = o0 m ρ c :=
  o0_at6 m ρ c

/-- Its weight: a layer's third weight, narrowed. -/
theorem in3_2 (c : Dev nD) : V6 m ρ c (Pipeline.arrRef spec3 2) = (truncf .bf16 (a9 m c) bitsLt_bf16_f32 : FVec Ideal S256x256 .bf16) :=
  v6_at6 m ρ c

/-- Its bias: a layer's third bias as launched. -/
theorem in3_3 (c : Dev nD) : V6 m ρ c (Pipeline.arrRef spec3 3) = a10 m c :=
  arg10_at6 m ρ c

/-- Layer 2's first dense stage reads layer 1's vertex features. -/
theorem in4_0 (c : Dev nD) : V7 m ρ c (Pipeline.arrRef spec4 0) = o3 m ρ c :=
  o3_at7 m ρ c

/-- Its first weight is layer 1's: a layer's first weight, narrowed. -/
theorem in4_1 (c : Dev nD) : V7 m ρ c (Pipeline.arrRef spec4 1) = (truncf .bf16 (a5 m c) bitsLt_bf16_f32 : FVec Ideal S256x256 .bf16) :=
  v1_at7 m ρ c

/-- Its bias is layer 1's. -/
theorem in4_2 (c : Dev nD) : V7 m ρ c (Pipeline.arrRef spec4 2) = a6 m c :=
  arg6_at7 m ρ c

/-- Its second weight is layer 1's: the upper 256 rows of a layer's second weight, narrowed. -/
theorem in4_3 (c : Dev nD) : V7 m ρ c (Pipeline.arrRef spec4 3) = (truncf .bf16 (extractStridedSlice S256x256 ![0, 0] (a7 m c) slices_S512x256_S256x256_0_0) bitsLt_bf16_f32 : FVec Ideal S256x256 .bf16) :=
  v3_at7 m ρ c

/-- Layer 2's hyperedge stage reads layer 2's hyperedge sums. -/
theorem in5_0 (c : Dev nD) : V9 m ρ c (Pipeline.arrRef spec5 0) = sumE (a2 m c) (extf .f32 (gatV (o4a m ρ c) (a1 m c)) bitsLt_bf16_f32) := by
  refine (host5_v55 (W8 m ρ c)).trans ?_
  rw [arg2_at8 m ρ c, o4a_at8 m ρ c, arg1_at8 m ρ c]

/-- Its weight is layer 1's: the lower 256 rows of a layer's second weight, narrowed. -/
theorem in5_1 (c : Dev nD) : V9 m ρ c (Pipeline.arrRef spec5 1) = (truncf .bf16 (extractStridedSlice S256x256 ![256, 0] (a7 m c) slices_S512x256_S256x256_256_0) bitsLt_bf16_f32 : FVec Ideal S256x256 .bf16) :=
  v5_at9 m ρ c

/-- Its bias is layer 1's. -/
theorem in5_2 (c : Dev nD) : V9 m ρ c (Pipeline.arrRef spec5 2) = a8 m c :=
  arg8_at9 m ρ c

/-- Layer 2's last dense stage reads layer 2's vertex sums. -/
theorem in6_0 (c : Dev nD) : V11 m ρ c (Pipeline.arrRef spec6 0) = sumV (a1 m c) (addf (extf .f32 (gatV (o4b m ρ c) (a1 m c)) bitsLt_bf16_f32) (extf .f32 (gatE (o5 m ρ c) (a2 m c)) bitsLt_bf16_f32)) := by
  refine (host6_v76 (W10 m ρ c)).trans ?_
  rw [arg1_at10 m ρ c, o4b_at10 m ρ c, o5_at10 m ρ c, arg2_at10 m ρ c]

/-- It mixes them with the projected vertex features, still as the input projection left them. -/
theorem in6_1 (c : Dev nD) : V11 m ρ c (Pipeline.arrRef spec6 1) = o0 m ρ c :=
  o0_at11 m ρ c

/-- Its weight is layer 1's: a layer's third weight, narrowed. -/
theorem in6_2 (c : Dev nD) : V11 m ρ c (Pipeline.arrRef spec6 2) = (truncf .bf16 (a9 m c) bitsLt_bf16_f32 : FVec Ideal S256x256 .bf16) :=
  v6_at11 m ρ c

/-- Its bias is layer 1's. -/
theorem in6_3 (c : Dev nD) : V11 m ρ c (Pipeline.arrRef spec6 3) = a10 m c :=
  arg10_at11 m ρ c

/-- The classifier reads layer 2's vertex features. -/
theorem in7_0 (c : Dev nD) : V12 m ρ c (Pipeline.arrRef spec7 0) = o6 m ρ c :=
  o6_at12 m ρ c

/-- Its first weight, narrowed. -/
theorem in7_1 (c : Dev nD) : V12 m ρ c (Pipeline.arrRef spec7 1) = (truncf .bf16 (a11 m c) bitsLt_bf16_f32 : FVec Ideal S256x256 .bf16) :=
  v7_at12 m ρ c

/-- Its first bias as launched. -/
theorem in7_2 (c : Dev nD) : V12 m ρ c (Pipeline.arrRef spec7 2) = a12 m c :=
  arg12_at12 m ρ c

/-- Its second weight, narrowed. -/
theorem in7_3 (c : Dev nD) : V12 m ρ c (Pipeline.arrRef spec7 3) = (truncf .bf16 (a13 m c) bitsLt_bf16_f32 : FVec Ideal S256x40 .bf16) :=
  v8_at12 m ρ c

/-- Its second bias as launched. -/
theorem in7_4 (c : Dev nD) : V12 m ρ c (Pipeline.arrRef spec7 4) = a14 m c :=
  arg14_at12 m ρ c

/-- The program's result buffer at the end: the classifier's output as its write-backs leave it. -/
theorem out7 (c : Dev nD) : W13 m ρ c (Proc.devRef .tc main_v78) = o7 m ρ c :=
  o7_at13 m ρ c

end Cert.KernelIdeal.Trace

end
-- ==== Proof.KerBody.lean ====
/-
  The kernel bodies' two non-pointwise operations, read at an index on the extended reals.

  A body multiplies its row block by a whole weight matrix with `tpu.matmul` into a zero accumulator, and adds a
  bias that it first reshapes to one row and spreads over the block's rows. At the exact values the product at
  `(r, j)` is the sum over the contraction index `q` of `l (r, q) · w (q, j)` (the contraction index of the
  dimension numbers is re-indexed by `Fin K`), and the spread bias at `(r, j)` is the bias at `j`.
-/
import proofs.«173693_j49658411876807_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The block product `[2000, 512] × [512, 256]` into a zero accumulator, read at `(r, j)`: the sum over the
    contraction index `q` of `l (r, q) · w (q, j)`. -/
theorem matmul_512_256 {φ₁ φ₂ : FTy} (l : FVec Ideal S2000x512 φ₁) (w : FVec Ideal S512x256 φ₂) (r : Fin 2000) (j : Fin 256) :
    matmul dot_S2000x512_S512x256_S2000x256_1_0_0_1_n_n none l w (constant (F := Ideal) S2000x256 .f32 0x00000000#32) (ix2 r j)
      = ∑ q : Fin 512, l (ix2 r q) * w (ix2 q j) := by
  show FloatOps.matmul dot_S2000x512_S512x256_S2000x256_1_0_0_1_n_n none l w (constant (F := Ideal) S2000x256 .f32 0x00000000#32) (ix2 r j) = _
  rw [Ideal.matmul_constant_zero_apply, ← Equiv.sum_comp (ValueIdx.contrEquiv1 dot_S2000x512_S512x256_S2000x256_1_0_0_1_n_n 512 rfl rfl).symm]
  refine Finset.sum_congr rfl fun q _ => ?_
  have hq := ValueIdx.contrEquiv1_symm_val dot_S2000x512_S512x256_S2000x256_1_0_0_1_n_n 512 rfl rfl q
  have el : dot_S2000x512_S512x256_S2000x256_1_0_0_1_n_n.lhsIdx (ix2 r j) ((ValueIdx.contrEquiv1 dot_S2000x512_S512x256_S2000x256_1_0_0_1_n_n 512 rfl rfl).symm q) = ix2 r q := funext fun a => Fin.ext (by
    match a with
    | ⟨0, _⟩ =>
      show (dot_S2000x512_S512x256_S2000x256_1_0_0_1_n_n.lhsIdx (ix2 r j) _ 0).val = r.val
      unfold DotDims.lhsIdx
      rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
      rfl
    | ⟨1, _⟩ => exact (dot_S2000x512_S512x256_S2000x256_1_0_0_1_n_n.lhsIdx_val_of_single rfl (ix2 r j) _).trans hq)
  have er : dot_S2000x512_S512x256_S2000x256_1_0_0_1_n_n.rhsIdx (ix2 r j) ((ValueIdx.contrEquiv1 dot_S2000x512_S512x256_S2000x256_1_0_0_1_n_n 512 rfl rfl).symm q) = ix2 q j := funext fun a => Fin.ext (by
    match a with
    | ⟨0, _⟩ => exact (dot_S2000x512_S512x256_S2000x256_1_0_0_1_n_n.rhsIdx_val_of_single rfl (ix2 r j) _).trans hq
    | ⟨1, _⟩ =>
      show (dot_S2000x512_S512x256_S2000x256_1_0_0_1_n_n.rhsIdx (ix2 r j) _ 1).val = j.val
      unfold DotDims.rhsIdx
      rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
      rfl)
  rw [el, er]

/-- The block product `[2000, 256] × [256, 256]` into a zero accumulator, read at `(r, j)`: the sum over the
    contraction index `q` of `l (r, q) · w (q, j)`. -/
theorem matmul_256_256 {φ₁ φ₂ : FTy} (l : FVec Ideal S2000x256 φ₁) (w : FVec Ideal S256x256 φ₂) (r : Fin 2000) (j : Fin 256) :
    matmul dot_S2000x256_S256x256_S2000x256_1_0_0_1_n_n none l w (constant (F := Ideal) S2000x256 .f32 0x00000000#32) (ix2 r j)
      = ∑ q : Fin 256, l (ix2 r q) * w (ix2 q j) := by
  show FloatOps.matmul dot_S2000x256_S256x256_S2000x256_1_0_0_1_n_n none l w (constant (F := Ideal) S2000x256 .f32 0x00000000#32) (ix2 r j) = _
  rw [Ideal.matmul_constant_zero_apply, ← Equiv.sum_comp (ValueIdx.contrEquiv1 dot_S2000x256_S256x256_S2000x256_1_0_0_1_n_n 256 rfl rfl).symm]
  refine Finset.sum_congr rfl fun q _ => ?_
  have hq := ValueIdx.contrEquiv1_symm_val dot_S2000x256_S256x256_S2000x256_1_0_0_1_n_n 256 rfl rfl q
  have el : dot_S2000x256_S256x256_S2000x256_1_0_0_1_n_n.lhsIdx (ix2 r j) ((ValueIdx.contrEquiv1 dot_S2000x256_S256x256_S2000x256_1_0_0_1_n_n 256 rfl rfl).symm q) = ix2 r q := funext fun a => Fin.ext (by
    match a with
    | ⟨0, _⟩ =>
      show (dot_S2000x256_S256x256_S2000x256_1_0_0_1_n_n.lhsIdx (ix2 r j) _ 0).val = r.val
      unfold DotDims.lhsIdx
      rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
      rfl
    | ⟨1, _⟩ => exact (dot_S2000x256_S256x256_S2000x256_1_0_0_1_n_n.lhsIdx_val_of_single rfl (ix2 r j) _).trans hq)
  have er : dot_S2000x256_S256x256_S2000x256_1_0_0_1_n_n.rhsIdx (ix2 r j) ((ValueIdx.contrEquiv1 dot_S2000x256_S256x256_S2000x256_1_0_0_1_n_n 256 rfl rfl).symm q) = ix2 q j := funext fun a => Fin.ext (by
    match a with
    | ⟨0, _⟩ => exact (dot_S2000x256_S256x256_S2000x256_1_0_0_1_n_n.rhsIdx_val_of_single rfl (ix2 r j) _).trans hq
    | ⟨1, _⟩ =>
      show (dot_S2000x256_S256x256_S2000x256_1_0_0_1_n_n.rhsIdx (ix2 r j) _ 1).val = j.val
      unfold DotDims.rhsIdx
      rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
      rfl)
  rw [el, er]

/-- The block product `[2000, 256] × [256, 40]` into a zero accumulator, read at `(r, j)`: the sum over the
    contraction index `q` of `l (r, q) · w (q, j)`. -/
theorem matmul_256_40 {φ₁ φ₂ : FTy} (l : FVec Ideal S2000x256 φ₁) (w : FVec Ideal S256x40 φ₂) (r : Fin 2000) (j : Fin 40) :
    matmul dot_S2000x256_S256x40_S2000x40_1_0_0_1_n_n none l w (constant (F := Ideal) S2000x40 .f32 0x00000000#32) (ix2 r j)
      = ∑ q : Fin 256, l (ix2 r q) * w (ix2 q j) := by
  show FloatOps.matmul dot_S2000x256_S256x40_S2000x40_1_0_0_1_n_n none l w (constant (F := Ideal) S2000x40 .f32 0x00000000#32) (ix2 r j) = _
  rw [Ideal.matmul_constant_zero_apply, ← Equiv.sum_comp (ValueIdx.contrEquiv1 dot_S2000x256_S256x40_S2000x40_1_0_0_1_n_n 256 rfl rfl).symm]
  refine Finset.sum_congr rfl fun q _ => ?_
  have hq := ValueIdx.contrEquiv1_symm_val dot_S2000x256_S256x40_S2000x40_1_0_0_1_n_n 256 rfl rfl q
  have el : dot_S2000x256_S256x40_S2000x40_1_0_0_1_n_n.lhsIdx (ix2 r j) ((ValueIdx.contrEquiv1 dot_S2000x256_S256x40_S2000x40_1_0_0_1_n_n 256 rfl rfl).symm q) = ix2 r q := funext fun a => Fin.ext (by
    match a with
    | ⟨0, _⟩ =>
      show (dot_S2000x256_S256x40_S2000x40_1_0_0_1_n_n.lhsIdx (ix2 r j) _ 0).val = r.val
      unfold DotDims.lhsIdx
      rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
      rfl
    | ⟨1, _⟩ => exact (dot_S2000x256_S256x40_S2000x40_1_0_0_1_n_n.lhsIdx_val_of_single rfl (ix2 r j) _).trans hq)
  have er : dot_S2000x256_S256x40_S2000x40_1_0_0_1_n_n.rhsIdx (ix2 r j) ((ValueIdx.contrEquiv1 dot_S2000x256_S256x40_S2000x40_1_0_0_1_n_n 256 rfl rfl).symm q) = ix2 q j := funext fun a => Fin.ext (by
    match a with
    | ⟨0, _⟩ => exact (dot_S2000x256_S256x40_S2000x40_1_0_0_1_n_n.rhsIdx_val_of_single rfl (ix2 r j) _).trans hq
    | ⟨1, _⟩ =>
      show (dot_S2000x256_S256x40_S2000x40_1_0_0_1_n_n.rhsIdx (ix2 r j) _ 1).val = j.val
      unfold DotDims.rhsIdx
      rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
      rfl)
  rw [el, er]

/-- A bias row spread over the `2000` rows of a block, read at `(r, j)`: the bias at `j`. -/
theorem bias_256 (b : FVec Ideal S256 .f32) (r : Fin 2000) (j : Fin 256) :
    broadcastTo S2000x256 (shapeCast S1x256 b shapeCasts_S256_S1x256) broadcasts_S1x256_S2000x256 (ix2 r j) = b (ix1 j) := by
  rw [broadcastTo_apply _ broadcasts_S1x256_S2000x256 (ix2 r j) (ix2 (0 : Fin 1) j) (fun a => by
    match a with
    | ⟨0, _⟩ => show (0 : Nat) = if (1 : Nat) = 1 then 0 else _; rw [if_pos rfl]
    | ⟨1, _⟩ => show j.val = if (256 : Nat) = 1 then 0 else j.val; rw [if_neg (by decide)])]
  refine (shapeCast_addUnit_apply ![256] b shapeCasts_S256_S1x256 (ix2 (0 : Fin 1) j)).trans ?_
  exact congrArg b (funext fun a => by match a with | ⟨0, _⟩ => rfl)

/-- A bias row spread over the `2000` rows of a block, read at `(r, j)`: the bias at `j`. -/
theorem bias_40 (b : FVec Ideal S40 .f32) (r : Fin 2000) (j : Fin 40) :
    broadcastTo S2000x40 (shapeCast S1x40 b shapeCasts_S40_S1x40) broadcasts_S1x40_S2000x40 (ix2 r j) = b (ix1 j) := by
  rw [broadcastTo_apply _ broadcasts_S1x40_S2000x40 (ix2 r j) (ix2 (0 : Fin 1) j) (fun a => by
    match a with
    | ⟨0, _⟩ => show (0 : Nat) = if (1 : Nat) = 1 then 0 else _; rw [if_pos rfl]
    | ⟨1, _⟩ => show j.val = if (40 : Nat) = 1 then 0 else j.val; rw [if_neg (by decide)])]
  refine (shapeCast_addUnit_apply ![40] b shapeCasts_S40_S1x40 (ix2 (0 : Fin 1) j)).trans ?_
  exact congrArg b (funext fun a => by match a with | ⟨0, _⟩ => rfl)

end Cert.KernelIdeal.Body

end
-- ==== Proof.Spec.lean ====
/-
  The arithmetic of the network, index by index, on the extended reals.

  Every dense stage of the hypergraph network is one of four maps on matrices of extended reals: a product of
  the rows by a weight matrix (`mm`), a bias added to every row (`addRow`), the positive part (`relu`) and the
  even mixture of two matrices (`mix`). The message passing in between moves whole rows: a gather copies rows of
  its operand, a concatenation puts two matrices side by side. This module states those maps for all extents
  and proves the one law that relates the two ways the incidence messages are formed:

    (rows of [a | b]) · w + c  =  a · (upper half of w)  +  (b · (lower half of w) + c),

  a sum over 512 terms split at 256 and re-associated. Sums and products of extended reals are commutative and
  associative without exception, so the law needs no finiteness of the entries.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `m` rows and `n` columns. -/
abbrev Mat (m n : Nat) := (⟨2, ![m, n]⟩ : Shape).Idx → EReal
/-- A row of `n` extended reals. -/
abbrev Row (n : Nat) := (⟨1, ![n]⟩ : Shape).Idx → EReal

/-- The value of the float word zero. -/
abbrev zeroW : EReal := Ideal.ofBits .f32 0x00000000#32
/-- The value of the float word one half. -/
abbrev halfW : EReal := Ideal.ofBits .f32 0x3F000000#32

variable {m k n : Nat}

/-- Rows times a matrix: entry `(r, j)` is the sum over `q` of `x (r, q) · w (q, j)`. -/
def mm (x : Mat m k) (w : Mat k n) : Mat m n :=
  fun i => ∑ q : Fin k, x (ix2 (i 0) q) * w (ix2 q (i 1))

/-- A bias added to every row. -/
def addRow (y : Mat m n) (b : Row n) : Mat m n := fun i => y i + b (ix1 (i 1))

/-- The positive part, entry by entry. -/
def relu (y : Mat m n) : Mat m n := fun i => max (y i) zeroW

/-- Half of one matrix plus half of another. -/
def mix (a b : Mat m n) : Mat m n := fun i => halfW * a i + halfW * b i

/-- The sum of two matrices. -/
def add (a b : Mat m n) : Mat m n := fun i => a i + b i

/-- The upper 256 rows of a matrix of 512 rows. -/
def topRows (w : Mat 512 n) : Mat 256 n := fun i => w (ix2 ⟨(i 0).val, by have h : (i 0).val < 256 := (i 0).isLt; omega⟩ (i 1))

/-- The lower 256 rows of a matrix of 512 rows. -/
def botRows (w : Mat 512 n) : Mat 256 n := fun i => w (ix2 ⟨256 + (i 0).val, by have h : (i 0).val < 256 := (i 0).isLt; omega⟩ (i 1))

/-- Two matrices of 256 columns side by side. -/
def catCols (a b : Mat m 256) : Mat m 512 := fun i =>
  if h : (i 1).val < 256 then a (ix2 (i 0) ⟨(i 1).val, h⟩)
  else b (ix2 (i 0) ⟨(i 1).val - 256, by have h' : (i 1).val < 512 := (i 1).isLt; omega⟩)

end Cert.Spec

end
-- ==== Proof.Reg0.lean ====
/-
  Region 0: the input projection, `relu (x · W + b)` on the 512 input features.

  The grid has 25 points; point `t` reads rows `2000·t … 2000·t + 1999` of the features and the whole weight and bias, and
  writes the same rows of the output. At `(r, j)` the body forms the row's product with column `j`, adds the bias at `j` and
  takes the positive part, so every block is the restriction of ONE function of the region's entry arrays, and the 25 blocks
  tile the array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg0

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 25 points. -/
theorem npts : cfg0.N = 25 := by decide

/-- Row `r` of block `t` is row `2000 · t + r` of the array. -/
def row (t : Fin cfg0.N) (r : Fin 2000) : Fin 50000 :=
  ⟨2000 * t.val + r.val, by have h : t.val < cfg0.N := t.isLt; have hN : cfg0.N = 25 := npts; have := r.isLt; omega⟩

/-- The body's arithmetic at `(r, j)`: the positive part of row `r` of the block times column `j` of the weight plus the bias at `j`. -/
theorem pay3 (x0 : Vec Ideal S2000x512 .f32) (x1 : Vec Ideal S512x256 .bf16) (x2 : Vec Ideal S256 .f32)
    (r : Fin 2000) (j : Fin 256) :
    k0_pay1 x0 x1 x2 (ix2 r j) = max ((∑ q : Fin 512, x0 (ix2 r q) * x1 (ix2 q j)) + x2 (ix1 j)) zeroW := by
  unfold k0_pay1
  simp only [shapeCast_self]
  rw [maximumf_apply, addf_apply, broadcast_apply, matmul_512_256, bias_256]
  rfl

/-- The printed index maps over the grid: the row blocks move with the point, the weights and the biases stay. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- What the array ends holding: the positive part of every row times the weight plus the bias. -/
abbrev G3 (c : Dev nD) : Mat 50000 256 :=
  relu (addRow (mm (V c (Pipeline.arrRef spec0 0)) (V c (Pipeline.arrRef spec0 1))) (V c (Pipeline.arrRef spec0 2)))

set_option maxHeartbeats 2000000 in
/-- WHAT POINT `t` WRITES BACK through window 3 is block `t` of `G3`: rows `2000 · t … 2000 · t + 1999`. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz2]
  simp only [View.ld_unit_zero (S := S2000x512) hz2, View.ld_unit_zero (S := S512x256) hz2, View.ld_unit_zero (S := S256) hz1]
  obtain ⟨e00, e01, e10, e11, e20, e30, e31⟩ := idx_facts t
  funext y
  obtain ⟨r, j, rfl⟩ : ∃ (r : Fin 2000) (j : Fin 256), y = ix2 r j := ⟨y 0, y 1, eq_ix2 y⟩
  refine (pay3 _ _ _ r j).trans ?_
  have h0 : ∀ q : Fin 512, ((cfg0.win 0).blk t).view.emb (ix2 r q) = ix2 (row t r) q := fun q => by
    funext a; apply Fin.ext
    match a with
    | ⟨0, _⟩ => show win0_0.index t (0 : Fin 2) * 2000 + 1 * r.val = 2000 * t.val + r.val; omega
    | ⟨1, _⟩ => show win0_0.index t (1 : Fin 2) * 512 + 1 * q.val = q.val; omega
  have x0 : ∀ q : Fin 512, iblk0 V c 0 t (ix2 r q) = (V c (Pipeline.arrRef spec0 0) : Mat 50000 512) (ix2 (row t r) q) :=
    fun q => congrArg (V c (Pipeline.arrRef spec0 0)) (h0 q)
  have h1 : ∀ (p : Fin 512) (q : Fin 256), ((cfg0.win 1).blk t).view.emb (ix2 p q) = ix2 p q := fun p q => by
    funext a; apply Fin.ext
    match a with
    | ⟨0, _⟩ => show win0_1.index t (0 : Fin 2) * 512 + 1 * p.val = p.val; omega
    | ⟨1, _⟩ => show win0_1.index t (1 : Fin 2) * 256 + 1 * q.val = q.val; omega
  have x1 : ∀ (p : Fin 512) (q : Fin 256), iblk0 V c 1 t (ix2 p q) = (V c (Pipeline.arrRef spec0 1) : Mat 512 256) (ix2 p q) :=
    fun p q => congrArg (V c (Pipeline.arrRef spec0 1)) (h1 p q)
  have h2 : ∀ q : Fin 256, ((cfg0.win 2).blk t).view.emb (ix1 q) = ix1 q := fun q => by
    funext a; apply Fin.ext
    match a with
    | ⟨0, _⟩ => show win0_2.index t (0 : Fin 1) * 256 + 1 * q.val = q.val; omega
  have x2 : ∀ q : Fin 256, iblk0 V c 2 t (ix1 q) = (V c (Pipeline.arrRef spec0 2) : Row 256) (ix1 q) :=
    fun q => congrArg (V c (Pipeline.arrRef spec0 2)) (h2 q)
  have ho : ((cfg0.win 3).blk t).view.emb (ix2 r j) = ix2 (row t r) j := by
    funext a; apply Fin.ext
    match a with
    | ⟨0, _⟩ => show win0_3.index t (0 : Fin 2) * 2000 + 1 * r.val = 2000 * t.val + r.val; omega
    | ⟨1, _⟩ => show win0_3.index t (1 : Fin 2) * 256 + 1 * j.val = j.val; omega
  simp only [x0, x1, x2]
  show _ = G3 V c (((cfg0.win 3).blk t).view.emb (ix2 r j))
  rw [ho]
  rfl

/-- An index of the array is in point `t`'s block of window 3 iff each coordinate is in the block's range. -/
theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v9).slice (win0_3.rect t)).set ↔ _
  rw [View.set_slice_whole, Rect.mem_set_unit]
  exact Iff.rfl

/-- Every row lies in the block of the point `row / 2000`. -/
theorem cover3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by rw [npts]; omega⟩
  obtain ⟨e00, e01, e10, e11, e20, e30, e31⟩ := idx_facts t
  have ht : t.val = (i 0).val / 2000 := rfl
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE ARRAY of window 3 after the region. -/
theorem final3 (c : Dev nD) : (dat0 V c).arrAt 3 cfg0.N = G3 V c :=
  (dat0 V c).arrAt_eq_of_cover 3 (G3 V c) (fun t _ => flushed3_eq V c t) cover3

end Cert.KernelIdeal.Reg0

end
-- ==== Proof.Reg1.lean ====
/-
  Region 1: the two products of the vertex features a layer starts with, `x · W1 + b1` and `x · (upper half of W2)`.

  The grid has 25 points; point `t` reads rows `2000·t … 2000·t + 1999` of the features and the two whole weights and the bias,
  and writes the same rows of both outputs. Each block is the restriction of one function of the region's entry arrays, and
  the 25 blocks tile each array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg1

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 25 points. -/
theorem npts : cfg1.N = 25 := by decide

/-- Row `r` of block `t` is row `2000 · t + r` of the array. -/
def row (t : Fin cfg1.N) (r : Fin 2000) : Fin 50000 :=
  ⟨2000 * t.val + r.val, by have h : t.val < cfg1.N := t.isLt; have hN : cfg1.N = 25 := npts; have := r.isLt; omega⟩

/-- The first output's arithmetic at `(r, j)`: row `r` of the block times column `j` of the first weight, plus the bias at `j`. -/
theorem pay4 (x0 : Vec Ideal S2000x256 .f32) (x1 : Vec Ideal S256x256 .bf16) (x2 : Vec Ideal S256 .f32)
    (r : Fin 2000) (j : Fin 256) :
    k1_pay2 x0 x1 x2 (ix2 r j) = (∑ q : Fin 256, x0 (ix2 r q) * x1 (ix2 q j)) + x2 (ix1 j) := by
  unfold k1_pay2 k1_pay1
  simp only [shapeCast_self]
  rw [truncf_apply, addf_apply, matmul_256_256, bias_256]
  rfl

/-- The second output's arithmetic at `(r, j)`: row `r` of the block times column `j` of the second weight. -/
theorem pay5 (x0 : Vec Ideal S2000x256 .f32) (x3 : Vec Ideal S256x256 .bf16)
    (r : Fin 2000) (j : Fin 256) :
    k1_pay3 x0 x3 (ix2 r j) = (∑ q : Fin 256, x0 (ix2 r q) * x3 (ix2 q j)) := by
  unfold k1_pay3 k1_pay1
  simp only [shapeCast_self]
  rw [truncf_apply, matmul_256_256]
  rfl

/-- The printed index maps over the grid: the row blocks move with the point, the weights and the biases stay. -/
theorem idx_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 2) = t.val
    ∧ win1_4.index t (1 : Fin 2) = 0
    ∧ win1_5.index t (0 : Fin 2) = t.val
    ∧ win1_5.index t (1 : Fin 2) = 0 :=
  (by decide +kernel : ∀ t : Fin grid1.N, _)

/-- The first array: every row of the features times the first weight, plus the bias. -/
abbrev G4 (c : Dev nD) : Mat 50000 256 :=
  addRow (mm (V c (Pipeline.arrRef spec1 0)) (V c (Pipeline.arrRef spec1 1))) (V c (Pipeline.arrRef spec1 2))

set_option maxHeartbeats 2000000 in
/-- WHAT POINT `t` WRITES BACK through window 4 is block `t` of `G4`: rows `2000 · t … 2000 · t + 1999`. -/
theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S256x256) hz2, View.ld_unit_zero (S := S256) hz1]
  obtain ⟨e00, e01, e10, e11, e20, e30, e31, e40, e41, e50, e51⟩ := idx_facts t
  funext y
  obtain ⟨r, j, rfl⟩ : ∃ (r : Fin 2000) (j : Fin 256), y = ix2 r j := ⟨y 0, y 1, eq_ix2 y⟩
  refine (pay4 _ _ _ r j).trans ?_
  have h0 : ∀ q : Fin 256, ((cfg1.win 0).blk t).view.emb (ix2 r q) = ix2 (row t r) q := fun q => by
    funext a; apply Fin.ext
    match a with
    | ⟨0, _⟩ => show win1_0.index t (0 : Fin 2) * 2000 + 1 * r.val = 2000 * t.val + r.val; omega
    | ⟨1, _⟩ => show win1_0.index t (1 : Fin 2) * 256 + 1 * q.val = q.val; omega
  have x0 : ∀ q : Fin 256, iblk1 V c 0 t (ix2 r q) = (V c (Pipeline.arrRef spec1 0) : Mat 50000 256) (ix2 (row t r) q) :=
    fun q => congrArg (V c (Pipeline.arrRef spec1 0)) (h0 q)
  have h1 : ∀ (p : Fin 256) (q : Fin 256), ((cfg1.win 1).blk t).view.emb (ix2 p q) = ix2 p q := fun p q => by
    funext a; apply Fin.ext
    match a with
    | ⟨0, _⟩ => show win1_1.index t (0 : Fin 2) * 256 + 1 * p.val = p.val; omega
    | ⟨1, _⟩ => show win1_1.index t (1 : Fin 2) * 256 + 1 * q.val = q.val; omega
  have x1 : ∀ (p : Fin 256) (q : Fin 256), iblk1 V c 1 t (ix2 p q) = (V c (Pipeline.arrRef spec1 1) : Mat 256 256) (ix2 p q) :=
    fun p q => congrArg (V c (Pipeline.arrRef spec1 1)) (h1 p q)
  have h2 : ∀ q : Fin 256, ((cfg1.win 2).blk t).view.emb (ix1 q) = ix1 q := fun q => by
    funext a; apply Fin.ext
    match a with
    | ⟨0, _⟩ => show win1_2.index t (0 : Fin 1) * 256 + 1 * q.val = q.val; omega
  have x2 : ∀ q : Fin 256, iblk1 V c 2 t (ix1 q) = (V c (Pipeline.arrRef spec1 2) : Row 256) (ix1 q) :=
    fun q => congrArg (V c (Pipeline.arrRef spec1 2)) (h2 q)
  have ho : ((cfg1.win 4).blk t).view.emb (ix2 r j) = ix2 (row t r) j := by
    funext a; apply Fin.ext
    match a with
    | ⟨0, _⟩ => show win1_4.index t (0 : Fin 2) * 2000 + 1 * r.val = 2000 * t.val + r.val; omega
    | ⟨1, _⟩ => show win1_4.index t (1 : Fin 2) * 256 + 1 * j.val = j.val; omega
  simp only [x0, x1, x2]
  show _ = G4 V c (((cfg1.win 4).blk t).view.emb (ix2 r j))
  rw [ho]
  rfl

/-- An index of the array is in point `t`'s block of window 4 iff each coordinate is in the block's range. -/
theorem mem_blk4 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v10_0).slice (win1_4.rect t)).set ↔ _
  rw [View.set_slice_whole, Rect.mem_set_unit]
  exact Iff.rfl

/-- Every row lies in the block of the point `row / 2000`. -/
theorem cover4 (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  let t : Fin cfg1.N := ⟨(i 0).val / 2000, by rw [npts]; omega⟩
  obtain ⟨e00, e01, e10, e11, e20, e30, e31, e40, e41, e50, e51⟩ := idx_facts t
  have ht : t.val = (i 0).val / 2000 := rfl
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- THE ARRAY of window 4 after the region. -/
theorem final4 (c : Dev nD) : (dat1 V c).arrAt 4 cfg1.N = G4 V c :=
  (dat1 V c).arrAt_eq_of_cover 4 (G4 V c) (fun t _ => flushed4_eq V c t) cover4

/-- The second array: every row of the features times the second weight. -/
abbrev G5 (c : Dev nD) : Mat 50000 256 :=
  mm (V c (Pipeline.arrRef spec1 0)) (V c (Pipeline.arrRef spec1 3))

set_option maxHeartbeats 2000000 in
/-- WHAT POINT `t` WRITES BACK through window 5 is block `t` of `G5`: rows `2000 · t … 2000 · t + 1999`. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  obtain ⟨e00, e01, e10, e11, e20, e30, e31, e40, e41, e50, e51⟩ := idx_facts t
  funext y
  obtain ⟨r, j, rfl⟩ : ∃ (r : Fin 2000) (j : Fin 256), y = ix2 r j := ⟨y 0, y 1, eq_ix2 y⟩
  refine (pay5 _ _ r j).trans ?_
  have h0 : ∀ q : Fin 256, ((cfg1.win 0).blk t).view.emb (ix2 r q) = ix2 (row t r) q := fun q => by
    funext a; apply Fin.ext
    match a with
    | ⟨0, _⟩ => show win1_0.index t (0 : Fin 2) * 2000 + 1 * r.val = 2000 * t.val + r.val; omega
    | ⟨1, _⟩ => show win1_0.index t (1 : Fin 2) * 256 + 1 * q.val = q.val; omega
  have x0 : ∀ q : Fin 256, iblk1 V c 0 t (ix2 r q) = (V c (Pipeline.arrRef spec1 0) : Mat 50000 256) (ix2 (row t r) q) :=
    fun q => congrArg (V c (Pipeline.arrRef spec1 0)) (h0 q)
  have h3 : ∀ (p : Fin 256) (q : Fin 256), ((cfg1.win 3).blk t).view.emb (ix2 p q) = ix2 p q := fun p q => by
    funext a; apply Fin.ext
    match a with
    | ⟨0, _⟩ => show win1_3.index t (0 : Fin 2) * 256 + 1 * p.val = p.val; omega
    | ⟨1, _⟩ => show win1_3.index t (1 : Fin 2) * 256 + 1 * q.val = q.val; omega
  have x3 : ∀ (p : Fin 256) (q : Fin 256), iblk1 V c 3 t (ix2 p q) = (V c (Pipeline.arrRef spec1 3) : Mat 256 256) (ix2 p q) :=
    fun p q => congrArg (V c (Pipeline.arrRef spec1 3)) (h3 p q)
  have ho : ((cfg1.win 5).blk t).view.emb (ix2 r j) = ix2 (row t r) j := by
    funext a; apply Fin.ext
    match a with
    | ⟨0, _⟩ => show win1_5.index t (0 : Fin 2) * 2000 + 1 * r.val = 2000 * t.val + r.val; omega
    | ⟨1, _⟩ => show win1_5.index t (1 : Fin 2) * 256 + 1 * j.val = j.val; omega
  simp only [x0, x3]
  show _ = G5 V c (((cfg1.win 5).blk t).view.emb (ix2 r j))
  rw [ho]
  rfl

/-- An index of the array is in point `t`'s block of window 5 iff each coordinate is in the block's range. -/
theorem mem_blk5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v10_1).slice (win1_5.rect t)).set ↔ _
  rw [View.set_slice_whole, Rect.mem_set_unit]
  exact Iff.rfl

/-- Every row lies in the block of the point `row / 2000`. -/
theorem cover5 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 2000, by rw [npts]; omega⟩
  obtain ⟨e00, e01, e10, e11, e20, e30, e31, e40, e41, e50, e51⟩ := idx_facts t
  have ht : t.val = (i 0).val / 2000 := rfl
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE ARRAY of window 5 after the region. -/
theorem final5 (c : Dev nD) : (dat1 V c).arrAt 5 cfg1.N = G5 V c :=
  (dat1 V c).arrAt_eq_of_cover 5 (G5 V c) (fun t _ => flushed5_eq V c t) cover5

end Cert.KernelIdeal.Reg1

end
-- ==== Proof.Reg2.lean ====
/-
  Region 2: the hyperedge sums times the lower half of the message weight, plus the message bias.

  The grid has 40 points; point `t` reads rows `2000·t … 2000·t + 1999` of the hyperedge sums and the whole weight and bias,
  and writes the same rows of the output. The body's arithmetic at `(r, j)` is the row's product with column `j` plus the
  bias at `j`, so every block is the restriction of ONE function of the region's entry arrays, and the 40 blocks tile the array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg2

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 40 points. -/
theorem npts : cfg2.N = 40 := by decide

/-- Row `r` of block `t` is row `2000 · t + r` of the array. -/
def row (t : Fin cfg2.N) (r : Fin 2000) : Fin 80000 :=
  ⟨2000 * t.val + r.val, by have h : t.val < cfg2.N := t.isLt; have hN : cfg2.N = 40 := npts; have := r.isLt; omega⟩

/-- The body's arithmetic at `(r, j)`: row `r` of the block times column `j` of the weight, plus the bias at `j` (the changes of float format are the identity on the extended reals). -/
theorem pay3 (x0 : Vec Ideal S2000x256 .f32) (x1 : Vec Ideal S256x256 .bf16) (x2 : Vec Ideal S256 .f32)
    (r : Fin 2000) (j : Fin 256) :
    k2_pay1 x0 x1 x2 (ix2 r j) = (∑ q : Fin 256, x0 (ix2 r q) * x1 (ix2 q j)) + x2 (ix1 j) := by
  unfold k2_pay1
  simp only [shapeCast_self]
  rw [truncf_apply, addf_apply, matmul_256_256, bias_256]
  rfl

/-- The printed index maps over the grid: the row blocks move with the point, the weights and the biases stay. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = t.val
    ∧ win2_3.index t (1 : Fin 2) = 0 :=
  (by decide +kernel : ∀ t : Fin grid2.N, _)

/-- What the array ends holding: every row of the operand times the weight, plus the bias. -/
abbrev G3 (c : Dev nD) : Mat 80000 256 :=
  addRow (mm (V c (Pipeline.arrRef spec2 0)) (V c (Pipeline.arrRef spec2 1))) (V c (Pipeline.arrRef spec2 2))

set_option maxHeartbeats 2000000 in
/-- WHAT POINT `t` WRITES BACK through window 3 is block `t` of `G3`: rows `2000 · t … 2000 · t + 1999`. -/
theorem flushed3_eq (c : Dev nD) (t : Fin cfg2.N) :
    (dat2 V c).flushed 3 t = ((cfg2.win 3).blk t).view.read (Elt Ideal) (G3 V c) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S256x256) hz2, View.ld_unit_zero (S := S256) hz1]
  obtain ⟨e00, e01, e10, e11, e20, e30, e31⟩ := idx_facts t
  funext y
  obtain ⟨r, j, rfl⟩ : ∃ (r : Fin 2000) (j : Fin 256), y = ix2 r j := ⟨y 0, y 1, eq_ix2 y⟩
  refine (pay3 _ _ _ r j).trans ?_
  have h0 : ∀ q : Fin 256, ((cfg2.win 0).blk t).view.emb (ix2 r q) = ix2 (row t r) q := fun q => by
    funext a; apply Fin.ext
    match a with
    | ⟨0, _⟩ => show win2_0.index t (0 : Fin 2) * 2000 + 1 * r.val = 2000 * t.val + r.val; omega
    | ⟨1, _⟩ => show win2_0.index t (1 : Fin 2) * 256 + 1 * q.val = q.val; omega
  have x0 : ∀ q : Fin 256, iblk2 V c 0 t (ix2 r q) = (V c (Pipeline.arrRef spec2 0) : Mat 80000 256) (ix2 (row t r) q) :=
    fun q => congrArg (V c (Pipeline.arrRef spec2 0)) (h0 q)
  have h1 : ∀ (p : Fin 256) (q : Fin 256), ((cfg2.win 1).blk t).view.emb (ix2 p q) = ix2 p q := fun p q => by
    funext a; apply Fin.ext
    match a with
    | ⟨0, _⟩ => show win2_1.index t (0 : Fin 2) * 256 + 1 * p.val = p.val; omega
    | ⟨1, _⟩ => show win2_1.index t (1 : Fin 2) * 256 + 1 * q.val = q.val; omega
  have x1 : ∀ (p : Fin 256) (q : Fin 256), iblk2 V c 1 t (ix2 p q) = (V c (Pipeline.arrRef spec2 1) : Mat 256 256) (ix2 p q) :=
    fun p q => congrArg (V c (Pipeline.arrRef spec2 1)) (h1 p q)
  have h2 : ∀ q : Fin 256, ((cfg2.win 2).blk t).view.emb (ix1 q) = ix1 q := fun q => by
    funext a; apply Fin.ext
    match a with
    | ⟨0, _⟩ => show win2_2.index t (0 : Fin 1) * 256 + 1 * q.val = q.val; omega
  have x2 : ∀ q : Fin 256, iblk2 V c 2 t (ix1 q) = (V c (Pipeline.arrRef spec2 2) : Row 256) (ix1 q) :=
    fun q => congrArg (V c (Pipeline.arrRef spec2 2)) (h2 q)
  have ho : ((cfg2.win 3).blk t).view.emb (ix2 r j) = ix2 (row t r) j := by
    funext a; apply Fin.ext
    match a with
    | ⟨0, _⟩ => show win2_3.index t (0 : Fin 2) * 2000 + 1 * r.val = 2000 * t.val + r.val; omega
    | ⟨1, _⟩ => show win2_3.index t (1 : Fin 2) * 256 + 1 * j.val = j.val; omega
  simp only [x0, x1, x2]
  show _ = G3 V c (((cfg2.win 3).blk t).view.emb (ix2 r j))
  rw [ho]
  rfl

/-- An index of the array is in point `t`'s block of window 3 iff each coordinate is in the block's range. -/
theorem mem_blk3 (t : Fin cfg2.N) (i : S80000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v22).slice (win2_3.rect t)).set ↔ _
  rw [View.set_slice_whole, Rect.mem_set_unit]
  exact Iff.rfl

/-- Every row lies in the block of the point `row / 2000`. -/
theorem cover3 (i : S80000x256.Idx) : ∃ t : Fin cfg2.N, (cfg2.win 3).flush t = true ∧ i ∈ ((cfg2.win 3).blk t).view.set := by
  have hi0 : (i 0).val < 80000 := (i 0).isLt
  have hi1 : (i 1).val < 256 := (i 1).isLt
  let t : Fin cfg2.N := ⟨(i 0).val / 2000, by rw [npts]; omega⟩
  obtain ⟨e00, e01, e10, e11, e20, e30, e31⟩ := idx_facts t
  have ht : t.val = (i 0).val / 2000 := rfl
  refine ⟨t, flush2_3 t, ?_⟩
  rw [mem_blk3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE ARRAY of window 3 after the region. -/
theorem final3 (c : Dev nD) : (dat2 V c).arrAt 3 cfg2.N = G3 V c :=
  (dat2 V c).arrAt_eq_of_cover 3 (G3 V c) (fun t _ => flushed3_eq V c t) cover3

end Cert.KernelIdeal.Reg2

end
-- ==== Proof.Reg3.lean ====
/-
  Region 3: the end of a layer, `relu ((½ · xv + ½ · x0) · W3 + b3)`.

  The grid has 25 points; point `t` reads rows `2000·t … 2000·t + 1999` of the vertex sums and of the first features and the
  whole weight and bias, and writes the same rows of the output. Each block is the restriction of one function of the region's
  entry arrays, and the 25 blocks tile the array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg3

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 25 points. -/
theorem npts : cfg3.N = 25 := by decide

/-- Row `r` of block `t` is row `2000 · t + r` of the array. -/
def row (t : Fin cfg3.N) (r : Fin 2000) : Fin 50000 :=
  ⟨2000 * t.val + r.val, by have h : t.val < cfg3.N := t.isLt; have hN : cfg3.N = 25 := npts; have := r.isLt; omega⟩

/-- The body's arithmetic at `(r, j)`: the positive part of the mixed row `½ · xv r + ½ · x0 r` times column `j` of the weight plus the bias at `j`. -/
theorem pay4 (x0 : Vec Ideal S2000x256 .f32) (x1 : Vec Ideal S2000x256 .f32) (x2 : Vec Ideal S256x256 .bf16) (x3 : Vec Ideal S256 .f32)
    (r : Fin 2000) (j : Fin 256) :
    k3_pay1 x0 x1 x2 x3 (ix2 r j) = max ((∑ q : Fin 256, (halfW * x0 (ix2 r q) + halfW * x1 (ix2 r q)) * x2 (ix2 q j)) + x3 (ix1 j)) zeroW := by
  unfold k3_pay1
  simp only [shapeCast_self]
  rw [maximumf_apply, addf_apply, broadcast_apply, matmul_256_256, bias_256]
  rfl

/-- The printed index maps over the grid: the row blocks move with the point, the weights and the biases stay. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = t.val
    ∧ win3_4.index t (1 : Fin 2) = 0 :=
  (by decide +kernel : ∀ t : Fin grid3.N, _)

/-- What the array ends holding: the positive part of the mixed rows times the weight plus the bias. -/
abbrev G4 (c : Dev nD) : Mat 50000 256 :=
  relu (addRow (mm (mix (V c (Pipeline.arrRef spec3 0)) (V c (Pipeline.arrRef spec3 1))) (V c (Pipeline.arrRef spec3 2))) (V c (Pipeline.arrRef spec3 3)))

set_option maxHeartbeats 2000000 in
/-- WHAT POINT `t` WRITES BACK through window 4 is block `t` of `G4`: rows `2000 · t … 2000 · t + 1999`. -/
theorem flushed4_eq (c : Dev nD) (t : Fin cfg3.N) :
    (dat3 V c).flushed 4 t = ((cfg3.win 4).blk t).view.read (Elt Ideal) (G4 V c) := by
  show (cfg3.win 4).cut (grid3.coords t) ((dat3 V c).after 4 t) = _
  rw [after3_4]
  unfold out3_4
  rw [View.canon_unit_zero hz2]
  simp only [View.ld_unit_zero (S := S2000x256) hz2, View.ld_unit_zero (S := S256x256) hz2, View.ld_unit_zero (S := S256) hz1]
  obtain ⟨e00, e01, e10, e11, e20, e21, e30, e40, e41⟩ := idx_facts t
  funext y
  obtain ⟨r, j, rfl⟩ : ∃ (r : Fin 2000) (j : Fin 256), y = ix2 r j := ⟨y 0, y 1, eq_ix2 y⟩
  refine (pay4 _ _ _ _ r j).trans ?_
  have h0 : ∀ q : Fin 256, ((cfg3.win 0).blk t).view.emb (ix2 r q) = ix2 (row t r) q := fun q => by
    funext a; apply Fin.ext
    match a with
    | ⟨0, _⟩ => show win3_0.index t (0 : Fin 2) * 2000 + 1 * r.val = 2000 * t.val + r.val; omega
    | ⟨1, _⟩ => show win3_0.index t (1 : Fin 2) * 256 + 1 * q.val = q.val; omega
  have x0 : ∀ q : Fin 256, iblk3 V c 0 t (ix2 r q) = (V c (Pipeline.arrRef spec3 0) : Mat 50000 256) (ix2 (row t r) q) :=
    fun q => congrArg (V c (Pipeline.arrRef spec3 0)) (h0 q)
  have h1 : ∀ q : Fin 256, ((cfg3.win 1).blk t).view.emb (ix2 r q) = ix2 (row t r) q := fun q => by
    funext a; apply Fin.ext
    match a with
    | ⟨0, _⟩ => show win3_1.index t (0 : Fin 2) * 2000 + 1 * r.val = 2000 * t.val + r.val; omega
    | ⟨1, _⟩ => show win3_1.index t (1 : Fin 2) * 256 + 1 * q.val = q.val; omega
  have x1 : ∀ q : Fin 256, iblk3 V c 1 t (ix2 r q) = (V c (Pipeline.arrRef spec3 1) : Mat 50000 256) (ix2 (row t r) q) :=
    fun q => congrArg (V c (Pipeline.arrRef spec3 1)) (h1 q)
  have h2 : ∀ (p : Fin 256) (q : Fin 256), ((cfg3.win 2).blk t).view.emb (ix2 p q) = ix2 p q := fun p q => by
    funext a; apply Fin.ext
    match a with
    | ⟨0, _⟩ => show win3_2.index t (0 : Fin 2) * 256 + 1 * p.val = p.val; omega
    | ⟨1, _⟩ => show win3_2.index t (1 : Fin 2) * 256 + 1 * q.val = q.val; omega
  have x2 : ∀ (p : Fin 256) (q : Fin 256), iblk3 V c 2 t (ix2 p q) = (V c (Pipeline.arrRef spec3 2) : Mat 256 256) (ix2 p q) :=
    fun p q => congrArg (V c (Pipeline.arrRef spec3 2)) (h2 p q)
  have h3 : ∀ q : Fin 256, ((cfg3.win 3).blk t).view.emb (ix1 q) = ix1 q := fun q => by
    funext a; apply Fin.ext
    match a with
    | ⟨0, _⟩ => show win3_3.index t (0 : Fin 1) * 256 + 1 * q.val = q.val; omega
  have x3 : ∀ q : Fin 256, iblk3 V c 3 t (ix1 q) = (V c (Pipeline.arrRef spec3 3) : Row 256) (ix1 q) :=
    fun q => congrArg (V c (Pipeline.arrRef spec3 3)) (h3 q)
  have ho : ((cfg3.win 4).blk t).view.emb (ix2 r j) = ix2 (row t r) j := by
    funext a; apply Fin.ext
    match a with
    | ⟨0, _⟩ => show win3_4.index t (0 : Fin 2) * 2000 + 1 * r.val = 2000 * t.val + r.val; omega
    | ⟨1, _⟩ => show win3_4.index t (1 : Fin 2) * 256 + 1 * j.val = j.val; omega
  simp only [x0, x1, x2, x3]
  show _ = G4 V c (((cfg3.win 4).blk t).view.emb (ix2 r j))
  rw [ho]
  rfl

/-- An index of the array is in point `t`'s block of window 4 iff each coordinate is in the block's range. -/
theorem mem_blk4 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v43).slice (win3_4.rect t)).set ↔ _
  rw [View.set_slice_whole, Rect.mem_set_unit]
  exact Iff.rfl

/-- Every row lies in the block of the point `row / 2000`. -/
theorem cover4 (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  let t : Fin cfg3.N := ⟨(i 0).val / 2000, by rw [npts]; omega⟩
  obtain ⟨e00, e01, e10, e11, e20, e21, e30, e40, e41⟩ := idx_facts t
  have ht : t.val = (i 0).val / 2000 := rfl
  refine ⟨t, flush3_4 t, ?_⟩
  rw [mem_blk4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- THE ARRAY of window 4 after the region. -/
theorem final4 (c : Dev nD) : (dat3 V c).arrAt 4 cfg3.N = G4 V c :=
  (dat3 V c).arrAt_eq_of_cover 4 (G4 V c) (fun t _ => flushed4_eq V c t) cover4

end Cert.KernelIdeal.Reg3

end
-- ==== Proof.Reg4.lean ====
/-
  Region 4: the two products of the vertex features a layer starts with, `x · W1 + b1` and `x · (upper half of W2)`.

  The grid has 25 points; point `t` reads rows `2000·t … 2000·t + 1999` of the features and the two whole weights and the bias,
  and writes the same rows of both outputs. Each block is the restriction of one function of the region's entry arrays, and
  the 25 blocks tile each array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg4

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 25 points. -/
theorem npts : cfg4.N = 25 := by decide

/-- Row `r` of block `t` is row `2000 · t + r` of the array. -/
def row (t : Fin cfg4.N) (r : Fin 2000) : Fin 50000 :=
  ⟨2000 * t.val + r.val, by have h : t.val < cfg4.N := t.isLt; have hN : cfg4.N = 25 := npts; have := r.isLt; omega⟩

/-- The first output's arithmetic at `(r, j)`: row `r` of the block times column `j` of the first weight, plus the bias at `j`. -/
theorem pay4 (x0 : Vec Ideal S2000x256 .f32) (x1 : Vec Ideal S256x256 .bf16) (x2 : Vec Ideal S256 .f32)
    (r : Fin 2000) (j : Fin 256) :
    k4_pay2 x0 x1 x2 (ix2 r j) = (∑ q : Fin 256, x0 (ix2 r q) * x1 (ix2 q j)) + x2 (ix1 j) := by
  unfold k4_pay2 k4_pay1
  simp only [shapeCast_self]
  rw [truncf_apply, addf_apply, matmul_256_256, bias_256]
  rfl

/-- The second output's arithmetic at `(r, j)`: row `r` of the block times column `j` of the second weight. -/
theorem pay5 (x0 : Vec Ideal S2000x256 .f32) (x3 : Vec Ideal S256x256 .bf16)
    (r : Fin 2000) (j : Fin 256) :
    k4_pay3 x0 x3 (ix2 r j) = (∑ q : Fin 256, x0 (ix2 r q) * x3 (ix2 q j)) := by
  unfold k4_pay3 k4_pay1
  simp only [shapeCast_self]
  rw [truncf_apply, matmul_256_256]
  rfl

/-- The printed index maps over the grid: the row blocks move with the point, the weights and the biases stay. -/
theorem idx_facts : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 2) = t.val
    ∧ win4_4.index t (1 : Fin 2) = 0
    ∧ win4_5.index t (0 : Fin 2) = t.val
    ∧ win4_5.index t (1 : Fin 2) = 0 :=
  (by decide +kernel : ∀ t : Fin grid4.N, _)

/-- The first array: every row of the features times the first weight, plus the bias. -/
abbrev G4 (c : Dev nD) : Mat 50000 256 :=
  addRow (mm (V c (Pipeline.arrRef spec4 0)) (V c (Pipeline.arrRef spec4 1))) (V c (Pipeline.arrRef spec4 2))

set_option maxHeartbeats 2000000 in
/-- WHAT POINT `t` WRITES BACK through window 4 is block `t` of `G4`: rows `2000 · t … 2000 · t + 1999`. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz2]
  simp only [View.ld_unit_zero (S := S2000x256) hz2, View.ld_unit_zero (S := S256x256) hz2, View.ld_unit_zero (S := S256) hz1]
  obtain ⟨e00, e01, e10, e11, e20, e30, e31, e40, e41, e50, e51⟩ := idx_facts t
  funext y
  obtain ⟨r, j, rfl⟩ : ∃ (r : Fin 2000) (j : Fin 256), y = ix2 r j := ⟨y 0, y 1, eq_ix2 y⟩
  refine (pay4 _ _ _ r j).trans ?_
  have h0 : ∀ q : Fin 256, ((cfg4.win 0).blk t).view.emb (ix2 r q) = ix2 (row t r) q := fun q => by
    funext a; apply Fin.ext
    match a with
    | ⟨0, _⟩ => show win4_0.index t (0 : Fin 2) * 2000 + 1 * r.val = 2000 * t.val + r.val; omega
    | ⟨1, _⟩ => show win4_0.index t (1 : Fin 2) * 256 + 1 * q.val = q.val; omega
  have x0 : ∀ q : Fin 256, iblk4 V c 0 t (ix2 r q) = (V c (Pipeline.arrRef spec4 0) : Mat 50000 256) (ix2 (row t r) q) :=
    fun q => congrArg (V c (Pipeline.arrRef spec4 0)) (h0 q)
  have h1 : ∀ (p : Fin 256) (q : Fin 256), ((cfg4.win 1).blk t).view.emb (ix2 p q) = ix2 p q := fun p q => by
    funext a; apply Fin.ext
    match a with
    | ⟨0, _⟩ => show win4_1.index t (0 : Fin 2) * 256 + 1 * p.val = p.val; omega
    | ⟨1, _⟩ => show win4_1.index t (1 : Fin 2) * 256 + 1 * q.val = q.val; omega
  have x1 : ∀ (p : Fin 256) (q : Fin 256), iblk4 V c 1 t (ix2 p q) = (V c (Pipeline.arrRef spec4 1) : Mat 256 256) (ix2 p q) :=
    fun p q => congrArg (V c (Pipeline.arrRef spec4 1)) (h1 p q)
  have h2 : ∀ q : Fin 256, ((cfg4.win 2).blk t).view.emb (ix1 q) = ix1 q := fun q => by
    funext a; apply Fin.ext
    match a with
    | ⟨0, _⟩ => show win4_2.index t (0 : Fin 1) * 256 + 1 * q.val = q.val; omega
  have x2 : ∀ q : Fin 256, iblk4 V c 2 t (ix1 q) = (V c (Pipeline.arrRef spec4 2) : Row 256) (ix1 q) :=
    fun q => congrArg (V c (Pipeline.arrRef spec4 2)) (h2 q)
  have ho : ((cfg4.win 4).blk t).view.emb (ix2 r j) = ix2 (row t r) j := by
    funext a; apply Fin.ext
    match a with
    | ⟨0, _⟩ => show win4_4.index t (0 : Fin 2) * 2000 + 1 * r.val = 2000 * t.val + r.val; omega
    | ⟨1, _⟩ => show win4_4.index t (1 : Fin 2) * 256 + 1 * j.val = j.val; omega
  simp only [x0, x1, x2]
  show _ = G4 V c (((cfg4.win 4).blk t).view.emb (ix2 r j))
  rw [ho]
  rfl

/-- An index of the array is in point `t`'s block of window 4 iff each coordinate is in the block's range. -/
theorem mem_blk4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v44_0).slice (win4_4.rect t)).set ↔ _
  rw [View.set_slice_whole, Rect.mem_set_unit]
  exact Iff.rfl

/-- Every row lies in the block of the point `row / 2000`. -/
theorem cover4 (i : S50000x256.Idx) : ∃ t : Fin cfg4.N, (cfg4.win 4).flush t = true ∧ i ∈ ((cfg4.win 4).blk t).view.set := by
  have hi0 : (i 0).val < 50000 := (i 0).isLt
  have hi1 : (i 1).val < 256 := (i 1).isLt
  let t : Fin cfg4.N := ⟨(i 0).val / 2000, by rw [npts]; omega⟩
  obtain ⟨e00, e01, e10, e11, e20, e30, e31, e40, e41, e50, e51⟩ := idx_facts t
  have ht : t.val = (i 0).val / 2000 := rfl
  refine ⟨t, flush4_4 t, ?_⟩
  rw [mem_blk4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 256 ≤ (i 1).val ∧ (i 1).val < win4_4.index t (1 : Fin 2) * 256 + 256; omega

/-- THE ARRAY of window 4 after the region. -/
theorem final4 (c : Dev nD) : (dat4 V c).arrAt 4 cfg4.N = G4 V c :=
  (dat4 V c).arrAt_eq_of_cover 4 (G4 V c) (fun t _ => flushed4_eq V c t) cover4

/-- The second array: every row of the features times the second weight. -/
abbrev G5 (c : Dev nD) : Mat 50000 256 :=
  mm (V c (Pipeline.arrRef spec4 0)) (V c (Pipeline.arrRef spec4 3))

set_option maxHeartbeats 2000000 in
/-- WHAT POINT `t` WRITES BACK through window 5 is block `t` of `G5`: rows `2000 · t … 2000 · t + 1999`. -/
theorem flushed5_eq (c : Dev nD) (t : Fin cfg4.N) :
    (dat4 V c).flushed 5 t = ((cfg4.win 5).blk t).view.read (Elt Ideal) (G5 V c) := by
  show (cfg4.win 5).cut (grid4.coords t) ((dat4 V c).after 5 t) = _
  rw [after4_5]
  unfold out4_5
  rw [View.canon_unit_zero hz2]
  simp only [View.ld_unit_zero (S := S2000x256) hz2, View.ld_unit_zero (S := S256x256) hz2, View.ld_unit_zero (S := S256) hz1]
  obtain ⟨e00, e01, e10, e11, e20, e30, e31, e40, e41, e50, e51⟩ := idx_facts t
  funext y
  obtain ⟨r, j, rfl⟩ : ∃ (r : Fin 2000) (j : Fin 256), y = ix2 r j := ⟨y 0, y 1, eq_ix2 y⟩
  refine (pay5 _ _ r j).trans ?_
  have h0 : ∀ q : Fin 256, ((cfg4.win 0).blk t).view.emb (ix2 r q) = ix2 (row t r) q := fun q => by
    funext a; apply Fin.ext
    match a with
    | ⟨0, _⟩ => show win4_0.index t (0 : Fin 2) * 2000 + 1 * r.val = 2000 * t.val + r.val; omega
    | ⟨1, _⟩ => show win4_0.index t (1 : Fin 2) * 256 + 1 * q.val = q.val; omega
  have x0 : ∀ q : Fin 256, iblk4 V c 0 t (ix2 r q) = (V c (Pipeline.arrRef spec4 0) : Mat 50000 256) (ix2 (row t r) q) :=
    fun q => congrArg (V c (Pipeline.arrRef spec4 0)) (h0 q)
  have h3 : ∀ (p : Fin 256) (q : Fin 256), ((cfg4.win 3).blk t).view.emb (ix2 p q) = ix2 p q := fun p q => by
    funext a; apply Fin.ext
    match a with
    | ⟨0, _⟩ => show win4_3.index t (0 : Fin 2) * 256 + 1 * p.val = p.val; omega
    | ⟨1, _⟩ => show win4_3.index t (1 : Fin 2) * 256 + 1 * q.val = q.val; omega
  have x3 : ∀ (p : Fin 256) (q : Fin 256), iblk4 V c 3 t (ix2 p q) = (V c (Pipeline.arrRef spec4 3) : Mat 256 256) (ix2 p q) :=
    fun p q => congrArg (V c (Pipeline.arrRef spec4 3)) (h3 p q)
  have ho : ((cfg4.win 5).blk t).view.emb (ix2 r j) = ix2 (row t r) j := by
    funext a; apply Fin.ext
    match a with
    | ⟨0, _⟩ => show win4_5.index t (0 : Fin 2) * 2000 + 1 * r.val = 2000 * t.val + r.val; omega
    | ⟨1, _⟩ => show win4_5.index t (1 : Fin 2) * 256 + 1 * j.val = j.val; omega
  simp only [x0, x3]
  show _ = G5 V c (((cfg4.win 5).blk t).view.emb (ix2 r j))
  rw [ho]
  rfl

/-- An index of the array is in point `t`'s block of window 5 iff each coordinate is in the block's range. -/
theorem mem_blk5 (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v44_1).slice (win4_5.rect t)).set ↔ _
  rw [View.set_slice_whole, Rect.mem_set_unit]
  exact Iff.rfl

/-- Every row lies in the block of the point `row / 2000`. -/
theorem cover5 (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  let t : Fin cfg4.N := ⟨(i 0).val / 2000, by rw [npts]; omega⟩
  obtain ⟨e00, e01, e10, e11, e20, e30, e31, e40, e41, e50, e51⟩ := idx_facts t
  have ht : t.val = (i 0).val / 2000 := rfl
  refine ⟨t, flush4_5 t, ?_⟩
  rw [mem_blk5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- THE ARRAY of window 5 after the region. -/
theorem final5 (c : Dev nD) : (dat4 V c).arrAt 5 cfg4.N = G5 V c :=
  (dat4 V c).arrAt_eq_of_cover 5 (G5 V c) (fun t _ => flushed5_eq V c t) cover5

end Cert.KernelIdeal.Reg4

end
-- ==== Proof.Reg5.lean ====
/-
  Region 5: the hyperedge sums times the lower half of the message weight, plus the message bias.

  The grid has 40 points; point `t` reads rows `2000·t … 2000·t + 1999` of the hyperedge sums and the whole weight and bias,
  and writes the same rows of the output. The body's arithmetic at `(r, j)` is the row's product with column `j` plus the
  bias at `j`, so every block is the restriction of ONE function of the region's entry arrays, and the 40 blocks tile the array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg5

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 40 points. -/
theorem npts : cfg5.N = 40 := by decide

/-- Row `r` of block `t` is row `2000 · t + r` of the array. -/
def row (t : Fin cfg5.N) (r : Fin 2000) : Fin 80000 :=
  ⟨2000 * t.val + r.val, by have h : t.val < cfg5.N := t.isLt; have hN : cfg5.N = 40 := npts; have := r.isLt; omega⟩

/-- The body's arithmetic at `(r, j)`: row `r` of the block times column `j` of the weight, plus the bias at `j` (the changes of float format are the identity on the extended reals). -/
theorem pay3 (x0 : Vec Ideal S2000x256 .f32) (x1 : Vec Ideal S256x256 .bf16) (x2 : Vec Ideal S256 .f32)
    (r : Fin 2000) (j : Fin 256) :
    k5_pay1 x0 x1 x2 (ix2 r j) = (∑ q : Fin 256, x0 (ix2 r q) * x1 (ix2 q j)) + x2 (ix1 j) := by
  unfold k5_pay1
  simp only [shapeCast_self]
  rw [truncf_apply, addf_apply, matmul_256_256, bias_256]
  rfl

/-- The printed index maps over the grid: the row blocks move with the point, the weights and the biases stay. -/
theorem idx_facts : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) = t.val
    ∧ win5_3.index t (1 : Fin 2) = 0 :=
  (by decide +kernel : ∀ t : Fin grid5.N, _)

/-- What the array ends holding: every row of the operand times the weight, plus the bias. -/
abbrev G3 (c : Dev nD) : Mat 80000 256 :=
  addRow (mm (V c (Pipeline.arrRef spec5 0)) (V c (Pipeline.arrRef spec5 1))) (V c (Pipeline.arrRef spec5 2))

set_option maxHeartbeats 2000000 in
/-- WHAT POINT `t` WRITES BACK through window 3 is block `t` of `G3`: rows `2000 · t … 2000 · t + 1999`. -/
theorem flushed3_eq (c : Dev nD) (t : Fin cfg5.N) :
    (dat5 V c).flushed 3 t = ((cfg5.win 3).blk t).view.read (Elt Ideal) (G3 V c) := by
  show (cfg5.win 3).cut (grid5.coords t) ((dat5 V c).after 3 t) = _
  rw [after5_3]
  unfold out5_3
  rw [View.canon_unit_zero hz2]
  simp only [View.ld_unit_zero (S := S2000x256) hz2, View.ld_unit_zero (S := S256x256) hz2, View.ld_unit_zero (S := S256) hz1]
  obtain ⟨e00, e01, e10, e11, e20, e30, e31⟩ := idx_facts t
  funext y
  obtain ⟨r, j, rfl⟩ : ∃ (r : Fin 2000) (j : Fin 256), y = ix2 r j := ⟨y 0, y 1, eq_ix2 y⟩
  refine (pay3 _ _ _ r j).trans ?_
  have h0 : ∀ q : Fin 256, ((cfg5.win 0).blk t).view.emb (ix2 r q) = ix2 (row t r) q := fun q => by
    funext a; apply Fin.ext
    match a with
    | ⟨0, _⟩ => show win5_0.index t (0 : Fin 2) * 2000 + 1 * r.val = 2000 * t.val + r.val; omega
    | ⟨1, _⟩ => show win5_0.index t (1 : Fin 2) * 256 + 1 * q.val = q.val; omega
  have x0 : ∀ q : Fin 256, iblk5 V c 0 t (ix2 r q) = (V c (Pipeline.arrRef spec5 0) : Mat 80000 256) (ix2 (row t r) q) :=
    fun q => congrArg (V c (Pipeline.arrRef spec5 0)) (h0 q)
  have h1 : ∀ (p : Fin 256) (q : Fin 256), ((cfg5.win 1).blk t).view.emb (ix2 p q) = ix2 p q := fun p q => by
    funext a; apply Fin.ext
    match a with
    | ⟨0, _⟩ => show win5_1.index t (0 : Fin 2) * 256 + 1 * p.val = p.val; omega
    | ⟨1, _⟩ => show win5_1.index t (1 : Fin 2) * 256 + 1 * q.val = q.val; omega
  have x1 : ∀ (p : Fin 256) (q : Fin 256), iblk5 V c 1 t (ix2 p q) = (V c (Pipeline.arrRef spec5 1) : Mat 256 256) (ix2 p q) :=
    fun p q => congrArg (V c (Pipeline.arrRef spec5 1)) (h1 p q)
  have h2 : ∀ q : Fin 256, ((cfg5.win 2).blk t).view.emb (ix1 q) = ix1 q := fun q => by
    funext a; apply Fin.ext
    match a with
    | ⟨0, _⟩ => show win5_2.index t (0 : Fin 1) * 256 + 1 * q.val = q.val; omega
  have x2 : ∀ q : Fin 256, iblk5 V c 2 t (ix1 q) = (V c (Pipeline.arrRef spec5 2) : Row 256) (ix1 q) :=
    fun q => congrArg (V c (Pipeline.arrRef spec5 2)) (h2 q)
  have ho : ((cfg5.win 3).blk t).view.emb (ix2 r j) = ix2 (row t r) j := by
    funext a; apply Fin.ext
    match a with
    | ⟨0, _⟩ => show win5_3.index t (0 : Fin 2) * 2000 + 1 * r.val = 2000 * t.val + r.val; omega
    | ⟨1, _⟩ => show win5_3.index t (1 : Fin 2) * 256 + 1 * j.val = j.val; omega
  simp only [x0, x1, x2]
  show _ = G3 V c (((cfg5.win 3).blk t).view.emb (ix2 r j))
  rw [ho]
  rfl

/-- An index of the array is in point `t`'s block of window 3 iff each coordinate is in the block's range. -/
theorem mem_blk3 (t : Fin cfg5.N) (i : S80000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v56).slice (win5_3.rect t)).set ↔ _
  rw [View.set_slice_whole, Rect.mem_set_unit]
  exact Iff.rfl

/-- Every row lies in the block of the point `row / 2000`. -/
theorem cover3 (i : S80000x256.Idx) : ∃ t : Fin cfg5.N, (cfg5.win 3).flush t = true ∧ i ∈ ((cfg5.win 3).blk t).view.set := by
  have hi0 : (i 0).val < 80000 := (i 0).isLt
  have hi1 : (i 1).val < 256 := (i 1).isLt
  let t : Fin cfg5.N := ⟨(i 0).val / 2000, by rw [npts]; omega⟩
  obtain ⟨e00, e01, e10, e11, e20, e30, e31⟩ := idx_facts t
  have ht : t.val = (i 0).val / 2000 := rfl
  refine ⟨t, flush5_3 t, ?_⟩
  rw [mem_blk3]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

/-- THE ARRAY of window 3 after the region. -/
theorem final3 (c : Dev nD) : (dat5 V c).arrAt 3 cfg5.N = G3 V c :=
  (dat5 V c).arrAt_eq_of_cover 3 (G3 V c) (fun t _ => flushed3_eq V c t) cover3

end Cert.KernelIdeal.Reg5

end
-- ==== Proof.Reg6.lean ====
/-
  Region 6: the end of a layer, `relu ((½ · xv + ½ · x0) · W3 + b3)`.

  The grid has 25 points; point `t` reads rows `2000·t … 2000·t + 1999` of the vertex sums and of the first features and the
  whole weight and bias, and writes the same rows of the output. Each block is the restriction of one function of the region's
  entry arrays, and the 25 blocks tile the array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg6

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 25 points. -/
theorem npts : cfg6.N = 25 := by decide

/-- Row `r` of block `t` is row `2000 · t + r` of the array. -/
def row (t : Fin cfg6.N) (r : Fin 2000) : Fin 50000 :=
  ⟨2000 * t.val + r.val, by have h : t.val < cfg6.N := t.isLt; have hN : cfg6.N = 25 := npts; have := r.isLt; omega⟩

/-- The body's arithmetic at `(r, j)`: the positive part of the mixed row `½ · xv r + ½ · x0 r` times column `j` of the weight plus the bias at `j`. -/
theorem pay4 (x0 : Vec Ideal S2000x256 .f32) (x1 : Vec Ideal S2000x256 .f32) (x2 : Vec Ideal S256x256 .bf16) (x3 : Vec Ideal S256 .f32)
    (r : Fin 2000) (j : Fin 256) :
    k6_pay1 x0 x1 x2 x3 (ix2 r j) = max ((∑ q : Fin 256, (halfW * x0 (ix2 r q) + halfW * x1 (ix2 r q)) * x2 (ix2 q j)) + x3 (ix1 j)) zeroW := by
  unfold k6_pay1
  simp only [shapeCast_self]
  rw [maximumf_apply, addf_apply, broadcast_apply, matmul_256_256, bias_256]
  rfl

/-- The printed index maps over the grid: the row blocks move with the point, the weights and the biases stay. -/
theorem idx_facts : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 1) = 0
    ∧ win6_4.index t (0 : Fin 2) = t.val
    ∧ win6_4.index t (1 : Fin 2) = 0 :=
  (by decide +kernel : ∀ t : Fin grid6.N, _)

/-- What the array ends holding: the positive part of the mixed rows times the weight plus the bias. -/
abbrev G4 (c : Dev nD) : Mat 50000 256 :=
  relu (addRow (mm (mix (V c (Pipeline.arrRef spec6 0)) (V c (Pipeline.arrRef spec6 1))) (V c (Pipeline.arrRef spec6 2))) (V c (Pipeline.arrRef spec6 3)))

set_option maxHeartbeats 2000000 in
/-- WHAT POINT `t` WRITES BACK through window 4 is block `t` of `G4`: rows `2000 · t … 2000 · t + 1999`. -/
theorem flushed4_eq (c : Dev nD) (t : Fin cfg6.N) :
    (dat6 V c).flushed 4 t = ((cfg6.win 4).blk t).view.read (Elt Ideal) (G4 V c) := by
  show (cfg6.win 4).cut (grid6.coords t) ((dat6 V c).after 4 t) = _
  rw [after6_4]
  unfold out6_4
  rw [View.canon_unit_zero hz2]
  simp only [View.ld_unit_zero (S := S2000x256) hz2, View.ld_unit_zero (S := S256x256) hz2, View.ld_unit_zero (S := S256) hz1]
  obtain ⟨e00, e01, e10, e11, e20, e21, e30, e40, e41⟩ := idx_facts t
  funext y
  obtain ⟨r, j, rfl⟩ : ∃ (r : Fin 2000) (j : Fin 256), y = ix2 r j := ⟨y 0, y 1, eq_ix2 y⟩
  refine (pay4 _ _ _ _ r j).trans ?_
  have h0 : ∀ q : Fin 256, ((cfg6.win 0).blk t).view.emb (ix2 r q) = ix2 (row t r) q := fun q => by
    funext a; apply Fin.ext
    match a with
    | ⟨0, _⟩ => show win6_0.index t (0 : Fin 2) * 2000 + 1 * r.val = 2000 * t.val + r.val; omega
    | ⟨1, _⟩ => show win6_0.index t (1 : Fin 2) * 256 + 1 * q.val = q.val; omega
  have x0 : ∀ q : Fin 256, iblk6 V c 0 t (ix2 r q) = (V c (Pipeline.arrRef spec6 0) : Mat 50000 256) (ix2 (row t r) q) :=
    fun q => congrArg (V c (Pipeline.arrRef spec6 0)) (h0 q)
  have h1 : ∀ q : Fin 256, ((cfg6.win 1).blk t).view.emb (ix2 r q) = ix2 (row t r) q := fun q => by
    funext a; apply Fin.ext
    match a with
    | ⟨0, _⟩ => show win6_1.index t (0 : Fin 2) * 2000 + 1 * r.val = 2000 * t.val + r.val; omega
    | ⟨1, _⟩ => show win6_1.index t (1 : Fin 2) * 256 + 1 * q.val = q.val; omega
  have x1 : ∀ q : Fin 256, iblk6 V c 1 t (ix2 r q) = (V c (Pipeline.arrRef spec6 1) : Mat 50000 256) (ix2 (row t r) q) :=
    fun q => congrArg (V c (Pipeline.arrRef spec6 1)) (h1 q)
  have h2 : ∀ (p : Fin 256) (q : Fin 256), ((cfg6.win 2).blk t).view.emb (ix2 p q) = ix2 p q := fun p q => by
    funext a; apply Fin.ext
    match a with
    | ⟨0, _⟩ => show win6_2.index t (0 : Fin 2) * 256 + 1 * p.val = p.val; omega
    | ⟨1, _⟩ => show win6_2.index t (1 : Fin 2) * 256 + 1 * q.val = q.val; omega
  have x2 : ∀ (p : Fin 256) (q : Fin 256), iblk6 V c 2 t (ix2 p q) = (V c (Pipeline.arrRef spec6 2) : Mat 256 256) (ix2 p q) :=
    fun p q => congrArg (V c (Pipeline.arrRef spec6 2)) (h2 p q)
  have h3 : ∀ q : Fin 256, ((cfg6.win 3).blk t).view.emb (ix1 q) = ix1 q := fun q => by
    funext a; apply Fin.ext
    match a with
    | ⟨0, _⟩ => show win6_3.index t (0 : Fin 1) * 256 + 1 * q.val = q.val; omega
  have x3 : ∀ q : Fin 256, iblk6 V c 3 t (ix1 q) = (V c (Pipeline.arrRef spec6 3) : Row 256) (ix1 q) :=
    fun q => congrArg (V c (Pipeline.arrRef spec6 3)) (h3 q)
  have ho : ((cfg6.win 4).blk t).view.emb (ix2 r j) = ix2 (row t r) j := by
    funext a; apply Fin.ext
    match a with
    | ⟨0, _⟩ => show win6_4.index t (0 : Fin 2) * 2000 + 1 * r.val = 2000 * t.val + r.val; omega
    | ⟨1, _⟩ => show win6_4.index t (1 : Fin 2) * 256 + 1 * j.val = j.val; omega
  simp only [x0, x1, x2, x3]
  show _ = G4 V c (((cfg6.win 4).blk t).view.emb (ix2 r j))
  rw [ho]
  rfl

/-- An index of the array is in point `t`'s block of window 4 iff each coordinate is in the block's range. -/
theorem mem_blk4 (t : Fin cfg6.N) (i : S50000x256.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole main_v77).slice (win6_4.rect t)).set ↔ _
  rw [View.set_slice_whole, Rect.mem_set_unit]
  exact Iff.rfl

/-- Every row lies in the block of the point `row / 2000`. -/
theorem cover4 (i : S50000x256.Idx) : ∃ t : Fin cfg6.N, (cfg6.win 4).flush t = true ∧ i ∈ ((cfg6.win 4).blk t).view.set := by
  have hi0 : (i 0).val < 50000 := (i 0).isLt
  have hi1 : (i 1).val < 256 := (i 1).isLt
  let t : Fin cfg6.N := ⟨(i 0).val / 2000, by rw [npts]; omega⟩
  obtain ⟨e00, e01, e10, e11, e20, e21, e30, e40, e41⟩ := idx_facts t
  have ht : t.val = (i 0).val / 2000 := rfl
  refine ⟨t, flush6_4 t, ?_⟩
  rw [mem_blk4]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 256 ≤ (i 1).val ∧ (i 1).val < win6_4.index t (1 : Fin 2) * 256 + 256; omega

/-- THE ARRAY of window 4 after the region. -/
theorem final4 (c : Dev nD) : (dat6 V c).arrAt 4 cfg6.N = G4 V c :=
  (dat6 V c).arrAt_eq_of_cover 4 (G4 V c) (fun t _ => flushed4_eq V c t) cover4

end Cert.KernelIdeal.Reg6

end
-- ==== Proof.Reg7.lean ====
/-
  Region 7: the classifier, `relu (x · C1 + d1) · C2 + d2`, the hidden layer never leaving the block.

  The grid has 25 points; point `t` reads rows `2000·t … 2000·t + 1999` of the features and the two whole weights and biases,
  and writes the same rows of the 40-column output. Each block is the restriction of one function of the region's entry arrays,
  and the 25 blocks tile the array.
-/
import proofs.«173693_j49658411876807_2_alg».proof.Proof.Gen.KernelIdeal.Frame
import proofs.«173693_j49658411876807_2_alg».proof.Proof.KerBody
import proofs.«173693_j49658411876807_2_alg».proof.Proof.Spec
import Idealize.ShloMosaic.Lib.Pipeline.Value

set_option maxRecDepth 16384

noncomputable section

open scoped BigOperators

namespace Cert.KernelIdeal.Reg7

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 25 points. -/
theorem npts : cfg7.N = 25 := by decide

/-- Row `r` of block `t` is row `2000 · t + r` of the array. -/
def row (t : Fin cfg7.N) (r : Fin 2000) : Fin 50000 :=
  ⟨2000 * t.val + r.val, by have h : t.val < cfg7.N := t.isLt; have hN : cfg7.N = 25 := npts; have := r.isLt; omega⟩

/-- The body's arithmetic at `(r, j)`: the hidden row `relu (x r · C1 + d1)` times column `j` of the second weight, plus the second bias at `j`. -/
theorem pay5 (x0 : Vec Ideal S2000x256 .f32) (x1 : Vec Ideal S256x256 .bf16) (x2 : Vec Ideal S256 .f32) (x3 : Vec Ideal S256x40 .bf16) (x4 : Vec Ideal S40 .f32)
    (r : Fin 2000) (j : Fin 40) :
    k7_pay1 x0 x1 x2 x3 x4 (ix2 r j) = (∑ p : Fin 256, max ((∑ q : Fin 256, x0 (ix2 r q) * x1 (ix2 q p)) + x2 (ix1 p)) zeroW * x3 (ix2 p j)) + x4 (ix1 j) := by
  unfold k7_pay1
  simp only [shapeCast_self]
  rw [addf_apply, matmul_256_40, bias_40]
  refine congrArg (· + x4 (ix1 j)) (Finset.sum_congr rfl fun p _ => ?_)
  rw [truncf_apply, maximumf_apply, addf_apply, broadcast_apply, matmul_256_256, bias_256]
  rfl

/-- The printed index maps over the grid: the row blocks move with the point, the weights and the biases stay. -/
theorem idx_facts : ∀ t : Fin cfg7.N,
    win7_0.index t (0 : Fin 2) = t.val
    ∧ win7_0.index t (1 : Fin 2) = 0
    ∧ win7_1.index t (0 : Fin 2) = 0
    ∧ win7_1.index t (1 : Fin 2) = 0
    ∧ win7_2.index t (0 : Fin 1) = 0
    ∧ win7_3.index t (0 : Fin 2) = 0
    ∧ win7_3.index t (1 : Fin 2) = 0
    ∧ win7_4.index t (0 : Fin 1) = 0
    ∧ win7_5.index t (0 : Fin 2) = t.val
    ∧ win7_5.index t (1 : Fin 2) = 0 :=
  (by decide +kernel : ∀ t : Fin grid7.N, _)

/-- What the array ends holding: the hidden rows times the second weight plus the second bias. -/
abbrev G5 (c : Dev nD) : Mat 50000 40 :=
  addRow (mm (relu (addRow (mm (V c (Pipeline.arrRef spec7 0)) (V c (Pipeline.arrRef spec7 1))) (V c (Pipeline.arrRef spec7 2)))) (V c (Pipeline.arrRef spec7 3))) (V c (Pipeline.arrRef spec7 4))

set_option maxHeartbeats 2000000 in
/-- WHAT POINT `t` WRITES BACK through window 5 is block `t` of `G5`: rows `2000 · t … 2000 · t + 1999`. -/
theorem flushed5_eq (c : Dev nD) (t : Fin cfg7.N) :
    (dat7 V c).flushed 5 t = ((cfg7.win 5).blk t).view.read (Elt Ideal) (G5 V c) := by
  show (cfg7.win 5).cut (grid7.coords t) ((dat7 V c).after 5 t) = _
  rw [after7_5]
  unfold out7_5
  rw [View.canon_unit_zero hz2]
  simp only [View.ld_unit_zero (S := S2000x256) hz2, View.ld_unit_zero (S := S256x256) hz2, View.ld_unit_zero (S := S256) hz1, View.ld_unit_zero (S := S256x40) hz2, View.ld_unit_zero (S := S40) hz1]
  obtain ⟨e00, e01, e10, e11, e20, e30, e31, e40, e50, e51⟩ := idx_facts t
  funext y
  obtain ⟨r, j, rfl⟩ : ∃ (r : Fin 2000) (j : Fin 40), y = ix2 r j := ⟨y 0, y 1, eq_ix2 y⟩
  refine (pay5 _ _ _ _ _ r j).trans ?_
  have h0 : ∀ q : Fin 256, ((cfg7.win 0).blk t).view.emb (ix2 r q) = ix2 (row t r) q := fun q => by
    funext a; apply Fin.ext
    match a with
    | ⟨0, _⟩ => show win7_0.index t (0 : Fin 2) * 2000 + 1 * r.val = 2000 * t.val + r.val; omega
    | ⟨1, _⟩ => show win7_0.index t (1 : Fin 2) * 256 + 1 * q.val = q.val; omega
  have x0 : ∀ q : Fin 256, iblk7 V c 0 t (ix2 r q) = (V c (Pipeline.arrRef spec7 0) : Mat 50000 256) (ix2 (row t r) q) :=
    fun q => congrArg (V c (Pipeline.arrRef spec7 0)) (h0 q)
  have h1 : ∀ (p : Fin 256) (q : Fin 256), ((cfg7.win 1).blk t).view.emb (ix2 p q) = ix2 p q := fun p q => by
    funext a; apply Fin.ext
    match a with
    | ⟨0, _⟩ => show win7_1.index t (0 : Fin 2) * 256 + 1 * p.val = p.val; omega
    | ⟨1, _⟩ => show win7_1.index t (1 : Fin 2) * 256 + 1 * q.val = q.val; omega
  have x1 : ∀ (p : Fin 256) (q : Fin 256), iblk7 V c 1 t (ix2 p q) = (V c (Pipeline.arrRef spec7 1) : Mat 256 256) (ix2 p q) :=
    fun p q => congrArg (V c (Pipeline.arrRef spec7 1)) (h1 p q)
  have h2 : ∀ q : Fin 256, ((cfg7.win 2).blk t).view.emb (ix1 q) = ix1 q := fun q => by
    funext a; apply Fin.ext
    match a with
    | ⟨0, _⟩ => show win7_2.index t (0 : Fin 1) * 256 + 1 * q.val = q.val; omega
  have x2 : ∀ q : Fin 256, iblk7 V c 2 t (ix1 q) = (V c (Pipeline.arrRef spec7 2) : Row 256) (ix1 q) :=
    fun q => congrArg (V c (Pipeline.arrRef spec7 2)) (h2 q)
  have h3 : ∀ (p : Fin 256) (q : Fin 40), ((cfg7.win 3).blk t).view.emb (ix2 p q) = ix2 p q := fun p q => by
    funext a; apply Fin.ext
    match a with
    | ⟨0, _⟩ => show win7_3.index t (0 : Fin 2) * 256 + 1 * p.val = p.val; omega
    | ⟨1, _⟩ => show win7_3.index t (1 : Fin 2) * 40 + 1 * q.val = q.val; omega
  have x3 : ∀ (p : Fin 256) (q : Fin 40), iblk7 V c 3 t (ix2 p q) = (V c (Pipeline.arrRef spec7 3) : Mat 256 40) (ix2 p q) :=
    fun p q => congrArg (V c (Pipeline.arrRef spec7 3)) (h3 p q)
  have h4 : ∀ q : Fin 40, ((cfg7.win 4).blk t).view.emb (ix1 q) = ix1 q := fun q => by
    funext a; apply Fin.ext
    match a with
    | ⟨0, _⟩ => show win7_4.index t (0 : Fin 1) * 40 + 1 * q.val = q.val; omega
  have x4 : ∀ q : Fin 40, iblk7 V c 4 t (ix1 q) = (V c (Pipeline.arrRef spec7 4) : Row 40) (ix1 q) :=
    fun q => congrArg (V c (Pipeline.arrRef spec7 4)) (h4 q)
  have ho : ((cfg7.win 5).blk t).view.emb (ix2 r j) = ix2 (row t r) j := by
    funext a; apply Fin.ext
    match a with
    | ⟨0, _⟩ => show win7_5.index t (0 : Fin 2) * 2000 + 1 * r.val = 2000 * t.val + r.val; omega
    | ⟨1, _⟩ => show win7_5.index t (1 : Fin 2) * 40 + 1 * j.val = j.val; omega
  simp only [x0, x1, x2, x3, x4]
  show _ = G5 V c (((cfg7.win 5).blk t).view.emb (ix2 r j))
  rw [ho]
  rfl

/-- An index of the array is in point `t`'s block of window 5 iff each coordinate is in the block's range. -/
theorem mem_blk5 (t : Fin cfg7.N) (i : S50000x40.Idx) :
    i ∈ ((cfg7.win 5).blk t).view.set ↔ ∀ a : Fin 2, win7_5.index t a * S2000x40.size a ≤ (i a).val ∧ (i a).val < win7_5.index t a * S2000x40.size a + S2000x40.size a := by
  show i ∈ ((View.whole main_v78).slice (win7_5.rect t)).set ↔ _
  rw [View.set_slice_whole, Rect.mem_set_unit]
  exact Iff.rfl

/-- Every row lies in the block of the point `row / 2000`. -/
theorem cover5 (i : S50000x40.Idx) : ∃ t : Fin cfg7.N, (cfg7.win 5).flush t = true ∧ i ∈ ((cfg7.win 5).blk t).view.set := by
  have hi0 : (i 0).val < 50000 := (i 0).isLt
  have hi1 : (i 1).val < 40 := (i 1).isLt
  let t : Fin cfg7.N := ⟨(i 0).val / 2000, by rw [npts]; omega⟩
  obtain ⟨e00, e01, e10, e11, e20, e30, e31, e40, e50, e51⟩ := idx_facts t
  have ht : t.val = (i 0).val / 2000 := rfl
  refine ⟨t, flush7_5 t, ?_⟩
  rw [mem_blk5]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 40 ≤ (i 1).val ∧ (i 1).val < win7_5.index t (1 : Fin 2) * 40 + 40; omega

/-- THE ARRAY of window 5 after the region. -/
theorem final5 (c : Dev nD) : (dat7 V c).arrAt 5 cfg7.N = G5 V c :=
  (dat7 V c).arrAt_eq_of_cover 5 (G5 V c) (fun t _ => flushed5_eq V c t) cover5

end Cert.KernelIdeal.Reg7

end
-- ==== Proof.Net.lean ====
/-
  The network as a composition of the dense stages and the row movements, in the two arrangements compared.

  A layer moves rows four ways: `gV` copies, for every incidence, the row of its vertex; `gE` the row of its
  hyperedge; `sE` adds the incidence rows onto their hyperedges and `sV` onto their vertices. Only the two
  copies matter to the algebra, and only through one fact each: entry `(e, f)` of the copy is entry `(r e, f)`
  of the operand, for a row map `r` that does not depend on the operand. The two sums `sE`, `sV` stay opaque.

  * `layerCat` forms the incidence messages as the reference does: the vertex rows and the hyperedge rows side by
    side, one product with the whole 512-row weight, then the bias.
  * `layerSplit` forms them as the kernel does: the vertex features times the upper half of the weight, copied to
    the incidences, plus the hyperedge sums times the lower half with the bias, copied to the incidences.

  `layer_eq`: the two layers are one function. A row copy commutes with a product on the feature axis and with a
  bias, and the 512-term sum splits at 256 (`Spec.cat_split`).
-/
import proofs.«173693_j49658411876807_2_alg».proof.Proof.Spec

noncomputable section

open scoped BigOperators

namespace Cert.Spec

open Idealize.ShloMosaic Idealize.ShloMosaic.ValueIdx

/-- The four row movements of a layer; the two copies with their row maps. -/
structure Moves where
  gV : Mat 50000 256 → Mat 400000 256
  gE : Mat 80000 256 → Mat 400000 256
  sE : Mat 400000 256 → Mat 80000 256
  sV : Mat 400000 256 → Mat 50000 256
  rv : Fin 400000 → Fin 50000
  re : Fin 400000 → Fin 80000
  hgV : ∀ (x : Mat 50000 256) (e : Fin 400000) (f : Fin 256), gV x (ix2 e f) = x (ix2 (rv e) f)
  hgE : ∀ (x : Mat 80000 256) (e : Fin 400000) (f : Fin 256), gE x (ix2 e f) = x (ix2 (re e) f)

variable (M : Moves)
variable (w1 : Mat 256 256) (b1 : Row 256) (w2 : Mat 512 256) (b2 : Row 256) (w3 : Mat 256 256) (b3 : Row 256)

/-- One layer, the incidence messages formed from the concatenated rows (the reference's arrangement). -/
def layerCat (x0 x : Mat 50000 256) : Mat 50000 256 :=
  let xe := M.sE (M.gV (addRow (mm x w1) b1))
  let xev := addRow (mm (catCols (M.gV x) (M.gE xe)) w2) b2
  relu (addRow (mm (mix (M.sV xev) x0) w3) b3)

/-- One layer, the incidence messages formed from the two half products (the kernel's arrangement). -/
def layerSplit (x0 x : Mat 50000 256) : Mat 50000 256 :=
  let xe := M.sE (M.gV (addRow (mm x w1) b1))
  let xev := add (M.gV (mm x (topRows w2))) (M.gE (addRow (mm xe (botRows w2)) b2))
  relu (addRow (mm (mix (M.sV xev) x0) w3) b3)

variable (win : Mat 512 256) (bin : Row 256) (c1 : Mat 256 256) (d1 : Row 256) (c2 : Mat 256 40) (d2 : Row 40)

/-- The input projection, two layers and the two-layer classifier, with the reference's layers. -/
def netCat (x : Mat 50000 512) : Mat 50000 40 :=
  let x0 := relu (addRow (mm x win) bin)
  let x2 := layerCat M w1 b1 w2 b2 w3 b3 x0 (layerCat M w1 b1 w2 b2 w3 b3 x0 x0)
  addRow (mm (relu (addRow (mm x2 c1) d1)) c2) d2

/-- The same network with the kernel's layers. -/
def netSplit (x : Mat 50000 512) : Mat 50000 40 :=
  let x0 := relu (addRow (mm x win) bin)
  let x2 := layerSplit M w1 b1 w2 b2 w3 b3 x0 (layerSplit M w1 b1 w2 b2 w3 b3 x0 x0)
  addRow (mm (relu (addRow (mm x2 c1) d1)) c2) d2

end Cert.Spec

end
-- ==== Proof.NetLaw.lean ====
/-
  The two arrangements of the network are one function.

  The reference multiplies, for every incidence, the vertex row and the hyperedge row laid side by side with the
  whole 512-row weight; the kernel multiplies the vertex features with the upper 256 rows of the weight and the
  hyperedge sums with the lower 256 rows (adding the bias there), and only then copies rows to the incidences.
  Three facts make them equal, entry by entry, on the extended reals:
    * a sum over 512 columns splits at 256 (`cat_split`);
    * a row copy commutes with a product on the feature axis (`gV_mm`, `gE_mm`) and with a bias;
    * addition is associative.
  None of them cancels or distributes, so no finiteness of the inputs is used.
-/
import proofs.«173693_j49658411876807_2_alg».proof.Proof.Net

noncomputable section

open scoped BigOperators

namespace Cert.Spec

open Idealize.ShloMosaic Idealize.ShloMosaic.ValueIdx

/-- A product with two matrices side by side is the sum of the products with the two halves of the weight:
    the sum over 512 columns splits at 256. -/
theorem cat_split {m n : Nat} (a b : Mat m 256) (w : Mat 512 n) :
    mm (catCols a b) w = add (mm a (topRows w)) (mm b (botRows w)) := by
  funext i
  show (∑ q : Fin (256 + 256), catCols a b (ix2 (i 0) q) * w (ix2 q (i 1))) = _
  rw [Fin.sum_univ_add]
  refine congrArg₂ (· + ·) (Finset.sum_congr rfl fun q _ => ?_) (Finset.sum_congr rfl fun q _ => ?_)
  · have hq : ((ix2 (i 0) (Fin.castAdd 256 q) : (⟨2, ![m, 256 + 256]⟩ : Shape).Idx) 1).val < 256 := q.isLt
    unfold catCols topRows
    rw [dif_pos hq]
    rfl
  · have hq : ¬ ((ix2 (i 0) (Fin.natAdd 256 q) : (⟨2, ![m, 256 + 256]⟩ : Shape).Idx) 1).val < 256 := by
      show ¬ (256 + q.val < 256); omega
    unfold catCols botRows
    rw [dif_neg hq]
    refine congrArg₂ (· * ·) (congrArg b (funext fun d => ?_)) rfl
    match d with
    | ⟨0, _⟩ => rfl
    | ⟨1, _⟩ => exact Fin.ext (by show 256 + q.val - 256 = q.val; omega)

variable (M : Moves)

/-- A row copy commutes with a product on the feature axis: the rows copied, then multiplied, are the products'
    rows copied. -/
theorem gV_mm {n : Nat} (x : Mat 50000 256) (w : Mat 256 n) (e : Fin 400000) (f : Fin n) :
    mm (M.gV x) w (ix2 e f) = mm x w (ix2 (M.rv e) f) := by
  show (∑ q : Fin 256, M.gV x (ix2 e q) * w (ix2 q f)) = ∑ q : Fin 256, x (ix2 (M.rv e) q) * w (ix2 q f)
  exact Finset.sum_congr rfl fun q _ => by rw [M.hgV]

/-- The same for the copy of the hyperedge rows. -/
theorem gE_mm {n : Nat} (x : Mat 80000 256) (w : Mat 256 n) (e : Fin 400000) (f : Fin n) :
    mm (M.gE x) w (ix2 e f) = mm x w (ix2 (M.re e) f) := by
  show (∑ q : Fin 256, M.gE x (ix2 e q) * w (ix2 q f)) = ∑ q : Fin 256, x (ix2 (M.re e) q) * w (ix2 q f)
  exact Finset.sum_congr rfl fun q _ => by rw [M.hgE]

/-- THE INCIDENCE MESSAGES, the two ways: the vertex features times the upper half of the weight, copied to the
    incidences, plus the hyperedge sums times the lower half with the bias, copied to the incidences, is the
    concatenated incidence rows times the whole weight, plus the bias. Entry `(e, f)` of either is
    `∑ q, x (rv e, q) · w (q, f) + (∑ q, xe (re e, q) · w (256 + q, f) + b f)` up to the grouping of the sum. -/
theorem msgs_eq (w2 : Mat 512 256) (b2 : Row 256) (x : Mat 50000 256) (xe : Mat 80000 256) :
    add (M.gV (mm x (topRows w2))) (M.gE (addRow (mm xe (botRows w2)) b2))
      = addRow (mm (catCols (M.gV x) (M.gE xe)) w2) b2 := by
  funext i
  obtain ⟨e, f, rfl⟩ : ∃ (e : Fin 400000) (f : Fin 256), i = ix2 e f := ⟨i 0, i 1, eq_ix2 i⟩
  rw [cat_split]
  show M.gV (mm x (topRows w2)) (ix2 e f) + M.gE (addRow (mm xe (botRows w2)) b2) (ix2 e f)
    = (mm (M.gV x) (topRows w2) (ix2 e f) + mm (M.gE xe) (botRows w2) (ix2 e f)) + b2 (ix1 f)
  rw [M.hgV, M.hgE, gV_mm, gE_mm]
  show mm x (topRows w2) (ix2 (M.rv e) f) + (mm xe (botRows w2) (ix2 (M.re e) f) + b2 (ix1 f)) = _
  rw [add_assoc]

variable (w1 : Mat 256 256) (b1 : Row 256) (w2 : Mat 512 256) (b2 : Row 256) (w3 : Mat 256 256) (b3 : Row 256)

/-- The two arrangements of a layer are one function. -/
theorem layer_eq (x0 x : Mat 50000 256) :
    layerSplit M w1 b1 w2 b2 w3 b3 x0 x = layerCat M w1 b1 w2 b2 w3 b3 x0 x := by
  unfold layerSplit layerCat
  simp only [msgs_eq]

variable (win : Mat 512 256) (bin : Row 256) (c1 : Mat 256 256) (d1 : Row 256) (c2 : Mat 256 40) (d2 : Row 40)

/-- The two arrangements of the network are one function. -/
theorem net_eq (x : Mat 50000 512) :
    netSplit M w1 b1 w2 b2 w3 b3 win bin c1 d1 c2 d2 x = netCat M w1 b1 w2 b2 w3 b3 win bin c1 d1 c2 d2 x := by
  unfold netSplit netCat
  simp only [layer_eq]

/-- The network depends on the row movements only through the four functions: two families of movements with the
    same copies and the same sums give the same network. -/
theorem netCat_congr (M' : Moves) (hgV : M.gV = M'.gV) (hgE : M.gE = M'.gE) (hsE : M.sE = M'.sE) (hsV : M.sV = M'.sV)
    (x : Mat 50000 512) :
    netCat M w1 b1 w2 b2 w3 b3 win bin c1 d1 c2 d2 x = netCat M' w1 b1 w2 b2 w3 b3 win bin c1 d1 c2 d2 x := by
  unfold netCat layerCat
  rw [hgV, hgE, hsE, hsV]

end Cert.Spec

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibGatherRows.lean ====
/-
  A row gather, read at an index.

  `x[idx]` for an operand `x : [N, F]` and a column of start indices `idx : [E, 1]` copies whole rows: row `e` of
  the `[E, F]` result is the operand's row named by start index `e`, the index word read signed and clamped into
  `[0, N − 1]`; the column `f` passes through untouched. The host operation reads the operand at the operand index
  the dimension numbers compute from the result index; for the whole-row dimension numbers that operand index is
  `(clampRow idx e, f)`, so the operation at `(e, f)` is `x (clampRow idx e, f)`, for every element type.
-/
import Idealize.ShloMosaic.PureOps.Ideal
import Idealize.ShloMosaic.Lib.ValueIdx
import proofs.«173693_j49658411876807_2_alg».proof.Proof.LibRowOps

noncomputable section

namespace Cert.Lib.RowOps

open Idealize.ShloMosaic Idealize.ShloMosaic.ValueIdx

/-- A host gather whose dimension numbers are the whole-row ones, read at `(e, f)`: the operand at row
    `clampRow idx e` (start index `e` read signed, clamped into `[0, N − 1]`) and the same column `f`. The
    dimension numbers are taken as any record `d` equal to `rowGather N E F wf`, so that a printed record is
    matched by `rfl`. -/
theorem hostGather_rows {N E F w : Nat} {α : Type} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F])
    (hd : d = rowGather N E F wf)
    (x : (⟨2, ![N, F]⟩ : Shape).Idx → α) (idx : IVec ⟨2, ![E, 1]⟩ w) (e : Fin E) (f : Fin F) :
    Host.gather d x idx (ix2 e f) = x (ix2 (clampRow hN idx e) f) := by
  subst hd
  -- the host operation is the operand read at the operand index of the result index
  show x ((rowGather N E F wf).operandIdx (ix2 e f) idx) = x (ix2 (clampRow hN idx e) f)
  rw [rowGather_operandIdx hN wf idx e f]

end Cert.Lib.RowOps

end
-- ==== Proof.KernelNet.lean ====
/-
  The arithmetic of the kernel program is the network with the split message weight.

  Between the row movements the kernel program multiplies and adds exactly as `Spec.layerSplit` does, except for
  three kinds of bookkeeping that change nothing on the extended reals:

  * every weight matrix is narrowed to sixteen bits before it is used, and the rows copied out to the incidences are
    widened back to thirty-two bits before they are added up. On the extended reals a value has no width: narrowing
    and widening are the identity map, entry by entry;
  * the message weight of a layer, 512 rows by 256 columns, is cut by two slices: the one starting at row 0 is its
    upper 256 rows (the rows that meet the vertex features), the one starting at row 256 its lower 256 rows (the rows
    that meet the hyperedge sums). Entry `(r, c)` of a slice starting at row `o` is entry `(o + r, c)` of the weight;
  * the sum of the two incidence parts is the entrywise sum `Spec.add`.

  The arrays of one layer, with `x` the vertex features entering it and `x₀` the input projection:
    h1 = x · W₁ + b₁                      the vertex messages,
    p  = x · (upper rows of W₂)           the vertex part of the incidence messages, still per vertex,
    xe = S_E (G_V h1)                     the vertex messages copied to the incidences and added up per hyperedge,
    q  = xe · (lower rows of W₂) + b₂     the hyperedge part of the incidence messages, still per hyperedge,
    xv = S_V (G_V p + G_E q)              both parts copied to the incidences, added, and added up per vertex,
    relu ((½ · xv + ½ · x₀) · W₃ + b₃)    the layer's output.

  `kerLayer_eq`, `kerNet_eq`: these are `Spec.layerSplit` and `Spec.netSplit` with the row movements `movesK` of the
  kernel program.
-/
import proofs.«173693_j49658411876807_2_alg».proof.Proof.Trace1
import proofs.«173693_j49658411876807_2_alg».proof.Proof.NetLaw
import proofs.«173693_j49658411876807_2_alg».proof.Proof.LibGatherRows
import Idealize.ShloMosaic.Lib.ValueLayout
import Idealize.ShloMosaic.Lib.ValueIdx
import Idealize.ShloMosaic.PureOps.Ideal

noncomputable section

namespace Cert.KernelNet

open Cert.KernelIdeal Cert.KernelIdeal.Gen Cert.Lib.RowOps
open Idealize.ShloMosaic Idealize.ShloMosaic.ValueIdx
open Cert.Spec (Mat Row)

/-! ## The row movements of the kernel program -/

/-- The four row movements as the kernel program performs them, as functions of the incidences' vertex numbers `x1`
    and hyperedge numbers `x2`. `gV` copies, for incidence `e`, the operand's row `rv e`: the vertex number of `e`,
    shifted up by 50000 when negative, read signed and clamped into `[0, 49999]`; `gE` likewise with the hyperedge
    numbers and 80000 rows. `sE` adds the incidence rows up per hyperedge and `sV` per vertex, from the zero matrix. -/
def movesK (x1 x2 : IVec S400000 32) : Cert.Spec.Moves where
  gV := fun x => Trace.gatV x x1
  gE := fun x => Trace.gatE x x2
  sE := fun u => Trace.sumE x2 u
  sV := fun u => Trace.sumV x1 u
  rv := fun e => clampRow (N := 50000) (by omega) (Trace.colV x1) e
  re := fun e => clampRow (N := 80000) (by omega) (Trace.colE x2) e
  hgV := fun x e f => hostGather_rows (N := 50000) (E := 400000) (F := 256) (by omega)
    gather_S50000x256_S400000x1_S400000x256_1_0_n_n_0_1_1256
    gather_S50000x256_S400000x1_S400000x256_1_0_n_n_0_1_1256_wf rfl x (Trace.colV x1) e f
  hgE := fun x e f => hostGather_rows (N := 80000) (E := 400000) (F := 256) (by omega)
    gather_S80000x256_S400000x1_S400000x256_1_0_n_n_0_1_1256
    gather_S80000x256_S400000x1_S400000x256_1_0_n_n_0_1_1256_wf rfl x (Trace.colE x2) e f

/-! ## Format changes and slices on the extended reals -/

/-- Narrowing to fewer bits is the identity on arrays of extended reals. -/
theorem truncf_id {s : Shape} {φ ψ : FTy} (x : FVec Ideal s φ) (h : ψ.bits < φ.bits) :
    truncf (F := Ideal) ψ x h = x := rfl

/-- Widening to more bits is the identity on arrays of extended reals. -/
theorem extf_id {s : Shape} {φ ψ : FTy} (x : FVec Ideal s φ) (h : φ.bits < ψ.bits) :
    extf (F := Ideal) ψ x h = x := rfl

/-- The slice of a 512-row matrix starting at row 0 is its upper 256 rows: entry `(r, c)` is entry `(r, c)`. -/
theorem slice0_eq (w : Mat 512 256) :
    extractStridedSlice S256x256 ![0, 0] (w : FVec Ideal S512x256 .f32) slices_S512x256_S256x256_0_0 = Spec.topRows w := by
  funext i
  obtain ⟨r, c, rfl⟩ : ∃ r c, i = ix2 r c := ⟨i 0, i 1, eq_ix2 i⟩
  exact slice2_axis0_apply 0 w slices_S512x256_S256x256_0_0 r c _ (Nat.zero_add _).symm

/-- The slice of a 512-row matrix starting at row 256 is its lower 256 rows: entry `(r, c)` is entry `(256 + r, c)`. -/
theorem slice256_eq (w : Mat 512 256) :
    extractStridedSlice S256x256 ![256, 0] (w : FVec Ideal S512x256 .f32) slices_S512x256_S256x256_256_0 = Spec.botRows w := by
  funext i
  obtain ⟨r, c, rfl⟩ : ∃ r c, i = ix2 r c := ⟨i 0, i 1, eq_ix2 i⟩
  exact slice2_axis0_apply 256 w slices_S512x256_S256x256_256_0 r c _ rfl

/-- The upper 256 rows of the message weight, narrowed: still the upper 256 rows. -/
theorem slice_top (w : Mat 512 256) :
    truncf (F := Ideal) .bf16 (extractStridedSlice S256x256 ![0, 0] (w : FVec Ideal S512x256 .f32) slices_S512x256_S256x256_0_0)
      bitsLt_bf16_f32 = Spec.topRows w := by
  rw [truncf_id, slice0_eq]

/-- The lower 256 rows of the message weight, narrowed: still the lower 256 rows. -/
theorem slice_bot (w : Mat 512 256) :
    truncf (F := Ideal) .bf16 (extractStridedSlice S256x256 ![256, 0] (w : FVec Ideal S512x256 .f32) slices_S512x256_S256x256_256_0)
      bitsLt_bf16_f32 = Spec.botRows w := by
  rw [truncf_id, slice256_eq]

/-! ## The kernel program's arithmetic -/

/-- One layer as the kernel program computes it: `h1` the vertex messages, `p` the vertex part of the incidence
    messages (per vertex), `xe` the hyperedge sums, `q` the hyperedge part of the incidence messages (per hyperedge),
    `xv` the vertex sums of the two parts copied to the incidences and added; every weight narrowed, every copied
    row widened. -/
def kerLayer (x1 x2 : IVec S400000 32) (w1 : Mat 256 256) (b1 : Row 256) (w2 : Mat 512 256) (b2 : Row 256)
    (w3 : Mat 256 256) (b3 : Row 256) (x0 x : Mat 50000 256) : Mat 50000 256 :=
  let h1 : Mat 50000 256 := Spec.addRow (Spec.mm x (truncf (F := Ideal) .bf16 (w1 : FVec Ideal S256x256 .f32) bitsLt_bf16_f32)) b1
  let p : Mat 50000 256 := Spec.mm x (truncf (F := Ideal) .bf16
    (extractStridedSlice S256x256 ![0, 0] (w2 : FVec Ideal S512x256 .f32) slices_S512x256_S256x256_0_0) bitsLt_bf16_f32)
  let xe : Mat 80000 256 := Trace.sumE x2 (extf .f32 (Trace.gatV h1 x1) bitsLt_bf16_f32)
  let q : Mat 80000 256 := Spec.addRow (Spec.mm xe (truncf (F := Ideal) .bf16
    (extractStridedSlice S256x256 ![256, 0] (w2 : FVec Ideal S512x256 .f32) slices_S512x256_S256x256_256_0) bitsLt_bf16_f32)) b2
  let xv : Mat 50000 256 := Trace.sumV x1
    (addf (extf .f32 (Trace.gatV p x1) bitsLt_bf16_f32) (extf .f32 (Trace.gatE q x2) bitsLt_bf16_f32))
  Spec.relu (Spec.addRow (Spec.mm (Spec.mix xv x0) (truncf (F := Ideal) .bf16 (w3 : FVec Ideal S256x256 .f32) bitsLt_bf16_f32)) b3)

/-- The whole network as the kernel program computes it: the input projection, two layers, the two-layer
    classifier; every weight narrowed. -/
def kerNet (x1 x2 : IVec S400000 32) (w1 : Mat 256 256) (b1 : Row 256) (w2 : Mat 512 256) (b2 : Row 256)
    (w3 : Mat 256 256) (b3 : Row 256) (win : Mat 512 256) (bin : Row 256) (c1 : Mat 256 256) (d1 : Row 256)
    (c2 : Mat 256 40) (d2 : Row 40) (x : Mat 50000 512) : Mat 50000 40 :=
  let x0 := Spec.relu (Spec.addRow (Spec.mm x (truncf (F := Ideal) .bf16 (win : FVec Ideal S512x256 .f32) bitsLt_bf16_f32)) bin)
  let y1 := kerLayer x1 x2 w1 b1 w2 b2 w3 b3 x0 x0
  let y2 := kerLayer x1 x2 w1 b1 w2 b2 w3 b3 x0 y1
  Spec.addRow (Spec.mm (Spec.relu (Spec.addRow (Spec.mm y2 (truncf (F := Ideal) .bf16 (c1 : FVec Ideal S256x256 .f32) bitsLt_bf16_f32)) d1))
    (truncf (F := Ideal) .bf16 (c2 : FVec Ideal S256x40 .f32) bitsLt_bf16_f32)) d2

/-- A layer of the kernel program is `Spec.layerSplit`: the narrowings and widenings drop out, the two slices are the
    upper and the lower rows of the message weight, and the sum of the two incidence parts is `Spec.add`. -/
theorem kerLayer_eq (x1 x2 : IVec S400000 32) (w1 : Mat 256 256) (b1 : Row 256) (w2 : Mat 512 256) (b2 : Row 256)
    (w3 : Mat 256 256) (b3 : Row 256) (x0 x : Mat 50000 256) :
    kerLayer x1 x2 w1 b1 w2 b2 w3 b3 x0 x = Spec.layerSplit (movesK x1 x2) w1 b1 w2 b2 w3 b3 x0 x := by
  unfold kerLayer Spec.layerSplit
  simp only [slice0_eq, slice256_eq, truncf_id, extf_id]
  rfl

/-- The kernel program's network is `Spec.netSplit`. -/
theorem kerNet_eq (x1 x2 : IVec S400000 32) (w1 : Mat 256 256) (b1 : Row 256) (w2 : Mat 512 256) (b2 : Row 256)
    (w3 : Mat 256 256) (b3 : Row 256) (win : Mat 512 256) (bin : Row 256) (c1 : Mat 256 256) (d1 : Row 256)
    (c2 : Mat 256 40) (d2 : Row 40) (x : Mat 50000 512) :
    kerNet x1 x2 w1 b1 w2 b2 w3 b3 win bin c1 d1 c2 d2 x
      = Spec.netSplit (movesK x1 x2) w1 b1 w2 b2 w3 b3 win bin c1 d1 c2 d2 x := by
  unfold kerNet Spec.netSplit
  simp only [kerLayer_eq, truncf_id]

end Cert.KernelNet

end
-- ==== Proof.KernelValue.lean ====
/-
  What the idealized kernel program computes, as one function of its arguments.

  Each of the eight regions leaves in its output array one function of the arrays it found at entry (the region
  modules), and the contents each region finds are the arguments, the narrowed weights, an earlier region's output
  or a host stretch's result of earlier outputs (the trace modules). Composed from the input projection down, the
  result array holds the network in the kernel's arrangement: the projection, two layers whose incidence messages
  are formed from the two half products, and the classifier.
-/
import proofs.«173693_j49658411876807_2_alg».proof.Proof.Trace2
import proofs.«173693_j49658411876807_2_alg».proof.Proof.Reg0
import proofs.«173693_j49658411876807_2_alg».proof.Proof.Reg1
import proofs.«173693_j49658411876807_2_alg».proof.Proof.Reg2
import proofs.«173693_j49658411876807_2_alg».proof.Proof.Reg3
import proofs.«173693_j49658411876807_2_alg».proof.Proof.Reg4
import proofs.«173693_j49658411876807_2_alg».proof.Proof.Reg5
import proofs.«173693_j49658411876807_2_alg».proof.Proof.Reg6
import proofs.«173693_j49658411876807_2_alg».proof.Proof.Reg7
import proofs.«173693_j49658411876807_2_alg».proof.Proof.KernelNet

set_option maxRecDepth 16384

noncomputable section

namespace Cert.KernelIdeal.ValueOf

open Cert.KernelIdeal Cert.KernelIdeal.Gen Cert.KernelIdeal.Trace Cert.Spec Cert.KernelNet
open Idealize.ShloMosaic Idealize.ShloMosaic.TcCoe Idealize.SL.Sem

variable (m : (ℓ : Loc nD τ sig) → Buf (Elt Ideal) ℓ) (ρ : Dev nD → PrngReg)

/-- The projected features: the positive part of the input features times the input weight plus its bias. -/
theorem o0_eq (c : Dev nD) :
    o0 m ρ c = relu (addRow (mm (a0 m c) (truncf .bf16 (a3 m c) bitsLt_bf16_f32 : FVec Ideal S512x256 .bf16)) (a4 m c)) := by
  refine (Reg0.final3 (V1 m ρ) c).trans ?_
  unfold Reg0.G3
  rw [in0_0, in0_1, in0_2]

/-- Layer 1, the vertex features times the first weight plus its bias. -/
theorem o1a_eq (c : Dev nD) :
    o1a m ρ c = addRow (mm (o0 m ρ c) (truncf .bf16 (a5 m c) bitsLt_bf16_f32 : FVec Ideal S256x256 .bf16)) (a6 m c) := by
  refine (Reg1.final4 (V2 m ρ) c).trans ?_
  unfold Reg1.G4
  rw [in1_0, in1_1, in1_2]

/-- Layer 1, the vertex features times the upper half of the message weight. -/
theorem o1b_eq (c : Dev nD) :
    o1b m ρ c = mm (o0 m ρ c) (truncf .bf16 (extractStridedSlice S256x256 ![0, 0] (a7 m c) slices_S512x256_S256x256_0_0) bitsLt_bf16_f32 : FVec Ideal S256x256 .bf16) := by
  refine (Reg1.final5 (V2 m ρ) c).trans ?_
  unfold Reg1.G5
  rw [in1_0, in1_3]

/-- Layer 1, the hyperedge sums times the lower half of the message weight plus the message bias. -/
theorem o2_eq (c : Dev nD) :
    o2 m ρ c = addRow (mm (sumE (a2 m c) (extf .f32 (gatV (o1a m ρ c) (a1 m c)) bitsLt_bf16_f32)) (truncf .bf16 (extractStridedSlice S256x256 ![256, 0] (a7 m c) slices_S512x256_S256x256_256_0) bitsLt_bf16_f32 : FVec Ideal S256x256 .bf16)) (a8 m c) := by
  refine (Reg2.final3 (V4 m ρ) c).trans ?_
  unfold Reg2.G3
  rw [in2_0, in2_1, in2_2]

/-- Layer 1's output: the vertex sums mixed with the projected features, times the last weight plus its bias,
    positive part. -/
theorem o3_eq (c : Dev nD) :
    o3 m ρ c = relu (addRow (mm (mix (sumV (a1 m c) (addf (extf .f32 (gatV (o1b m ρ c) (a1 m c)) bitsLt_bf16_f32) (extf .f32 (gatE (o2 m ρ c) (a2 m c)) bitsLt_bf16_f32))) (o0 m ρ c)) (truncf .bf16 (a9 m c) bitsLt_bf16_f32 : FVec Ideal S256x256 .bf16)) (a10 m c)) := by
  refine (Reg3.final4 (V6 m ρ) c).trans ?_
  unfold Reg3.G4
  rw [in3_0, in3_1, in3_2, in3_3]

/-- Layer 2, the vertex features times the first weight plus its bias. -/
theorem o4a_eq (c : Dev nD) :
    o4a m ρ c = addRow (mm (o3 m ρ c) (truncf .bf16 (a5 m c) bitsLt_bf16_f32 : FVec Ideal S256x256 .bf16)) (a6 m c) := by
  refine (Reg4.final4 (V7 m ρ) c).trans ?_
  unfold Reg4.G4
  rw [in4_0, in4_1, in4_2]

/-- Layer 2, the vertex features times the upper half of the message weight. -/
theorem o4b_eq (c : Dev nD) :
    o4b m ρ c = mm (o3 m ρ c) (truncf .bf16 (extractStridedSlice S256x256 ![0, 0] (a7 m c) slices_S512x256_S256x256_0_0) bitsLt_bf16_f32 : FVec Ideal S256x256 .bf16) := by
  refine (Reg4.final5 (V7 m ρ) c).trans ?_
  unfold Reg4.G5
  rw [in4_0, in4_3]

/-- Layer 2, the hyperedge sums times the lower half of the message weight plus the message bias. -/
theorem o5_eq (c : Dev nD) :
    o5 m ρ c = addRow (mm (sumE (a2 m c) (extf .f32 (gatV (o4a m ρ c) (a1 m c)) bitsLt_bf16_f32)) (truncf .bf16 (extractStridedSlice S256x256 ![256, 0] (a7 m c) slices_S512x256_S256x256_256_0) bitsLt_bf16_f32 : FVec Ideal S256x256 .bf16)) (a8 m c) := by
  refine (Reg5.final3 (V9 m ρ) c).trans ?_
  unfold Reg5.G3
  rw [in5_0, in5_1, in5_2]

/-- Layer 2's output. -/
theorem o6_eq (c : Dev nD) :
    o6 m ρ c = relu (addRow (mm (mix (sumV (a1 m c) (addf (extf .f32 (gatV (o4b m ρ c) (a1 m c)) bitsLt_bf16_f32) (extf .f32 (gatE (o5 m ρ c) (a2 m c)) bitsLt_bf16_f32))) (o0 m ρ c)) (truncf .bf16 (a9 m c) bitsLt_bf16_f32 : FVec Ideal S256x256 .bf16)) (a10 m c)) := by
  refine (Reg6.final4 (V11 m ρ) c).trans ?_
  unfold Reg6.G4
  rw [in6_0, in6_1, in6_2, in6_3]

/-- The classifier on layer 2's output. -/
theorem o7_eq (c : Dev nD) :
    o7 m ρ c = addRow (mm (relu (addRow (mm (o6 m ρ c) (truncf .bf16 (a11 m c) bitsLt_bf16_f32 : FVec Ideal S256x256 .bf16)) (a12 m c))) (truncf .bf16 (a13 m c) bitsLt_bf16_f32 : FVec Ideal S256x40 .bf16)) (a14 m c) := by
  refine (Reg7.final5 (V12 m ρ) c).trans ?_
  unfold Reg7.G5
  rw [in7_0, in7_1, in7_2, in7_3, in7_4]

/-- Layer 1 is the kernel's layer of the projected features. -/
theorem layer1 (c : Dev nD) :
    o3 m ρ c = kerLayer (a1 m c) (a2 m c) (a5 m c) (a6 m c) (a7 m c) (a8 m c) (a9 m c) (a10 m c) (o0 m ρ c) (o0 m ρ c) := by
  rw [o3_eq, o2_eq, o1a_eq, o1b_eq]
  rfl

/-- Layer 2 is the kernel's layer of layer 1's output, mixed again with the projected features. -/
theorem layer2 (c : Dev nD) :
    o6 m ρ c = kerLayer (a1 m c) (a2 m c) (a5 m c) (a6 m c) (a7 m c) (a8 m c) (a9 m c) (a10 m c) (o0 m ρ c) (o3 m ρ c) := by
  rw [o6_eq, o5_eq, o4a_eq, o4b_eq]
  rfl

/-- THE RESULT ARRAY after the run is the kernel's arrangement of the network, of the argument arrays. -/
theorem result_eq (c : Dev nD) :
    W13 m ρ c (Proc.devRef .tc main_v78)
      = kerNet (a1 m c) (a2 m c) (a5 m c) (a6 m c) (a7 m c) (a8 m c) (a9 m c) (a10 m c) (a3 m c) (a4 m c)
          (a11 m c) (a12 m c) (a13 m c) (a14 m c) (a0 m c) := by
  rw [out7, o7_eq, layer2, layer1, o0_eq]
  rfl

end Cert.KernelIdeal.ValueOf

end
-- ==== Proof.RefNet.lean ====
/-
  The reference network, stage by stage, as the arithmetic of `Spec` and `Net`.

  The reference program computes, on extended reals with every operation exact,

    x₀ = relu (x · W_in + b_in),
    x' = relu ((½ · S_V (([G_V x | G_E (S_E (G_V (x · W₁ + b₁)))]) · W₂ + b₂) + ½ · x₀) · W₃ + b₃)   (twice, from x = x₀),
    out = relu (x'' · C₁ + d₁) · C₂ + d₂,

  where `G_V`, `G_E` copy, for every incidence, the row of its vertex or of its hyperedge, `S_E`, `S_V` add the
  incidence rows onto their hyperedges or vertices, and `[a | b]` puts two matrices side by side.

  Each dense stage is read entry by entry: a product is the sum over the contracted coordinate of the products of
  the entries, a bias is broadcast along the rows, the positive part is the maximum with zero, and the mixture is
  one half of each summand. The two row copies are whole-row gathers: entry `(e, f)` of the copy is entry
  `(r e, f)` of the operand, where `r e` is the start index of incidence `e` read signed and clamped into the
  operand's rows; the start index is the incidence's vertex (or hyperedge) number with a negative number shifted
  up by the number of rows. Each copy recomputes that column of start indices by the same operations, so all
  copies of one kind read the same rows. The concatenation at `(e, c)` reads the left matrix at `(e, c)` when
  `c < 256` and the right matrix at `(e, c − 256)` otherwise.

  `ref_eq`: the last stage of the reference program is `Spec.netCat` of its inputs, with the row movements
  `movesR` read off the program.
-/
import proofs.«173693_j49658411876807_2_alg».proof.Proof.Gen.ReferenceIdeal.Read
import proofs.«173693_j49658411876807_2_alg».proof.Proof.Net
import proofs.«173693_j49658411876807_2_alg».proof.Proof.LibGatherRows
import Idealize.ShloMosaic.Lib.Pipeline.Value
import Idealize.ShloMosaic.Lib.ValueIdx
import Idealize.ShloMosaic.PureOps.Ideal

noncomputable section

open scoped BigOperators

namespace Cert.RefNet

open Cert.ReferenceIdeal Cert.ReferenceIdeal.Gen Cert.ReferenceIdeal.Read Cert.Lib.RowOps
open Idealize.ShloMosaic Idealize.ShloMosaic.ValueIdx
open Cert.Spec (Mat Row)

/-! ## The dense operations, entry by entry -/

section Closers

variable {m k n : Nat}

/-- A product with a bias at entry `i`: the sum over the contracted coordinate `q` of `X (i₀, q) · w (q, i₁)`, plus
    `b i₁`. The three index functions are whatever the program's reading of the operands computes, given equal
    to the coordinates. -/
theorem dense_close (X : Mat m k) (w : Mat k n) (b : Row n) (i : (⟨2, ![m, n]⟩ : Shape).Idx)
    (l : Fin k → (⟨2, ![m, k]⟩ : Shape).Idx) (r : Fin k → (⟨2, ![k, n]⟩ : Shape).Idx) (c : (⟨1, ![n]⟩ : Shape).Idx)
    (hl : ∀ q, l q = ix2 (i 0) q) (hr : ∀ q, r q = ix2 q (i 1)) (hc : c = ix1 (i 1)) :
    FloatOps.addf (F := Ideal) (φ := .f32) (∑ q : Fin k, X (l q) * w (r q)) (b c) = Spec.addRow (Spec.mm X w) b i := by
  subst hc
  simp only [hl, hr]
  rfl

/-- The positive part of a product with a bias at entry `i`: the maximum of that entry with zero. -/
theorem relu_dense_close (X : Mat m k) (w : Mat k n) (b : Row n) (i : (⟨2, ![m, n]⟩ : Shape).Idx)
    (l : Fin k → (⟨2, ![m, k]⟩ : Shape).Idx) (r : Fin k → (⟨2, ![k, n]⟩ : Shape).Idx) (c : (⟨1, ![n]⟩ : Shape).Idx)
    (hl : ∀ q, l q = ix2 (i 0) q) (hr : ∀ q, r q = ix2 q (i 1)) (hc : c = ix1 (i 1)) :
    FloatOps.maximumf (F := Ideal) (φ := .f32)
        (FloatOps.addf (F := Ideal) (φ := .f32) (∑ q : Fin k, X (l q) * w (r q)) (b c))
        (FloatOps.ofBits (F := Ideal) .f32 0x00000000#32)
      = Spec.relu (Spec.addRow (Spec.mm X w) b) i := by
  subst hc
  simp only [hl, hr]
  rfl

/-- The even mixture at entry `i`: one half of each of the two entries. -/
theorem mix_close (a b : Mat m n) (i : (⟨2, ![m, n]⟩ : Shape).Idx) :
    FloatOps.addf (F := Ideal) (φ := .f32)
        (FloatOps.mulf (F := Ideal) (φ := .f32) (FloatOps.ofBits (F := Ideal) .f32 0x3F000000#32) (a i))
        (FloatOps.mulf (F := Ideal) (φ := .f32) (FloatOps.ofBits (F := Ideal) .f32 0x3F000000#32) (b i))
      = Spec.mix a b i := rfl

/-- Two matrices of 256 columns joined along the columns: entry `(e, c)` is the left matrix at `(e, c)` for
    `c < 256` and the right matrix at `(e, c − 256)` for `c ≥ 256`. -/
theorem cat_eq (a b : Mat m 256)
    (h : Shape.Concatenates [(⟨2, ![m, 256]⟩ : Shape), ⟨2, ![m, 256]⟩] ⟨2, ![m, 512]⟩ 1) :
    concatenate (⟨2, ![m, 512]⟩ : Shape) 1 [⟨⟨2, ![m, 256]⟩, a⟩, ⟨⟨2, ![m, 256]⟩, b⟩] h = Spec.catCols a b := by
  funext j
  unfold Spec.catCols
  by_cases hj : (j 1).val < 256
  · -- a column of the left half
    rw [dif_pos hj]
    refine concatenate_pair_apply_left (1 : Fin 2) a b h j rfl (ix2 (j 0) ⟨(j 1).val, hj⟩) ?_
    intro c
    match c with
    | ⟨0, _⟩ => rfl
    | ⟨1, _⟩ => rfl
  · -- a column of the right half: the left matrix's 256 columns less
    rw [dif_neg hj]
    have h' : (j 1).val < 512 := (j 1).isLt
    refine concatenate_pair_apply_right (1 : Fin 2) a b h j rfl rfl (ix2 (j 0) ⟨(j 1).val - 256, by omega⟩) ?_ ?_
    · intro c hc
      match c with
      | ⟨0, _⟩ => rfl
      | ⟨1, _⟩ => exact absurd rfl hc
    · show (j 1).val - 256 + 256 = (j 1).val
      omega

end Closers

/-- A rank-2 index function of the program equals the index built from the same two coordinates. -/
local macro "idx2" : tactic =>
  `(tactic| (funext a; refine Fin.ext ?_; match a with | ⟨0, _⟩ => rfl | ⟨1, _⟩ => rfl))
/-- A rank-1 index function of the program equals the index built from the same coordinate. -/
local macro "idx1" : tactic =>
  `(tactic| (funext a; refine Fin.ext ?_; match a with | ⟨0, _⟩ => rfl))

/-! ## The row movements of the reference program -/

/-- The four row movements as the reference program performs them, as functions of the incidences' vertex numbers
    `x1` and hyperedge numbers `x2`. `gV` copies, for incidence `e`, the operand's row `rv e`: the vertex number of
    `e`, shifted up by 50000 when negative, read signed and clamped into `[0, 49999]`. `gE` does the same with the
    hyperedge numbers and 80000 rows. `sE` adds the incidence rows onto a zero matrix of 80000 rows at the rows the
    hyperedge numbers name, `sV` onto a zero matrix of 50000 rows at the rows the vertex numbers name. -/
def movesR (x1 x2 : (⟨S400000, .i32⟩ : BufTy).Contents (Elt Ideal)) : Cert.Spec.Moves where
  gV := fun x => Host.gather gather_S50000x256_S400000x1_S400000x256_1_0_n_n_0_1_1256 x (val_main_v14 (F := Ideal) x1)
  gE := fun x => Host.gather gather_S80000x256_S400000x1_S400000x256_1_0_n_n_0_1_1256 x (val_main_v31 (F := Ideal) x2)
  sE := fun u => Host.scatterAdd (F := Ideal) (φ := .f32) scatter_S80000x256_S400000x1_S400000x256_1_0_0_1
    (val_main_v16 (F := Ideal)) (val_main_v17 (F := Ideal) x2) u
  sV := fun u => Host.scatterAdd (F := Ideal) (φ := .f32) scatter_S50000x256_S400000x1_S400000x256_1_0_0_1
    (val_main_v38 (F := Ideal)) (val_main_v39 (F := Ideal) x1) u
  rv := fun e => clampRow (N := 50000) (by omega) (val_main_v14 (F := Ideal) x1) e
  re := fun e => clampRow (N := 80000) (by omega) (val_main_v31 (F := Ideal) x2) e
  hgV := fun x e f => hostGather_rows (N := 50000) (E := 400000) (F := 256) (by omega)
    gather_S50000x256_S400000x1_S400000x256_1_0_n_n_0_1_1256
    gather_S50000x256_S400000x1_S400000x256_1_0_n_n_0_1_1256_wf rfl x (val_main_v14 (F := Ideal) x1) e f
  hgE := fun x e f => hostGather_rows (N := 80000) (E := 400000) (F := 256) (by omega)
    gather_S80000x256_S400000x1_S400000x256_1_0_n_n_0_1_1256
    gather_S80000x256_S400000x1_S400000x256_1_0_n_n_0_1_1256_wf rfl x (val_main_v31 (F := Ideal) x2) e f

variable (x0 : (⟨S50000x512, .f32⟩ : BufTy).Contents (Elt Ideal)) (x1 x2 : (⟨S400000, .i32⟩ : BufTy).Contents (Elt Ideal))
  (x3 : (⟨S512x256, .f32⟩ : BufTy).Contents (Elt Ideal))
  (x4 : (⟨S256, .f32⟩ : BufTy).Contents (Elt Ideal))
  (x5 : (⟨S256x256, .f32⟩ : BufTy).Contents (Elt Ideal))
  (x6 : (⟨S256, .f32⟩ : BufTy).Contents (Elt Ideal))
  (x7 : (⟨S512x256, .f32⟩ : BufTy).Contents (Elt Ideal))
  (x8 : (⟨S256, .f32⟩ : BufTy).Contents (Elt Ideal))
  (x9 : (⟨S256x256, .f32⟩ : BufTy).Contents (Elt Ideal))
  (x10 : (⟨S256, .f32⟩ : BufTy).Contents (Elt Ideal))
  (x11 : (⟨S256x256, .f32⟩ : BufTy).Contents (Elt Ideal))
  (x12 : (⟨S256, .f32⟩ : BufTy).Contents (Elt Ideal))
  (x13 : (⟨S256x40, .f32⟩ : BufTy).Contents (Elt Ideal))
  (x14 : (⟨S40, .f32⟩ : BufTy).Contents (Elt Ideal))

/-! ## The columns of start indices

Every copy recomputes its column of start indices from the same numbers by the same operations (compare with
zero, add the number of rows, choose, reshape to one column), so the columns are equal; likewise the zero
matrices the sums start from and the columns of scatter indices. -/

/-- The start indices of the second copy of vertex rows are those of the first. -/
theorem col24 : val_main_v24 (F := Ideal) x1 = val_main_v14 (F := Ideal) x1 := rfl
/-- The start indices of the vertex-row copies of the second layer are those of the first layer. -/
theorem col60 : val_main_v60 (F := Ideal) x1 = val_main_v14 (F := Ideal) x1 := rfl
theorem col70 : val_main_v70 (F := Ideal) x1 = val_main_v14 (F := Ideal) x1 := rfl
/-- The start indices of the hyperedge-row copy of the second layer are those of the first layer. -/
theorem col77 : val_main_v77 (F := Ideal) x2 = val_main_v31 (F := Ideal) x2 := rfl
/-- The zero matrices and the scatter-index columns of the second layer's sums are those of the first layer. -/
theorem zero62 : val_main_v62 (F := Ideal) = val_main_v16 (F := Ideal) := rfl
theorem col63 : val_main_v63 (F := Ideal) x2 = val_main_v17 (F := Ideal) x2 := rfl
theorem zero84 : val_main_v84 (F := Ideal) = val_main_v38 (F := Ideal) := rfl
theorem col85 : val_main_v85 (F := Ideal) x1 = val_main_v39 (F := Ideal) x1 := rfl

/-! ## The input projection -/

/-- The input projection: `x₀ = relu (x · W_in + b_in)`. -/
theorem v4_eq : val_main_v4 (F := Ideal) x0 x3 x4 = Spec.relu (Spec.addRow (Spec.mm x0 x3) x4) := by
  funext i
  rw [val_main_v4_apply, val_main_call0_v0_apply, val_main_call0_cst_apply, val_main_v3_apply,
    val_main_v0_apply, val_main_v2_apply, val_main_v1_apply]
  exact relu_dense_close _ x3 x4 i (lidx_main_v0 i) (ridx_main_v0 i) _ (fun _ => by idx2) (fun _ => by idx2) (by idx1)

/-! ## The first layer -/

/-- The vertex features sent to the hyperedges: `x₀ · W₁ + b₁`. -/
theorem v8_eq : val_main_v8 (F := Ideal) x0 x3 x4 x5 x6 = Spec.addRow (Spec.mm (val_main_v4 (F := Ideal) x0 x3 x4) x5) x6 := by
  funext i
  rw [val_main_v8_apply, val_main_v5_apply, val_main_v7_apply, val_main_v6_apply]
  exact dense_close _ x5 x6 i (lidx_main_v5 i) (ridx_main_v5 i) _ (fun _ => by idx2) (fun _ => by idx2) (by idx1)

/-- Their rows copied to the incidences. -/
theorem v15_eq : val_main_v15 (F := Ideal) x0 x1 x3 x4 x5 x6 = (movesR x1 x2).gV (val_main_v8 (F := Ideal) x0 x3 x4 x5 x6) := rfl
/-- The incidence rows summed onto the hyperedges. -/
theorem v18_eq : val_main_v18 (F := Ideal) x0 x1 x2 x3 x4 x5 x6 = (movesR x1 x2).sE (val_main_v15 (F := Ideal) x0 x1 x3 x4 x5 x6) := rfl
/-- The vertex features copied to the incidences. -/
theorem v25_eq : val_main_v25 (F := Ideal) x0 x1 x3 x4 = (movesR x1 x2).gV (val_main_v4 (F := Ideal) x0 x3 x4) := by
  unfold val_main_v25
  rw [col24]
  rfl
/-- The hyperedge sums copied to the incidences. -/
theorem v32_eq : val_main_v32 (F := Ideal) x0 x1 x2 x3 x4 x5 x6 = (movesR x1 x2).gE (val_main_v18 (F := Ideal) x0 x1 x2 x3 x4 x5 x6) := rfl
/-- The two copies side by side. -/
theorem v33_eq : val_main_v33 (F := Ideal) x0 x1 x2 x3 x4 x5 x6 = Spec.catCols (val_main_v25 (F := Ideal) x0 x1 x3 x4) (val_main_v32 (F := Ideal) x0 x1 x2 x3 x4 x5 x6) := by
  unfold val_main_v33
  exact cat_eq _ _ _

/-- The incidence messages: the joined rows times the whole 512-row weight, plus the bias. -/
theorem v37_eq : val_main_v37 (F := Ideal) x0 x1 x2 x3 x4 x5 x6 x7 x8 = Spec.addRow (Spec.mm (val_main_v33 (F := Ideal) x0 x1 x2 x3 x4 x5 x6) x7) x8 := by
  funext i
  rw [val_main_v37_apply, val_main_v34_apply, val_main_v36_apply, val_main_v35_apply]
  exact dense_close _ x7 x8 i (lidx_main_v34 i) (ridx_main_v34 i) _ (fun _ => by idx2) (fun _ => by idx2) (by idx1)

/-- The incidence messages summed onto the vertices. -/
theorem v40_eq : val_main_v40 (F := Ideal) x0 x1 x2 x3 x4 x5 x6 x7 x8 = (movesR x1 x2).sV (val_main_v37 (F := Ideal) x0 x1 x2 x3 x4 x5 x6 x7 x8) := rfl

/-- Half of the vertex sums plus half of the input projection. -/
theorem v45_eq : val_main_v45 (F := Ideal) x0 x1 x2 x3 x4 x5 x6 x7 x8 = Spec.mix (val_main_v40 (F := Ideal) x0 x1 x2 x3 x4 x5 x6 x7 x8) (val_main_v4 (F := Ideal) x0 x3 x4) := by
  funext i
  rw [val_main_v45_apply, val_main_v42_apply, val_main_v41_apply, val_main_cst_6_apply,
    val_main_v44_apply, val_main_v43_apply, val_main_cst_7_apply]
  exact mix_close _ _ i

/-- The layer's output: `relu (mixture · W₃ + b₃)`. -/
theorem v50_eq : val_main_v50 (F := Ideal) x0 x1 x2 x3 x4 x5 x6 x7 x8 x9 x10 = Spec.relu (Spec.addRow (Spec.mm (val_main_v45 (F := Ideal) x0 x1 x2 x3 x4 x5 x6 x7 x8) x9) x10) := by
  funext i
  rw [val_main_v50_apply, val_main_call1_v0_apply, val_main_call1_cst_apply, val_main_v49_apply,
    val_main_v46_apply, val_main_v48_apply, val_main_v47_apply]
  exact relu_dense_close _ x9 x10 i (lidx_main_v46 i) (ridx_main_v46 i) _ (fun _ => by idx2) (fun _ => by idx2) (by idx1)

/-- The first layer of the reference program is `Spec.layerCat` at the input projection. -/
theorem layer1_eq : val_main_v50 (F := Ideal) x0 x1 x2 x3 x4 x5 x6 x7 x8 x9 x10
    = Spec.layerCat (movesR x1 x2) x5 x6 x7 x8 x9 x10 (val_main_v4 (F := Ideal) x0 x3 x4) (val_main_v4 (F := Ideal) x0 x3 x4) := by
  rw [v50_eq x0 x1 x2 x3 x4 x5 x6 x7 x8 x9 x10, v45_eq x0 x1 x2 x3 x4 x5 x6 x7 x8, v40_eq x0 x1 x2 x3 x4 x5 x6 x7 x8, v37_eq x0 x1 x2 x3 x4 x5 x6 x7 x8, v33_eq x0 x1 x2 x3 x4 x5 x6, v25_eq x0 x1 x2 x3 x4,
    v32_eq x0 x1 x2 x3 x4 x5 x6, v18_eq x0 x1 x2 x3 x4 x5 x6, v15_eq x0 x1 x2 x3 x4 x5 x6, v8_eq x0 x3 x4 x5 x6]
  rfl

/-! ## The second layer -/

/-- The first layer's output sent to the hyperedges: `x' · W₁ + b₁`. -/
theorem v54_eq : val_main_v54 (F := Ideal) x0 x1 x2 x3 x4 x5 x6 x7 x8 x9 x10 = Spec.addRow (Spec.mm (val_main_v50 (F := Ideal) x0 x1 x2 x3 x4 x5 x6 x7 x8 x9 x10) x5) x6 := by
  funext i
  rw [val_main_v54_apply, val_main_v51_apply, val_main_v53_apply, val_main_v52_apply]
  exact dense_close _ x5 x6 i (lidx_main_v51 i) (ridx_main_v51 i) _ (fun _ => by idx2) (fun _ => by idx2) (by idx1)

/-- Their rows copied to the incidences. -/
theorem v61_eq : val_main_v61 (F := Ideal) x0 x1 x2 x3 x4 x5 x6 x7 x8 x9 x10 = (movesR x1 x2).gV (val_main_v54 (F := Ideal) x0 x1 x2 x3 x4 x5 x6 x7 x8 x9 x10) := by
  unfold val_main_v61
  rw [col60]
  rfl
/-- The incidence rows summed onto the hyperedges. -/
theorem v64_eq : val_main_v64 (F := Ideal) x0 x1 x2 x3 x4 x5 x6 x7 x8 x9 x10 = (movesR x1 x2).sE (val_main_v61 (F := Ideal) x0 x1 x2 x3 x4 x5 x6 x7 x8 x9 x10) := by
  unfold val_main_v64
  rw [zero62, col63]
  rfl
/-- The first layer's output copied to the incidences. -/
theorem v71_eq : val_main_v71 (F := Ideal) x0 x1 x2 x3 x4 x5 x6 x7 x8 x9 x10 = (movesR x1 x2).gV (val_main_v50 (F := Ideal) x0 x1 x2 x3 x4 x5 x6 x7 x8 x9 x10) := by
  unfold val_main_v71
  rw [col70]
  rfl
/-- The hyperedge sums copied to the incidences. -/
theorem v78_eq : val_main_v78 (F := Ideal) x0 x1 x2 x3 x4 x5 x6 x7 x8 x9 x10 = (movesR x1 x2).gE (val_main_v64 (F := Ideal) x0 x1 x2 x3 x4 x5 x6 x7 x8 x9 x10) := by
  unfold val_main_v78
  rw [col77]
  rfl
/-- The two copies side by side. -/
theorem v79_eq : val_main_v79 (F := Ideal) x0 x1 x2 x3 x4 x5 x6 x7 x8 x9 x10 = Spec.catCols (val_main_v71 (F := Ideal) x0 x1 x2 x3 x4 x5 x6 x7 x8 x9 x10) (val_main_v78 (F := Ideal) x0 x1 x2 x3 x4 x5 x6 x7 x8 x9 x10) := by
  unfold val_main_v79
  exact cat_eq _ _ _

/-- The incidence messages of the second layer. -/
theorem v83_eq : val_main_v83 (F := Ideal) x0 x1 x2 x3 x4 x5 x6 x7 x8 x9 x10 = Spec.addRow (Spec.mm (val_main_v79 (F := Ideal) x0 x1 x2 x3 x4 x5 x6 x7 x8 x9 x10) x7) x8 := by
  funext i
  rw [val_main_v83_apply, val_main_v80_apply, val_main_v82_apply, val_main_v81_apply]
  exact dense_close _ x7 x8 i (lidx_main_v80 i) (ridx_main_v80 i) _ (fun _ => by idx2) (fun _ => by idx2) (by idx1)

/-- The incidence messages summed onto the vertices. -/
theorem v86_eq : val_main_v86 (F := Ideal) x0 x1 x2 x3 x4 x5 x6 x7 x8 x9 x10 = (movesR x1 x2).sV (val_main_v83 (F := Ideal) x0 x1 x2 x3 x4 x5 x6 x7 x8 x9 x10) := by
  unfold val_main_v86
  rw [zero84, col85]
  rfl

/-- Half of the vertex sums plus half of the input projection (the same `x₀` as in the first layer). -/
theorem v91_eq : val_main_v91 (F := Ideal) x0 x1 x2 x3 x4 x5 x6 x7 x8 x9 x10 = Spec.mix (val_main_v86 (F := Ideal) x0 x1 x2 x3 x4 x5 x6 x7 x8 x9 x10) (val_main_v4 (F := Ideal) x0 x3 x4) := by
  funext i
  rw [val_main_v91_apply, val_main_v88_apply, val_main_v87_apply, val_main_cst_16_apply,
    val_main_v90_apply, val_main_v89_apply, val_main_cst_17_apply]
  exact mix_close _ _ i

/-- The second layer's output. -/
theorem v96_eq : val_main_v96 (F := Ideal) x0 x1 x2 x3 x4 x5 x6 x7 x8 x9 x10 = Spec.relu (Spec.addRow (Spec.mm (val_main_v91 (F := Ideal) x0 x1 x2 x3 x4 x5 x6 x7 x8 x9 x10) x9) x10) := by
  funext i
  rw [val_main_v96_apply, val_main_call2_v0_apply, val_main_call2_cst_apply, val_main_v95_apply,
    val_main_v92_apply, val_main_v94_apply, val_main_v93_apply]
  exact relu_dense_close _ x9 x10 i (lidx_main_v92 i) (ridx_main_v92 i) _ (fun _ => by idx2) (fun _ => by idx2) (by idx1)

/-- The second layer of the reference program is `Spec.layerCat` at the first layer's output. -/
theorem layer2_eq : val_main_v96 (F := Ideal) x0 x1 x2 x3 x4 x5 x6 x7 x8 x9 x10
    = Spec.layerCat (movesR x1 x2) x5 x6 x7 x8 x9 x10 (val_main_v4 (F := Ideal) x0 x3 x4) (val_main_v50 (F := Ideal) x0 x1 x2 x3 x4 x5 x6 x7 x8 x9 x10) := by
  rw [v96_eq x0 x1 x2 x3 x4 x5 x6 x7 x8 x9 x10, v91_eq x0 x1 x2 x3 x4 x5 x6 x7 x8 x9 x10, v86_eq x0 x1 x2 x3 x4 x5 x6 x7 x8 x9 x10, v83_eq x0 x1 x2 x3 x4 x5 x6 x7 x8 x9 x10, v79_eq x0 x1 x2 x3 x4 x5 x6 x7 x8 x9 x10, v71_eq x0 x1 x2 x3 x4 x5 x6 x7 x8 x9 x10,
    v78_eq x0 x1 x2 x3 x4 x5 x6 x7 x8 x9 x10, v64_eq x0 x1 x2 x3 x4 x5 x6 x7 x8 x9 x10, v61_eq x0 x1 x2 x3 x4 x5 x6 x7 x8 x9 x10, v54_eq x0 x1 x2 x3 x4 x5 x6 x7 x8 x9 x10]
  rfl

/-! ## The classifier and the whole network -/

/-- The classifier's hidden layer: `relu (x'' · C₁ + d₁)`. -/
theorem v101_eq : val_main_v101 (F := Ideal) x0 x1 x2 x3 x4 x5 x6 x7 x8 x9 x10 x11 x12 = Spec.relu (Spec.addRow (Spec.mm (val_main_v96 (F := Ideal) x0 x1 x2 x3 x4 x5 x6 x7 x8 x9 x10) x11) x12) := by
  funext i
  rw [val_main_v101_apply, val_main_call3_v0_apply, val_main_call3_cst_apply, val_main_v100_apply,
    val_main_v97_apply, val_main_v99_apply, val_main_v98_apply]
  exact relu_dense_close _ x11 x12 i (lidx_main_v97 i) (ridx_main_v97 i) _ (fun _ => by idx2) (fun _ => by idx2) (by idx1)

/-- The classifier's output: `hidden · C₂ + d₂`. -/
theorem v105_eq : val_main_v105 (F := Ideal) x0 x1 x2 x3 x4 x5 x6 x7 x8 x9 x10 x11 x12 x13 x14 = Spec.addRow (Spec.mm (val_main_v101 (F := Ideal) x0 x1 x2 x3 x4 x5 x6 x7 x8 x9 x10 x11 x12) x13) x14 := by
  funext i
  rw [val_main_v105_apply, val_main_v102_apply, val_main_v104_apply, val_main_v103_apply]
  exact dense_close _ x13 x14 i (lidx_main_v102 i) (ridx_main_v102 i) _ (fun _ => by idx2) (fun _ => by idx2) (by idx1)

/-- The reference program's result is the network `Spec.netCat` of its inputs, with the row movements `movesR`. -/
theorem ref_eq : val_main_v105 (F := Ideal) x0 x1 x2 x3 x4 x5 x6 x7 x8 x9 x10 x11 x12 x13 x14
    = Spec.netCat (movesR x1 x2) x5 x6 x7 x8 x9 x10 x3 x4 x11 x12 x13 x14 x0 := by
  rw [v105_eq x0 x1 x2 x3 x4 x5 x6 x7 x8 x9 x10 x11 x12 x13 x14, v101_eq x0 x1 x2 x3 x4 x5 x6 x7 x8 x9 x10 x11 x12, layer2_eq x0 x1 x2 x3 x4 x5 x6 x7 x8 x9 x10, layer1_eq x0 x1 x2 x3 x4 x5 x6 x7 x8 x9 x10, v4_eq x0 x3 x4]
  rfl

end Cert.RefNet

end
-- ==== Proof.lean ====
/-
  A hypergraph network — an input projection, two message-passing layers, a two-layer classifier — computed by
  eight pipelined kernels with host gathers and scatter-adds between them, against the plain array program.

  The two programs differ in ONE place. For every incidence (a vertex–hyperedge pair) a layer forms a message from
  the vertex's features `x v` and the hyperedge's summed features `xe e`. The reference lays the two rows side by
  side and multiplies by the whole 512-row message weight, then adds the bias:
      [x v | xe e] · W + b.
  The kernel multiplies the vertex features by the upper 256 rows of `W` and the hyperedge sums by the lower 256 rows
  (adding `b` there) once per vertex and per hyperedge, and only then copies rows out to the incidences and adds:
      (x · W_upper) v + (xe · W_lower + b) e.
  On the extended reals these are equal entry by entry: a sum over 512 terms splits at 256, a row copy commutes with a
  product on the feature axis, and addition is associative (`Spec.net_eq`). Nothing is cancelled or distributed, so
  the finiteness of the inputs is never used. Everything else — the blocked products against whole products, the
  narrowing of weights and rows to sixteen bits and back, the tiling of the rows into blocks of 2000 — is the identity
  at the exact values.

  The kernel's side: every weakly fair execution ends with the result array at the last segment boundary's contents
  (`RunValue.run`), which the trace through @main and the eight regions' whole-array functions compose to the
  kernel's arrangement of the network (`ValueOf.result_eq`, `KernelNet.kerNet_eq`). The reference's side: its run
  ends at its operations' composed term, which is the reference's arrangement (`RefNet.ref_eq`). The host gathers and
  scatter-adds are the same operations on both sides and stay opaque, but for the one fact that a gather copies rows.
-/
import proofs.«173693_j49658411876807_2_alg».proof.Proof.Gen.Kernel
import proofs.«173693_j49658411876807_2_alg».proof.Proof.Gen.Kernel.Frame
import proofs.«173693_j49658411876807_2_alg».proof.Proof.Gen.KernelIdeal
import proofs.«173693_j49658411876807_2_alg».proof.Proof.Gen.KernelIdeal.Frame
import proofs.«173693_j49658411876807_2_alg».proof.Proof.Gen.ReferenceIdeal
import proofs.«173693_j49658411876807_2_alg».proof.Proof.Gen.Pre_finite_inputs
import proofs.«173693_j49658411876807_2_alg».proof.Proof.Gen.ReferenceIdeal.Read
import proofs.«173693_j49658411876807_2_alg».proof.Proof.KernelRun
import proofs.«173693_j49658411876807_2_alg».proof.Proof.KernelValue
import proofs.«173693_j49658411876807_2_alg».proof.Proof.KernelNet
import proofs.«173693_j49658411876807_2_alg».proof.Proof.RefNet
import proofs.«173693_j49658411876807_2_alg».proof.Proof.NetLaw
import proofs.«173693_j49658411876807_2_alg».proof.Defs
import Idealize.ShloMosaic.Adequacy
import Idealize.ShloMosaic.Init

set_option maxRecDepth 16384

noncomputable section

namespace Cert.Proof

open Idealize.ShloMosaic Idealize.ShloMosaic.TcCoe Idealize.SL.Sem

/-! ## The row movements of the two programs are the same functions -/

section Moves

open Cert.KernelNet Cert.RefNet

variable (x1 x2 : IVec Cert.KernelIdeal.S400000 32)

/-- The copy of the vertex rows: the same gather of the same index column in both programs. -/
theorem gV_same : (movesK x1 x2).gV = (movesR x1 x2).gV := rfl
/-- The copy of the hyperedge rows. -/
theorem gE_same : (movesK x1 x2).gE = (movesR x1 x2).gE := rfl
/-- The sum onto the hyperedges: the same scatter-add onto zeros through the same index column. -/
theorem sE_same : (movesK x1 x2).sE = (movesR x1 x2).sE := rfl
/-- The sum onto the vertices. -/
theorem sV_same : (movesK x1 x2).sV = (movesR x1 x2).sV := rfl

end Moves

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact values both programs end with the network of the argument arrays in the result: the kernel's
    arrangement and the reference's, one function. -/
theorem algebraic : Cert.algebraic_KernelIdeal_ReferenceIdeal := by
  intro m ρ m' ρ' _ hagree
  refine ⟨fun c => Cert.KernelIdeal.Gen.W13 m ρ c (Proc.devRef .tc Cert.KernelIdeal.main_v78),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v105_eq, h0, h1, h2, h3, h4, h5, h6, h7, h8, h9, h10, h11, h12, h13, h14,
    Cert.RefNet.ref_eq]
  refine Eq.trans ?_ (Cert.KernelIdeal.ValueOf.result_eq m ρ c).symm
  rw [Cert.KernelNet.kerNet_eq, Cert.Spec.net_eq]
  exact (Cert.Spec.netCat_congr _ _ _ _ _ _ _ _ _ _ _ _ _ _ (gV_same _ _) (gE_same _ _) (sE_same _ _) (sV_same _ _) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
